-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62_1)) (v1 : (c : Dev Cert.KernelIdeal.nD) → Buf (Elt Ideal) ((c.tc : Thread Cert.KernelIdeal.nD Cert.KernelIdeal.τ).loc Cert.KernelIdeal.main_v62_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62_1) = v0 c
          ∧ r.2.mem ((c.tc : Thread Cert.KernelIdeal.nD Cert.KernelIdeal.τ).loc Cert.KernelIdeal.main_v62_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_v100) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x256 .f32) (main_arg1 : IVec S2x1600000 32) (main_arg2 : FVec F S256x128 .f32) (main_arg3 : FVec F S128 .f32) (main_arg4 : FVec F S128x64 .f32) (main_arg5 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x256 : Shape := ⟨2, ![50000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x128 : Shape := ⟨2, ![50000, 128]⟩
abbrev S5000x256 : Shape := ⟨2, ![5000, 256]⟩
abbrev S5000x128 : Shape := ⟨2, ![5000, 128]⟩
abbrev S1650000x128 : Shape := ⟨2, ![1650000, 128]⟩
abbrev S1x128 : Shape := ⟨2, ![1, 128]⟩
abbrev S50000x64 : Shape := ⟨2, ![50000, 64]⟩
abbrev S5000x64 : Shape := ⟨2, ![5000, 64]⟩
abbrev S1650000x64 : Shape := ⟨2, ![1650000, 64]⟩
abbrev S1x64 : Shape := ⟨2, ![1, 64]⟩

abbrev nBuf : Space → Nat
  | .hbm => 86
  | .vmem => 18
  | .smem => 0
  | _ => 0

abbrev bufTy : (tb : Table) → Fin (tcTables nBuf tb) → BufTy
  | .hbm, ⟨0, _⟩ => ⟨S50000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x1600000, .i32⟩
  | .hbm, ⟨8, _⟩ => ⟨S1600000, .i32⟩
  | .hbm, ⟨9, _⟩ => ⟨S1650000, .i32⟩
  | .hbm, ⟨10, _⟩ => ⟨S1x1600000, .i32⟩
  | .hbm, ⟨11, _⟩ => ⟨S1600000, .i32⟩
  | .hbm, ⟨12, _⟩ => ⟨S1650000, .i32⟩
  | .hbm, ⟨13, _⟩ => ⟨S_, .f32⟩
  | .hbm, ⟨14, _⟩ => ⟨S1650000, .f32⟩
  | .hbm, ⟨15, _⟩ => ⟨S_, .f32⟩
  | .hbm, ⟨16, _⟩ => ⟨S50000, .f32⟩
  | .hbm, ⟨17, _⟩ => ⟨S1650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S1650000, .i32⟩
  | .hbm, ⟨29, _⟩ => ⟨S1650000, .i1⟩
  | .hbm, ⟨30, _⟩ => ⟨S_, .i32⟩
  | .hbm, ⟨31, _⟩ => ⟨S1650000, .i32⟩
  | .hbm, ⟨32, _⟩ => ⟨S1650000, .i32⟩
  | .hbm, ⟨33, _⟩ => ⟨S1650000, .i32⟩
  | .hbm, ⟨34, _⟩ => ⟨S1650000x1, .i32⟩
  | .hbm, ⟨35, _⟩ => ⟨S1650000, .f32⟩
  | .hbm, ⟨36, _⟩ => ⟨S_, .i32⟩
  | .hbm, ⟨37, _⟩ => ⟨S1650000, .i32⟩
  | .hbm, ⟨38, _⟩ => ⟨S1650000, .i1⟩
  | .hbm, ⟨39, _⟩ => ⟨S_, .i32⟩
  | .hbm, ⟨40, _⟩ => ⟨S1650000, .i32⟩
  | .hbm, ⟨41, _⟩ => ⟨S1650000, .i32⟩
  | .hbm, ⟨42, _⟩ => ⟨S1650000, .i32⟩
  | .hbm, ⟨43, _⟩ => ⟨S1650000x1, .i32⟩
  | .hbm, ⟨44, _⟩ => ⟨S1650000, .f32⟩
  | .hbm, ⟨45, _⟩ => ⟨S1650000, .f32⟩
  | .hbm, ⟨46, _⟩ => ⟨S50000x128, .bf16⟩
  | .hbm, ⟨47, _⟩ => ⟨S_, .i32⟩
  | .hbm, ⟨48, _⟩ => ⟨S1650000, .i32⟩
  | .hbm, ⟨49, _⟩ => ⟨S1650000, .i1⟩
  | .hbm, ⟨50, _⟩ => ⟨S_, .i32⟩
  | .hbm, ⟨51, _⟩ => ⟨S1650000, .i32⟩
  | .hbm, ⟨52, _⟩ => ⟨S1650000, .i32⟩
  | .hbm, ⟨53, _⟩ => ⟨S1650000, .i32⟩
  | .hbm, ⟨54, _⟩ => ⟨S1650000x1, .i32⟩
  | .hbm, ⟨55, _⟩ => ⟨S1650000x128, .bf16⟩
  | .hbm, ⟨56, _⟩ => ⟨S1650000x128, .f32⟩
  | .hbm, ⟨57, _⟩ => ⟨S1650000x1, .f32⟩
  | .hbm, ⟨58, _⟩ => ⟨S1650000x128, .f32⟩
  | .hbm, ⟨59, _⟩ => ⟨S1650000x128, .f32⟩
  | .hbm, ⟨60, _⟩ => ⟨S_, .f32⟩
  | .hbm, ⟨61, _⟩ => ⟨S50000x128, .f32⟩
  | .hbm, ⟨62, _⟩ => ⟨S1650000x1, .i32⟩
  | .hbm, ⟨63, _⟩ => ⟨S50000x128, .f32⟩
  | .hbm, ⟨64, _⟩ => ⟨S1x128, .f32⟩
  | .hbm, ⟨65, _⟩ => ⟨S50000x64, .bf16⟩
  | .hbm, ⟨66, _⟩ => ⟨S_, .i32⟩
  | .hbm, ⟨67, _⟩ => ⟨S1650000, .i32⟩
  | .hbm, ⟨68, _⟩ => ⟨S1650000, .i1⟩
  | .hbm, ⟨69, _⟩ => ⟨S_, .i32⟩
  | .hbm, ⟨70, _⟩ => ⟨S1650000, .i32⟩
  | .hbm, ⟨71, _⟩ => ⟨S1650000, .i32⟩
  | .hbm, ⟨72, _⟩ => ⟨S1650000, .i32⟩
  | .hbm, ⟨73, _⟩ => ⟨S1650000x1, .i32⟩
  | .hbm, ⟨74, _⟩ => ⟨S1650000x64, .bf16⟩
  | .hbm, ⟨75, _⟩ => ⟨S1650000x64, .f32⟩
  | .hbm, ⟨76, _⟩ => ⟨S1650000x1, .f32⟩
  | .hbm, ⟨77, _⟩ => ⟨S1650000x64, .f32⟩
  | .hbm, ⟨78, _⟩ => ⟨S1650000x64, .f32⟩
  | .hbm, ⟨79, _⟩ => ⟨S_, .f32⟩
  | .hbm, ⟨80, _⟩ => ⟨S50000x64, .f32⟩
  | .hbm, ⟨81, _⟩ => ⟨S1650000x1, .i32⟩
  | .hbm, ⟨82, _⟩ => ⟨S50000x64, .f32⟩
  | .hbm, ⟨83, _⟩ => ⟨S1x64, .f32⟩
  | .hbm, ⟨84, _⟩ => ⟨S50000x64, .f32⟩
  | .hbm, ⟨85, _⟩ => ⟨S50000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .bf16⟩
  | .local _ .vmem, ⟨4, _⟩ => ⟨S5000x128, .bf16⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x64, .f32⟩
  | .local _ .vmem, ⟨9, _⟩ => ⟨S5000x64, .bf16⟩
  | .local _ .vmem, ⟨10, _⟩ => ⟨S5000x64, .bf16⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62_0 : Ref sig .tc := ⟨.hbm, 84, rfl⟩
abbrev main_v62_1 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  natLt_1_32 : 1 < 32
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x256_S256x128_S5000x128_1_0_0_1_n_n_wf : DotDims.WF S5000x256 S256x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S5000x128_S128x64_S5000x64_1_0_0_1_n_n_wf : DotDims.WF S5000x128 S128x64 S5000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .bf16 = 32 ∨ (Rect.block (s := S50000x128) S5000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .bf16 = 32 ∨ (Rect.block (s := S50000x64) S5000x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62_0) S5000x64.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v62_1) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x128 : Shape := ⟨2, ![50000, 128]⟩
abbrev S1650000x128 : Shape := ⟨2, ![1650000, 128]⟩
abbrev S1x128 : Shape := ⟨2, ![1, 128]⟩
abbrev S50000x64 : Shape := ⟨2, ![50000, 64]⟩
abbrev S1650000x64 : Shape := ⟨2, ![1650000, 64]⟩
abbrev S1x64 : Shape := ⟨2, ![1, 64]⟩

abbrev nBuf : Space → Nat
  | .hbm => 141
  | .vmem => 0
  | .smem => 0
  | _ => 0

abbrev hbmTy0_0 (i : Nat) : BufTy := match i % 128 with
  | 0 => ⟨S50000x256, .f32⟩
  | 1 => ⟨S2x1600000, .i32⟩
  | 2 => ⟨S256x128, .f32⟩
  | 3 => ⟨S128, .f32⟩
  | 4 => ⟨S128x64, .f32⟩
  | 5 => ⟨S64, .f32⟩
  | 6 => ⟨S50000, .i32⟩
  | 7 => ⟨S1x1600000, .i32⟩
  | 8 => ⟨S1600000, .i32⟩
  | 9 => ⟨S1650000, .i32⟩
  | 10 => ⟨S1x1600000, .i32⟩
  | 11 => ⟨S1600000, .i32⟩
  | 12 => ⟨S1650000, .i32⟩
  | 13 => ⟨S_, .f32⟩
  | 14 => ⟨S1650000, .f32⟩
  | 15 => ⟨S_, .f32⟩
  | 16 => ⟨S50000, .f32⟩
  | 17 => ⟨S1650000x1, .i32⟩
  | 18 => ⟨S50000, .f32⟩
  | 19 => ⟨S_, .f32⟩
  | 20 => ⟨S50000, .f32⟩
  | 21 => ⟨S50000, .i1⟩
  | 22 => ⟨S50000, .f32⟩
  | 23 => ⟨S_, .f32⟩
  | 24 => ⟨S_, .f32⟩
  | 25 => ⟨S50000, .f32⟩
  | 26 => ⟨S50000, .f32⟩
  | 27 => ⟨S_, .i32⟩
  | 28 => ⟨S1650000, .i32⟩
  | 29 => ⟨S1650000, .i1⟩
  | 30 => ⟨S_, .i32⟩
  | 31 => ⟨S1650000, .i32⟩
  | 32 => ⟨S1650000, .i32⟩
  | 33 => ⟨S1650000, .i32⟩
  | 34 => ⟨S1650000x1, .i32⟩
  | 35 => ⟨S1650000, .f32⟩
  | 36 => ⟨S_, .i32⟩
  | 37 => ⟨S1650000, .i32⟩
  | 38 => ⟨S1650000, .i1⟩
  | 39 => ⟨S_, .i32⟩
  | 40 => ⟨S1650000, .i32⟩
  | 41 => ⟨S1650000, .i32⟩
  | 42 => ⟨S1650000, .i32⟩
  | 43 => ⟨S1650000x1, .i32⟩
  | 44 => ⟨S1650000, .f32⟩
  | 45 => ⟨S1650000, .f32⟩
  | 46 => ⟨S50000x128, .f32⟩
  | 47 => ⟨S_, .i32⟩
  | 48 => ⟨S1650000, .i32⟩
  | 49 => ⟨S1650000, .i1⟩
  | 50 => ⟨S_, .i32⟩
  | 51 => ⟨S1650000, .i32⟩
  | 52 => ⟨S1650000, .i32⟩
  | 53 => ⟨S1650000, .i32⟩
  | 54 => ⟨S1650000x1, .i32⟩
  | 55 => ⟨S1650000x128, .f32⟩
  | 56 => ⟨S1650000x1, .f32⟩
  | 57 => ⟨S1650000x128, .f32⟩
  | 58 => ⟨S1650000x128, .f32⟩
  | 59 => ⟨S_, .f32⟩
  | 60 => ⟨S50000x128, .f32⟩
  | 61 => ⟨S1650000x1, .i32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S50000, .i32⟩
  | 70 => ⟨S1x1600000, .i32⟩
  | 71 => ⟨S1600000, .i32⟩
  | 72 => ⟨S1650000, .i32⟩
  | 73 => ⟨S1x1600000, .i32⟩
  | 74 => ⟨S1600000, .i32⟩
  | 75 => ⟨S1650000, .i32⟩
  | 76 => ⟨S_, .f32⟩
  | 77 => ⟨S1650000, .f32⟩
  | 78 => ⟨S_, .f32⟩
  | 79 => ⟨S50000, .f32⟩
  | 80 => ⟨S1650000x1, .i32⟩
  | 81 => ⟨S50000, .f32⟩
  | 82 => ⟨S_, .f32⟩
  | 83 => ⟨S50000, .f32⟩
  | 84 => ⟨S50000, .i1⟩
  | 85 => ⟨S50000, .f32⟩
  | 86 => ⟨S_, .f32⟩
  | 87 => ⟨S_, .f32⟩
  | 88 => ⟨S50000, .f32⟩
  | 89 => ⟨S50000, .f32⟩
  | 90 => ⟨S_, .i32⟩
  | 91 => ⟨S1650000, .i32⟩
  | 92 => ⟨S1650000, .i1⟩
  | 93 => ⟨S_, .i32⟩
  | 94 => ⟨S1650000, .i32⟩
  | 95 => ⟨S1650000, .i32⟩
  | 96 => ⟨S1650000, .i32⟩
  | 97 => ⟨S1650000x1, .i32⟩
  | 98 => ⟨S1650000, .f32⟩
  | 99 => ⟨S_, .i32⟩
  | 100 => ⟨S1650000, .i32⟩
  | 101 => ⟨S1650000, .i1⟩
  | 102 => ⟨S_, .i32⟩
  | 103 => ⟨S1650000, .i32⟩
  | 104 => ⟨S1650000, .i32⟩
  | 105 => ⟨S1650000, .i32⟩
  | 106 => ⟨S1650000x1, .i32⟩
  | 107 => ⟨S1650000, .f32⟩
  | 108 => ⟨S1650000, .f32⟩
  | 109 => ⟨S50000x64, .f32⟩
  | 110 => ⟨S_, .i32⟩
  | 111 => ⟨S1650000, .i32⟩
  | 112 => ⟨S1650000, .i1⟩
  | 113 => ⟨S_, .i32⟩
  | 114 => ⟨S1650000, .i32⟩
  | 115 => ⟨S1650000, .i32⟩
  | 116 => ⟨S1650000, .i32⟩
  | 117 => ⟨S1650000x1, .i32⟩
  | 118 => ⟨S1650000x64, .f32⟩
  | 119 => ⟨S1650000x1, .f32⟩
  | 120 => ⟨S1650000x64, .f32⟩
  | 121 => ⟨S1650000x64, .f32⟩
  | 122 => ⟨S_, .f32⟩
  | 123 => ⟨S50000x64, .f32⟩
  | 124 => ⟨S1650000x1, .i32⟩
  | 125 => ⟨S50000x64, .f32⟩
  | 126 => ⟨S1x64, .f32⟩
  | 127 => ⟨S50000x64, .f32⟩
  | _ => ⟨S50000x256, .f32⟩

abbrev hbmTy0_1 (i : Nat) : BufTy := match i % 128 with
  | 0 => ⟨S50000x64, .f32⟩
  | 1 => ⟨S50000x64, .f32⟩
  | 2 => ⟨S50000x64, .f32⟩
  | 3 => ⟨S_, .f32⟩
  | 4 => ⟨S50000x64, .f32⟩
  | 5 => ⟨S50000x64, .f32⟩
  | 6 => ⟨S_, .f32⟩
  | 7 => ⟨S50000x64, .f32⟩
  | 8 => ⟨S50000x64, .f32⟩
  | 9 => ⟨S_, .f32⟩
  | 10 => ⟨S50000x64, .f32⟩
  | 11 => ⟨S50000x64, .i1⟩
  | 12 => ⟨S50000x64, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_20 : Ref sig .tc := ⟨.hbm, 131, rfl⟩
abbrev main_v97 : Ref sig .tc := ⟨.hbm, 132, rfl⟩
abbrev main_v98 : Ref sig .tc := ⟨.hbm, 133, rfl⟩
abbrev main_cst_21 : Ref sig .tc := ⟨.hbm, 134, rfl⟩
abbrev main_v99 : Ref sig .tc := ⟨.hbm, 135, rfl⟩
abbrev main_v100 : Ref sig .tc := ⟨.hbm, 136, rfl⟩
abbrev main_cst_22 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x256_S256x128_S50000x128_1_0_0_1_n_n_wf : DotDims.WF S50000x256 S256x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x64_S50000x64_1_0_0_1_n_n_wf : DotDims.WF S50000x128 S128x64 S50000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf

class Facts : Prop extends Facts₀ where

variable [Facts]
-- ==== Proof.KRun.lean ====
/-
  The idealized kernel program's run, with its two results named.

  The program is eight stretches in a row: three lines of host operations, the first matrix-product region, a line of host
  operations, the second region, another line, the last region. The buffer contents at each boundary are a fold from
  the launch memory (`Gen.W0` … `Gen.W8`), and every weakly fair execution ends with every unscoped buffer at the last
  boundary's contents. Read at the two result arrays and at the six arguments, that is the statement below: the
  results hold what the fold leaves there, the arguments what they were launched with.
-/
import proofs.«156578_j35175782154949_2_alg».proof.Proof.Gen.KernelIdeal.Frame

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the predictions and the probabilities end at
    the last boundary's contents of their buffers, and the six arguments end as launched. -/
theorem run_named : θ_run defs (onTc (τ := τ) (main (F := F))) ⟨m, fun _ => 0, ρ⟩ (fun r => ∀ c : Dev nD,
      r.2.mem ((c.tc : Thread nD τ).loc main_v62_1) = W8 m ρ c (Proc.devRef .tc main_v62_1)
      ∧ r.2.mem ((c.tc : Thread nD τ).loc main_v62_0) = W8 m ρ c (Proc.devRef .tc main_v62_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v62_1 (by decide)),
       h c _ (mem_uc main_v62_0 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.KValue

end
-- ==== Proof.Spec.lean ====
/-
  The two-layer graph convolution, as whole-array functions of its six inputs over the extended reals.

  From the edge list `e` (two rows of 1 600 000 node numbers) every node gets a self loop: `src e` and `dst e` are the
  two rows each followed by 0, 1, …, 49 999. A node's degree is the number of edges ending in it (`deg`), its weight
  `dinv` is the reciprocal square root of the degree where that is positive and 0 elsewhere, and an edge's weight
  `norm` is the product of the weights of its two ends. One aggregation step (`agg128`, `agg64`) takes a matrix `h` of
  one row per node, reads the row of each edge's source, scales it by the edge's weight and adds it into the row of the
  edge's target. The network is  prob = σ(agg (relu (agg (x·W1) + b1) · W2) + b2)  with σ(t) = 1 / (1 + exp (−t)),
  and  pred  is 1 where prob > 1/2 and 0 elsewhere.

  Everything is spelled with the host's operations (scatter with addition, gather, broadcast in given axes), so that a
  program computing the same steps in the same order reads back as these functions by unfolding alone.
-/
import Idealize.ShloMosaic.PureOps
import Idealize.ShloMosaic.PureOps.Ideal

noncomputable section

namespace Cert.GCN

open Idealize.ShloMosaic

abbrev SX : Shape := ⟨2, ![50000, 256]⟩
abbrev SE2 : Shape := ⟨2, ![2, 1600000]⟩
abbrev SE1 : Shape := ⟨2, ![1, 1600000]⟩
abbrev SEd : Shape := ⟨1, ![1600000]⟩
abbrev SW1 : Shape := ⟨2, ![256, 128]⟩
abbrev SB1 : Shape := ⟨1, ![128]⟩
abbrev SW2 : Shape := ⟨2, ![128, 64]⟩
abbrev SB2 : Shape := ⟨1, ![64]⟩
abbrev SN : Shape := ⟨1, ![50000]⟩
abbrev SM : Shape := ⟨1, ![1650000]⟩
abbrev SM1 : Shape := ⟨2, ![1650000, 1]⟩
abbrev S0 : Shape := ⟨0, ![]⟩
abbrev SH : Shape := ⟨2, ![50000, 128]⟩
abbrev SMH : Shape := ⟨2, ![1650000, 128]⟩
abbrev SR1 : Shape := ⟨2, ![1, 128]⟩
abbrev SC : Shape := ⟨2, ![50000, 64]⟩
abbrev SMC : Shape := ⟨2, ![1650000, 64]⟩
abbrev SR2 : Shape := ⟨2, ![1, 64]⟩

/-! ## The dimension records -/

def scatterDeg : ScatterDims SN SM1 SM where
  updateWindowDims := []
  insertedWindowDims := [0]
  scatterDimsToOperandDims := [0]
  indexVectorDim := 1
  wf := by decide
def gatherNode : GatherDims SN SM1 SM where
  offsetDims := []
  collapsedSliceDims := [0]
  operandBatchingDims := []
  startIndicesBatchingDims := []
  startIndexMap := [0]
  indexVectorDim := 1
  sliceSizes := ![1]
  wf := by decide
def gatherH : GatherDims SH SM1 SMH where
  offsetDims := [1]
  collapsedSliceDims := [0]
  operandBatchingDims := []
  startIndicesBatchingDims := []
  startIndexMap := [0]
  indexVectorDim := 1
  sliceSizes := ![1, 128]
  wf := by decide
def scatterH : ScatterDims SH SM1 SMH where
  updateWindowDims := [1]
  insertedWindowDims := [0]
  scatterDimsToOperandDims := [0]
  indexVectorDim := 1
  wf := by decide
def gatherC : GatherDims SC SM1 SMC where
  offsetDims := [1]
  collapsedSliceDims := [0]
  operandBatchingDims := []
  startIndicesBatchingDims := []
  startIndexMap := [0]
  indexVectorDim := 1
  sliceSizes := ![1, 64]
  wf := by decide
def scatterC : ScatterDims SC SM1 SMC where
  updateWindowDims := [1]
  insertedWindowDims := [0]
  scatterDimsToOperandDims := [0]
  indexVectorDim := 1
  wf := by decide
def dot1 : DotDims SX SW1 SH where
  lhsContracting := [1]
  rhsContracting := [0]
  lhsNonContracting := [0]
  rhsNonContracting := [1]
  lhsBatch := []
  rhsBatch := []
  wf := by decide
def dot2 : DotDims SH SW2 SC where
  lhsContracting := [1]
  rhsContracting := [0]
  lhsNonContracting := [0]
  rhsNonContracting := [1]
  lhsBatch := []
  rhsBatch := []
  wf := by decide

/-! ## The edges -/

/-- The node numbers 0, 1, …, 49 999: the self loops. -/
def loops : IVec SN 32 := iotaInDim SN 32 0

/-- Row `k` of the edge list, as a vector. -/
def row (k : Nat) (e : IVec SE2 32) (h : SE2.Slices ![k, 0] SE1) : IVec SEd 32 :=
  shapeCast SEd (extractStridedSlice SE1 ![k, 0] e h) (by decide)

/-- A vector of 1 600 000 entries followed by one of 50 000 is a vector of 1 650 000. -/
theorem cat : Shape.Concatenates [SEd, SN] SM 0 := by decide

/-- The sources of all edges, self loops last. -/
def src (e : IVec SE2 32) : IVec SM 32 :=
  concatenate SM 0 [⟨SEd, row 0 e (by decide)⟩, ⟨SN, loops⟩] cat

/-- The targets of all edges, self loops last. -/
def dst (e : IVec SE2 32) : IVec SM 32 :=
  concatenate SM 0 [⟨SEd, row 1 e (by decide)⟩, ⟨SN, loops⟩] cat

/-- A vector of edge data as one column. -/
def col {α : Type} (v : SM.Idx → α) : SM1.Idx → α := broadcastInDim SM1 ![0] (by decide) v

/-- A node number read as an index: a negative one counts from the end. -/
def wrap (v : IVec SM 32) : IVec SM 32 :=
  select (cmpi .slt v (broadcastInDim SM ![] (by decide) (constantI S0 32 0#32)))
    (addi v (broadcastInDim SM ![] (by decide) (constantI S0 32 50000#32))) v

/-! ## The weights -/

/-- The number of edges ending in each node. -/
def deg (d : IVec SM 32) : FVec Ideal SN .f32 :=
  Host.scatterAdd scatterDeg (broadcastInDim SN ![] (by decide) (constant (F := Ideal) S0 .f32 0x00000000#32)) (col d)
    (broadcastInDim SM ![] (by decide) (constant (F := Ideal) S0 .f32 0x3F800000#32))

/-- A node's weight: the reciprocal square root of its degree where positive, else 0. -/
def dinv (d : IVec SM 32) : FVec Ideal SN .f32 :=
  select (cmpf .ogt (deg d) (broadcastInDim SN ![] (by decide) (constant (F := Ideal) S0 .f32 0x00000000#32)))
    (Host.rsqrt (deg d)) (broadcastInDim SN ![] (by decide) (id (constant (F := Ideal) S0 .f32 0x00000000#32)))

/-- An edge's weight: the product of the weights of its two ends. -/
def norm (s d : IVec SM 32) : FVec Ideal SM .f32 :=
  mulf (Host.gather gatherNode (dinv d) (col (wrap s))) (Host.gather gatherNode (dinv d) (col (wrap d)))

/-! ## Aggregation -/

/-- Every node's row becomes the weighted sum of the rows of the sources of the edges ending in it (128 columns). -/
def agg128 (h : FVec Ideal SH .f32) (s d : IVec SM 32) (n : FVec Ideal SM .f32) : FVec Ideal SH .f32 :=
  Host.scatterAdd scatterH (broadcastInDim SH ![] (by decide) (constant (F := Ideal) S0 .f32 0x00000000#32)) (col d)
    (mulf (Host.gather gatherH h (col (wrap s))) (broadcastInDim SMH ![0, 1] (by decide) (col n)))

/-- The same with 64 columns. -/
def agg64 (h : FVec Ideal SC .f32) (s d : IVec SM 32) (n : FVec Ideal SM .f32) : FVec Ideal SC .f32 :=
  Host.scatterAdd scatterC (broadcastInDim SC ![] (by decide) (constant (F := Ideal) S0 .f32 0x00000000#32)) (col d)
    (mulf (Host.gather gatherC h (col (wrap s))) (broadcastInDim SMC ![0, 1] (by decide) (col n)))

/-! ## The two layers -/

/-- The first layer before its bias: the aggregated product of the features with the first weight matrix. -/
def a0 (x : FVec Ideal SX .f32) (e : IVec SE2 32) (W1 : FVec Ideal SW1 .f32) : FVec Ideal SH .f32 :=
  agg128 (Host.dotGeneral dot1 none x W1) (src e) (dst e) (norm (src e) (dst e))

/-- The hidden activations: bias added to every row, negative entries replaced by 0. -/
def hidden (a : FVec Ideal SH .f32) (b1 : FVec Ideal SB1 .f32) : FVec Ideal SH .f32 :=
  maximumf (addf a (broadcastInDim SH ![0, 1] (by decide) (broadcastInDim SR1 ![1] (by decide) b1)))
    (broadcastInDim SH ![] (by decide) (constant (F := Ideal) S0 .f32 0x00000000#32))

/-- The second layer before its bias. -/
def a1 (z : FVec Ideal SH .f32) (e : IVec SE2 32) (W2 : FVec Ideal SW2 .f32) : FVec Ideal SC .f32 :=
  agg64 (Host.dotGeneral dot2 none z W2) (src e) (dst e) (norm (src e) (dst e))

/-- The logits: the second layer with its bias. -/
def logits (a : FVec Ideal SC .f32) (b2 : FVec Ideal SB2 .f32) : FVec Ideal SC .f32 :=
  addf a (broadcastInDim SC ![0, 1] (by decide) (broadcastInDim SR2 ![1] (by decide) b2))

/-- σ applied to every logit, written as one over one plus the exponential of the negation. -/
def sigm (t : FVec Ideal SC .f32) : FVec Ideal SC .f32 :=
  Host.divf (broadcastInDim SC ![] (by decide) (constant (F := Ideal) S0 .f32 0x3F800000#32))
    (addf (broadcastInDim SC ![] (by decide) (constant (F := Ideal) S0 .f32 0x3F800000#32)) (Host.exp (Host.negf t)))

/-- 1 where a probability exceeds one half, 0 elsewhere. -/
def thresh (p : FVec Ideal SC .f32) : FVec Ideal SC .f32 :=
  uitofp .f32 (cmpf .ogt p (broadcastInDim SC ![] (by decide) (constant (F := Ideal) S0 .f32 0x3F000000#32)))

/-- The probabilities the network assigns. -/
def prob (x : FVec Ideal SX .f32) (e : IVec SE2 32) (W1 : FVec Ideal SW1 .f32) (b1 : FVec Ideal SB1 .f32)
    (W2 : FVec Ideal SW2 .f32) (b2 : FVec Ideal SB2 .f32) : FVec Ideal SC .f32 :=
  sigm (logits (a1 (hidden (a0 x e W1) b1) e W2) b2)

/-- The predictions the network makes. -/
def pred (x : FVec Ideal SX .f32) (e : IVec SE2 32) (W1 : FVec Ideal SW1 .f32) (b1 : FVec Ideal SB1 .f32)
    (W2 : FVec Ideal SW2 .f32) (b2 : FVec Ideal SB2 .f32) : FVec Ideal SC .f32 :=
  thresh (prob x e W1 b1 W2 b2)

end Cert.GCN

end
-- ==== Proof.KHost.lean ====
/-
  The lines of host operations between the regions, read back as functions of the buffers they start from.

  Before the first region the host builds the edge lists (sources and targets with the self loops appended), counts the
  degrees, takes reciprocal square roots where the degree is positive, and multiplies the two ends' weights into the
  edge weights. After each matrix-product region it gathers the product's rows at the edges' sources, scales them by the
  edge weights and adds them into the rows of the edges' targets, and it lays the next bias vector out as one row.
  Each statement below is for an arbitrary state of the buffers at the start of the line: what the line leaves in the
  buffers the later steps read, as the network's functions of what it found.
-/
import proofs.«156578_j35175782154949_2_alg».proof.Proof.Gen.KernelIdeal.Launch
import proofs.«156578_j35175782154949_2_alg».proof.Proof.Spec
import Idealize.ShloMosaic.Lib.StableHlo.Run

set_option maxRecDepth 16384

noncomputable section

namespace Cert.KernelIdeal.KValue

open Idealize.ShloMosaic Idealize.ShloMosaic.TcCoe Idealize.SL.Sem
open Cert.KernelIdeal Cert.KernelIdeal.Gen

variable (V : Valuation τ sig (Elt Ideal))

/-! ## Before the first region -/

/-- The first line leaves the sources of all edges in their buffer. -/
theorem host0_src : StableHlo.after (hostOps0 (F := Ideal)) V (Proc.devRef .tc main_v3) = Cert.GCN.src (V (Proc.devRef .tc main_arg1)) := by
  after_results
  all_goals rfl

/-- It leaves the targets of all edges in theirs. -/
theorem host0_dst : StableHlo.after (hostOps0 (F := Ideal)) V (Proc.devRef .tc main_v6) = Cert.GCN.dst (V (Proc.devRef .tc main_arg1)) := by
  after_results
  all_goals rfl

/-- It leaves the test "the degree is positive" in its buffer, -/
theorem host0_pos : StableHlo.after (hostOps0 (F := Ideal)) V (Proc.devRef .tc main_v12)
    = cmpf .ogt (Cert.GCN.deg (Cert.GCN.dst (V (Proc.devRef .tc main_arg1))))
        (broadcastInDim Cert.GCN.SN ![] (by decide) (constant (F := Ideal) Cert.GCN.S0 .f32 0x00000000#32)) := by
  after_results
  all_goals rfl

/-- the reciprocal square roots of the degrees in theirs, -/
theorem host0_rsqrt : StableHlo.after (hostOps0 (F := Ideal)) V (Proc.devRef .tc main_v13)
    = Host.rsqrt (Cert.GCN.deg (Cert.GCN.dst (V (Proc.devRef .tc main_arg1)))) := by
  after_results
  all_goals rfl

/-- and a zero in the buffer the next line reads it from. -/
theorem host0_zero : StableHlo.after (hostOps0 (F := Ideal)) V (Proc.devRef .tc main_cst_2)
    = constant (F := Ideal) Cert.GCN.S0 .f32 0x00000000#32 := by
  after_results
  all_goals rfl

/-- The second line selects: the reciprocal square root where the test holds, else the zero. -/
theorem host01_sel : StableHlo.after (hostOps0_1 (F := Ideal)) V (Proc.devRef .tc main_v14)
    = select (V (Proc.devRef .tc main_v12)) (V (Proc.devRef .tc main_v13))
        (broadcastInDim Cert.GCN.SN ![] (by decide) (id (V (Proc.devRef .tc main_cst_2)))) := by
  after_results
  simp only [StableHlo.TRef.toBuf, StableHlo.TRef.ofBuf, cast_eq]
  all_goals rfl

/-- The edge weights from the node weights `w`: the product of the weights of an edge's two ends. -/
def edgeW (w : FVec Ideal Cert.GCN.SN .f32) (s d : IVec Cert.GCN.SM 32) : FVec Ideal Cert.GCN.SM .f32 :=
  mulf (Host.gather Cert.GCN.gatherNode w (Cert.GCN.col (Cert.GCN.wrap s))) (Host.gather Cert.GCN.gatherNode w (Cert.GCN.col (Cert.GCN.wrap d)))

/-- With the node weights of the network these are its edge weights. -/
theorem edgeW_dinv (s d : IVec Cert.GCN.SM 32) : edgeW (Cert.GCN.dinv d) s d = Cert.GCN.norm s d := rfl

set_option maxHeartbeats 4000000 in
/-- The third line multiplies the weights of an edge's two ends. -/
theorem host02_norm : StableHlo.after (hostOps0_2 (F := Ideal)) V (Proc.devRef .tc main_v29)
    = edgeW (V (Proc.devRef .tc main_v14)) (V (Proc.devRef .tc main_v3)) (V (Proc.devRef .tc main_v6)) := by
  after_results
  all_goals rfl

/-! ## Between the regions -/

/-- A change of float format is the identity on the extended reals. -/
theorem extf_id {s : Shape} {φ ψ : FTy} (x : FVec Ideal s φ) (h : φ.bits < ψ.bits) : (extf ψ x h : FVec Ideal s ψ) = x := rfl

set_option maxHeartbeats 4000000 in
/-- After the first region: one aggregation step on its product, -/
theorem host1_agg : StableHlo.after (hostOps1 (F := Ideal)) V (Proc.devRef .tc main_v44)
    = Cert.GCN.agg128 (V (Proc.devRef .tc main_v30)) (V (Proc.devRef .tc main_v3)) (V (Proc.devRef .tc main_v6)) (V (Proc.devRef .tc main_v29)) := by
  after_results
  simp only [extf_id]
  all_goals rfl

/-- and the first bias laid out as one row. -/
theorem host1_bias : StableHlo.after (hostOps1 (F := Ideal)) V (Proc.devRef .tc main_v45)
    = shapeCast S1x128 (V (Proc.devRef .tc main_arg3)) (by decide) := by
  after_results
  all_goals rfl

set_option maxHeartbeats 4000000 in
/-- After the second region: one aggregation step on its product, -/
theorem host2_agg : StableHlo.after (hostOps2 (F := Ideal)) V (Proc.devRef .tc main_v60)
    = Cert.GCN.agg64 (V (Proc.devRef .tc main_v46)) (V (Proc.devRef .tc main_v3)) (V (Proc.devRef .tc main_v6)) (V (Proc.devRef .tc main_v29)) := by
  after_results
  simp only [extf_id]
  all_goals rfl

/-- and the second bias laid out as one row. -/
theorem host2_bias : StableHlo.after (hostOps2 (F := Ideal)) V (Proc.devRef .tc main_v61)
    = shapeCast S1x64 (V (Proc.devRef .tc main_arg5)) (by decide) := by
  after_results
  all_goals rfl

end Cert.KernelIdeal.KValue

end
-- ==== Proof.LibMatProd.lean ====
/-
  GENERAL LEMMAS: a plain matrix product, written two ways, read at the ideal values.

  The product of an `R × K` matrix `X` with a `K × N` matrix `W` has entry `(r, q)` equal to
  `∑ k, X (r, k) · W (k, q)`, a sum of `K` products of extended reals (`matProd`).
  Both ways a program can write that product read, at `Ideal`, as this same sum:

  * a matrix unit's `matmul` accumulated into a zero splat (`matmul_zero_eq`), and
  * the host's `dot_general` (`dotGeneral_eq`),

  for ANY dimension record that contracts the left operand's axis 1 with the right operand's axis 0 and keeps
  the other two axes in order, whatever the operands' float formats, precision and schedule. That the record does
  so is stated as four equations of coordinate values (`Contracts`), which a literal record proves by unfolding
  (two by `DotDims.lhsIdx_val_of_single` / `rhsIdx_val_of_single`, two by `dif_neg` / `dif_pos` on its literal
  axis lists). Nothing here needs a finiteness hypothesis: the two sides are the same sum of the same products,
  term by term. Imports the library only.
-/
import Idealize.ShloMosaic.PureOps.Ideal.Laws
import Idealize.ShloMosaic.Lib.ValueIdx

noncomputable section

open scoped BigOperators

namespace Cert.Linear

open Idealize.ShloMosaic Idealize.ShloMosaic.ValueIdx

/-- The shape of a matrix of `a` rows and `b` columns. -/
abbrev Mat (a b : Nat) : Shape := ⟨2, ![a, b]⟩

/-- `X · W`, entry by entry: row `r` of `X` against column `q` of `W`. -/
def matProd {R K N : Nat} (X : (Mat R K).Idx → EReal) (W : (Mat K N).Idx → EReal) : (Mat R N).Idx → EReal :=
  fun i => ∑ k : Fin K, X (ix2 (n0 := R) (n1 := K) (i 0) k) * W (ix2 (n0 := K) (n1 := N) k (i 1))

/-- A dimension record for `[R,K] × [K,N] → [R,N]` that contracts the left operand's columns with the right
    operand's rows: one contracted axis of extent `K`, and at result index `i` and contraction index `q` the left
    operand is read at `(i 0, q)` and the right one at `(q, i 1)`. -/
structure Contracts {R K N : Nat} (d : DotDims (Mat R K) (Mat K N) (Mat R N)) : Prop where
  rank : d.contr.rank = 1
  size : d.contr.size ⟨0, by omega⟩ = K
  lhs0 : ∀ (i : (Mat R N).Idx) (q : d.contr.Idx), (d.lhsIdx i q 0).val = (i 0).val
  lhs1 : ∀ (i : (Mat R N).Idx) (q : d.contr.Idx), (d.lhsIdx i q 1).val = (q ⟨0, by omega⟩).val
  rhs0 : ∀ (i : (Mat R N).Idx) (q : d.contr.Idx), (d.rhsIdx i q 0).val = (q ⟨0, by omega⟩).val
  rhs1 : ∀ (i : (Mat R N).Idx) (q : d.contr.Idx), (d.rhsIdx i q 1).val = (i 1).val

/-- The sum over such a record's contraction index of the operands' products is the sum over `k < K` of
    `X (i 0, k) · W (k, i 1)`: the contraction index is its one coordinate. -/
theorem contraction_sum {R K N : Nat} {d : DotDims (Mat R K) (Mat K N) (Mat R N)} (h : Contracts d)
    (X : (Mat R K).Idx → EReal) (W : (Mat K N).Idx → EReal) (i : (Mat R N).Idx) :
    ∑ q : d.contr.Idx, X (d.lhsIdx i q) * W (d.rhsIdx i q) = matProd X W i := by
  unfold matProd
  rw [← Equiv.sum_comp (contrEquiv1 d K h.rank h.size).symm]
  refine Finset.sum_congr rfl fun k _ => ?_
  have hk := contrEquiv1_symm_val d K h.rank h.size k
  have el : d.lhsIdx i ((contrEquiv1 d K h.rank h.size).symm k) = ix2 (n0 := R) (n1 := K) (i 0) k :=
    funext fun a => Fin.ext (by
      match a with
      | ⟨0, _⟩ => exact h.lhs0 _ _
      | ⟨1, _⟩ => exact (h.lhs1 _ _).trans hk)
  have er : d.rhsIdx i ((contrEquiv1 d K h.rank h.size).symm k) = ix2 (n0 := K) (n1 := N) k (i 1) :=
    funext fun a => Fin.ext (by
      match a with
      | ⟨0, _⟩ => exact (h.rhs0 _ _).trans hk
      | ⟨1, _⟩ => exact h.rhs1 _ _)
  rw [el, er]

/-- A matrix unit's product accumulated into the zero splat is `X · W`, whatever the operands' float formats. -/
theorem matmul_zero_eq {R K N : Nat} {φ₁ φ₂ : FTy} {d : DotDims (Mat R K) (Mat K N) (Mat R N)} (h : Contracts d)
    (prec : Option ContractPrecision) (X : FVec Ideal (Mat R K) φ₁) (W : FVec Ideal (Mat K N) φ₂) :
    FloatOps.matmul d prec X W (constant (F := Ideal) (Mat R N) .f32 0x00000000#32) = matProd X W :=
  funext fun i => (Ideal.matmul_constant_zero_apply d prec X W i).trans (contraction_sum h X W i)

/-- The host's `dot_general` is `X · W`, whatever its precision and schedule. -/
theorem dotGeneral_eq {R K N : Nat} {φ₁ φ₂ : FTy} {d : DotDims (Mat R K) (Mat K N) (Mat R N)} (h : Contracts d)
    (prec : Option ContractPrecision) (sched : HostSchedule) (X : FVec Ideal (Mat R K) φ₁) (W : FVec Ideal (Mat K N) φ₂) :
    FloatOps.dotGeneral d prec sched X W = matProd X W :=
  funext fun i => (Ideal.dotGeneral_apply d prec sched X W i).trans (contraction_sum h X W i)

end Cert.Linear

end
-- ==== Proof.LibDotLists.lean ====
/-
  GENERAL LEMMA: a dimension record whose axis lists are those of a plain matrix product contracts the left operand's
  columns with the right operand's rows.

  A dimension record for `[R,K] × [K,N] → [R,N]` carries six lists of axes. When they are the plain product's — the left
  operand's axis 1 contracted with the right operand's axis 0, the left operand's axis 0 and the right operand's axis 1
  kept in this order, no batch axis — the record reads, at result index `i` and contraction index `q`, the left
  operand at `(i 0, q)` and the right operand at `(q, i 1)`: the four coordinate equations (`Contracts`) under which a
  matrix unit's product into a zero accumulator and the host's `dot_general` are both the plain sum of products
  `matProd`. A record written out with literal lists meets the six hypotheses by `rfl`.
-/
import proofs.«156578_j35175782154949_2_alg».proof.Proof.LibMatProd
import Idealize.ShloMosaic.Lib.Pipeline.Value
import Idealize.ShloMosaic.Lib.ValueIdx

noncomputable section

namespace Cert.Linear

open Idealize.ShloMosaic Idealize.ShloMosaic.ValueIdx

/-- A dimension record whose axis lists are those of a plain product — the left operand's columns contracted with the
    right operand's rows, the left operand's rows and the right operand's columns kept in this order, no batch axis —
    reads its operands at `(i 0, q)` and `(q, i 1)`. -/
theorem contracts_of_lists {R K N : Nat} (d : DotDims (Mat R K) (Mat K N) (Mat R N))
    (h1 : d.lhsContracting = [1]) (h2 : d.rhsContracting = [0]) (h3 : d.lhsNonContracting = [0])
    (h4 : d.rhsNonContracting = [1]) (h5 : d.lhsBatch = []) (h6 : d.rhsBatch = []) : Contracts d where
  rank := by rw [d.rank_contr, h1]; rfl
  size := by
    rw [d.size_contr 0 (by rw [h1]; exact Nat.one_pos), List.getElem_of_eq h1]
    rfl
  lhs0 := fun i q => by
    unfold DotDims.lhsIdx
    rw [dif_neg (by rw [h5]; exact List.not_mem_nil), dif_pos (by rw [h3]; exact List.mem_singleton.mpr rfl)]
    simp only [Fin.val_cast]
    have key : ∀ (p r : Nat) (hp : p < (Mat R N).rank) (hr : r < (Mat R N).rank), p = r → (i ⟨p, hp⟩).val = (i ⟨r, hr⟩).val :=
      fun p r hp hr h => by subst h; rfl
    exact key _ _ _ _ (by simp [h5, h3])
  lhs1 := fun i q => d.lhsIdx_val_of_single h1 i q
  rhs0 := fun i q => d.rhsIdx_val_of_single h2 i q
  rhs1 := fun i q => by
    unfold DotDims.rhsIdx
    rw [dif_neg (by rw [h6]; exact List.not_mem_nil), dif_pos (by rw [h4]; exact List.mem_singleton.mpr rfl)]
    simp only [Fin.val_cast]
    have key : ∀ (p r : Nat) (hp : p < (Mat R N).rank) (hr : r < (Mat R N).rank), p = r → (i ⟨p, hp⟩).val = (i ⟨r, hr⟩).val :=
      fun p r hp hr h => by subst h; rfl
    exact key _ _ _ _ (by simp [h5, h3, h4])

end Cert.Linear

end
-- ==== Proof.LibStackedProd.lean ====
/-
  GENERAL LEMMAS: matrix products over the extended reals, by rows and by stacked blocks.

  `rowsAt f X` is the array whose row `r` is row `f r` of `X`, and `rowBlock r o h W` is rows `o … o + r − 1` of `W`.
  A product's rows are the products of the left operand's rows (`matProd_rowsAt`): this is what turns a product of a
  block of rows into the block of the product of all rows. A sum over `a + b` indices is the sum over the first `a`
  plus the sum over the last `b` (`sum_split`, in any commutative monoid); so a product whose left operand is two or
  three arrays of `K` columns laid side by side is the sum of the pieces' products with the right operand's row blocks
  (`matProd_join2`, `matProd_join3`), the joined array being given by its column ranges. Nothing here needs a
  finiteness hypothesis: only commutativity and associativity of addition are used.
-/
import Idealize.ShloMosaic.PureOps.Ideal.Laws
import Idealize.ShloMosaic.Lib.ValueIdx
import proofs.«156578_j35175782154949_2_alg».proof.Proof.LibMatProd

noncomputable section

open scoped BigOperators

namespace Cert.Linear

open Idealize.ShloMosaic Idealize.ShloMosaic.ValueIdx

/-- The shape of a vector of length `a`. -/
abbrev Vc (a : Nat) : Shape := ⟨1, ![a]⟩

/-! ## Rows re-indexed -/

/-- The array whose row `r` is row `f r` of `X`. -/
def rowsAt {n N C : Nat} (f : Fin n → Fin N) (X : (Mat N C).Idx → EReal) : (Mat n C).Idx → EReal :=
  fun i => X (ix2 (f (i 0)) (i 1))

/-- Rows `o, o+1, …` of a matrix, as a matrix of `r` rows. -/
def rowBlock {R C : Nat} (r o : Nat) (h : o + r ≤ R) (W : (Mat R C).Idx → EReal) : (Mat r C).Idx → EReal :=
  fun i => W (ix2 ⟨o + (i 0).val, Nat.lt_of_lt_of_le (Nat.add_lt_add_left (idx2_lt0 i) o) h⟩ (i 1))

/-- A product's rows are the products of the left operand's rows. -/
theorem matProd_rowsAt {n N K C : Nat} (f : Fin n → Fin N) (X : (Mat N K).Idx → EReal) (W : (Mat K C).Idx → EReal) :
    matProd (rowsAt f X) W = rowsAt f (matProd X W) := rfl

/-! ## A product with stacked row blocks is the sum of the blocks' products -/

/-- A sum over `a + b` indices is the sum over the first `a` plus the sum over the last `b`. -/
theorem sum_split {M : Type} [AddCommMonoid M] (a b c : Nat) (h : a + b = c) (f : Fin c → M) :
    ∑ k : Fin c, f k = ∑ k : Fin a, f ⟨k.val, by omega⟩ + ∑ k : Fin b, f ⟨a + k.val, by omega⟩ := by
  subst h
  rw [Fin.sum_univ_add]
  rfl

/-- Two arrays of `K` columns side by side against a matrix of `T = K + K` rows: the left array against the top rows
    plus the right array against the bottom rows. The joined array is given by its two column ranges. -/
theorem matProd_join2 {R K T N : Nat} (hT : K + K = T) (A B : (Mat R K).Idx → EReal) (J : (Mat R T).Idx → EReal)
    (W : (Mat T N).Idx → EReal)
    (hA : ∀ (r : Fin R) (k : Fin K), J (ix2 r ⟨k.val, by omega⟩) = A (ix2 r k))
    (hB : ∀ (r : Fin R) (k : Fin K), J (ix2 r ⟨K + k.val, by omega⟩) = B (ix2 r k)) (p : (Mat R N).Idx) :
    matProd J W p = matProd A (rowBlock K 0 (by omega) W) p + matProd B (rowBlock K K (by omega) W) p := by
  obtain ⟨r, q, rfl⟩ : ∃ (r : Fin R) (q : Fin N), p = ix2 r q := ⟨p 0, p 1, eq_ix2 p⟩
  show ∑ k : Fin T, J (ix2 r k) * W (ix2 k q)
      = (∑ k : Fin K, A (ix2 r k) * W (ix2 ⟨0 + k.val, by omega⟩ q)) + ∑ k : Fin K, B (ix2 r k) * W (ix2 ⟨K + k.val, by omega⟩ q)
  refine (sum_split K K T hT _).trans (congrArg₂ (· + ·) (Finset.sum_congr rfl fun k _ => ?_) (Finset.sum_congr rfl fun k _ => ?_))
  · exact congrArg₂ (· * ·) (hA r k) (congrArg (fun z => W (ix2 z q)) (Fin.ext (Nat.zero_add _).symm))
  · exact congrArg (· * _) (hB r k)

/-- Three arrays of `K` columns side by side against a matrix of `T = K + K + K` rows. -/
theorem matProd_join3 {R K T N : Nat} (hT : K + K + K = T) (A B C : (Mat R K).Idx → EReal) (J : (Mat R T).Idx → EReal)
    (W : (Mat T N).Idx → EReal)
    (hA : ∀ (r : Fin R) (k : Fin K), J (ix2 r ⟨k.val, by omega⟩) = A (ix2 r k))
    (hB : ∀ (r : Fin R) (k : Fin K), J (ix2 r ⟨K + k.val, by omega⟩) = B (ix2 r k))
    (hC : ∀ (r : Fin R) (k : Fin K), J (ix2 r ⟨K + K + k.val, by omega⟩) = C (ix2 r k)) (p : (Mat R N).Idx) :
    matProd J W p = matProd A (rowBlock K 0 (by omega) W) p + matProd B (rowBlock K K (by omega) W) p
      + matProd C (rowBlock K (K + K) (by omega) W) p := by
  obtain ⟨r, q, rfl⟩ : ∃ (r : Fin R) (q : Fin N), p = ix2 r q := ⟨p 0, p 1, eq_ix2 p⟩
  show ∑ k : Fin T, J (ix2 r k) * W (ix2 k q)
      = (∑ k : Fin K, A (ix2 r k) * W (ix2 ⟨0 + k.val, by omega⟩ q)) + (∑ k : Fin K, B (ix2 r k) * W (ix2 ⟨K + k.val, by omega⟩ q))
        + ∑ k : Fin K, C (ix2 r k) * W (ix2 ⟨K + K + k.val, by omega⟩ q)
  refine (sum_split (K + K) K T hT _).trans (congrArg₂ (· + ·) ?_ (Finset.sum_congr rfl fun k _ => ?_))
  · refine (sum_split K K (K + K) rfl _).trans (congrArg₂ (· + ·) (Finset.sum_congr rfl fun k _ => ?_) (Finset.sum_congr rfl fun k _ => ?_))
    · exact congrArg₂ (· * ·) (hA r k) (congrArg (fun z => W (ix2 z q)) (Fin.ext (Nat.zero_add _).symm))
    · exact congrArg (· * _) (hB r k)
  · exact congrArg (· * _) (hC r k)

end Cert.Linear

end
-- ==== Proof.LibRowLayout.lean ====
/-
  GENERAL LEMMAS: layout operations read as whole-array equalities over the extended reals.

  A cut of `r` rows out of a matrix is the row block (`slice_rows`). A vector laid as one row and repeated over all rows
  — spelled by a kernel as a shape cast `[b] → [1, b]` then a broadcast `[1, b] → [a, b]` (`biasRows`), by the host as
  two broadcasts (`biasRowsHost`) — holds at `(r, k)` the vector's entry `k`. A `[1, a, b]` array read as `[a, b]` holds
  at `(i, j)` the entry `(0, i, j)` (`shapeCast_dropUnit`). A change of float format is the identity on the extended
  reals (`truncf_id`); the float word `0x3F800000` denotes 1 (`one_word`), and one over one plus the exponential of the
  negation, with the ones written as that word, is the logistic function at every extended real, the infinities
  included (`logistic_words`).
-/
import proofs.«156578_j35175782154949_2_alg».proof.Proof.LibStackedProd
import Idealize.ShloMosaic.Lib.Pipeline.Value
import Idealize.ShloMosaic.Lib.ValueLayout
import Idealize.ShloMosaic.PureOps.IdealRules

noncomputable section

namespace Cert.Linear

open Idealize.ShloMosaic Idealize.ShloMosaic.ValueIdx

/-- Rows `o … o + r − 1` cut out of a matrix. -/
theorem slice_rows {R C r : Nat} (o : Nat) (W : (Mat R C).Idx → EReal) (h : (Mat R C).Slices ![o, 0] (Mat r C)) (hb : o + r ≤ R) :
    extractStridedSlice (Mat r C) ![o, 0] W h = rowBlock r o hb W := by
  funext i
  obtain ⟨a, b, rfl⟩ : ∃ (a : Fin r) (b : Fin C), i = ix2 a b := ⟨i 0, i 1, eq_ix2 i⟩
  exact slice2_axis0_eq o W h a b

/-- The kernel's spelling of a bias row over all rows. -/
theorem biasRows {a b : Nat} (v : (Vc b).Idx → EReal) (h1 : (Vc b).ShapeCasts (Mat 1 b)) (h2 : (Mat 1 b).Broadcasts (Mat a b)) :
    broadcastTo (Mat a b) (shapeCast (Mat 1 b) v h1) h2 = fun p => v (ix1 (p 1)) := by
  funext p
  obtain ⟨r, k, rfl⟩ : ∃ (r : Fin a) (k : Fin b), p = ix2 r k := ⟨p 0, p 1, eq_ix2 p⟩
  exact (broadcastTo_1b_ab_apply _ h2 r k).trans (shapeCast_a_1a_apply v h1 0 k)

/-- The host's spelling of a bias row over all rows. -/
theorem biasRowsHost {a b : Nat} (v : (Vc b).Idx → EReal) (h1 : (Vc b).BroadcastsInDim (Mat 1 b) ![1])
    (h2 : (Mat 1 b).BroadcastsInDim (Mat a b) ![0, 1]) :
    broadcastInDim (Mat a b) ![0, 1] h2 (broadcastInDim (Mat 1 b) ![1] h1 v) = fun p => v (ix1 (p 1)) := by
  funext p
  obtain ⟨r, k, rfl⟩ : ∃ (r : Fin a) (k : Fin b), p = ix2 r k := ⟨p 0, p 1, eq_ix2 p⟩
  have hk : k.val < b := k.isLt
  exact (broadcastInDim_apply _ h2 _ (ix2 r k) (ix2 (0 : Fin 1) k) (fun ax => by
      match ax with
      | ⟨0, _⟩ => rfl
      | ⟨1, _⟩ => show k.val = if b = 1 then 0 else k.val; split <;> omega)).trans
    (broadcastInDim_apply _ h1 v (ix2 (0 : Fin 1) k) (ix1 k) (fun ax => by
      match ax with
      | ⟨0, _⟩ => show k.val = if b = 1 then 0 else k.val; split <;> omega))

/-- A `[1, a, b]` array with its unit axis dropped. -/
def dropUnit {a b : Nat} (x : (⟨3, ![1, a, b]⟩ : Shape).Idx → EReal) : (Mat a b).Idx → EReal :=
  fun i => x (ix3 (0 : Fin 1) (i 0) (i 1))

theorem shapeCast_dropUnit {a b : Nat} (x : (⟨3, ![1, a, b]⟩ : Shape).Idx → EReal)
    (h : (⟨3, ![1, a, b]⟩ : Shape).ShapeCasts (Mat a b)) : shapeCast (Mat a b) x h = dropUnit x := by
  funext i
  obtain ⟨r, k, rfl⟩ : ∃ (r : Fin a) (k : Fin b), i = ix2 r k := ⟨i 0, i 1, eq_ix2 i⟩
  exact shapeCast_1ab_ab_apply x h r k

/-- A change of float format is the identity on the extended reals. -/
theorem truncf_id {s : Shape} {φ ψ : FTy} (x : FVec Ideal s φ) (h : ψ.bits < φ.bits) : truncf ψ x h = x := rfl

/-- The float word of one denotes 1. -/
theorem one_word : Ideal.ofBits .f32 0x3F800000#32 = 1 := by simp [Ideal.ofBits, Ideal.ieee, -EReal.coe_mul]; norm_num

/-- The logistic function as the host spells it: one over one plus the exponential of the negation, the ones written
    as float words. -/
theorem logistic_words (x : EReal) :
    Ideal.div (Ideal.ofBits .f32 0x3F800000#32) (Ideal.ofBits .f32 0x3F800000#32 + Ideal.exp (-x)) = Ideal.logistic x := by
  rw [one_word]; rfl

end Cert.Linear

end
-- ==== Proof.Region0.lean ====
/-
  The first region: the features times the first weight matrix, block by block.

  The region walks the 50 000 rows of the features in ten blocks of 5 000 rows; at a point it multiplies its block by
  the whole weight matrix and writes the block of products. Row r of a product depends only on row r of the left
  factor, so each block written is the restriction of the product of the whole arrays, and the ten blocks cover it.
  The changes of float format around the product are the identity on the extended reals.
-/
import proofs.«156578_j35175782154949_2_alg».proof.Proof.Gen.KernelIdeal.Frame
import proofs.«156578_j35175782154949_2_alg».proof.Proof.LibMatProd
import proofs.«156578_j35175782154949_2_alg».proof.Proof.LibDotLists
import proofs.«156578_j35175782154949_2_alg».proof.Proof.LibRowLayout
import Idealize.ShloMosaic.Lib.Pipeline.Value
import Idealize.ShloMosaic.Lib.ValueIdx

set_option maxRecDepth 16384

noncomputable section

open scoped BigOperators

namespace Cert.KernelIdeal.KValue

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

open Cert.Linear

theorem hz0 : (![0, 0] : Fin 2 → Nat) = fun _ => 0 := funext fun a => by fin_cases a <;> rfl

/-- The product of two extended reals. -/
def pr (a b : EReal) : EReal := a * b

/-- The body's payload is the plain product of its two loaded blocks. -/
theorem pay0_eq (x0 : FVec Ideal S5000x256 .f32) (x1 : FVec Ideal S256x128 .f32) :
    k0_pay1 (F := Ideal) x0 x1 = matProd (R := 5000) (K := 256) (N := 128) x0 x1 := by
  unfold k0_pay1
  simp only [truncf_id]
  exact matmul_zero_eq (contracts_of_lists _ rfl rfl rfl rfl rfl rfl) none x0 x1

/-- At point `t` the features and the products are at block row `t`; the weights are always block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Point `t` writes back block `t` of the product of the whole arrays. -/
theorem flushed0_2_eq (c : Dev nD) (t : Fin cfg0.N) :
    (dat0 V c).flushed 2 t = ((cfg0.win 2).blk t).view.read (Elt Ideal)
      (matProd (R := 50000) (K := 256) (N := 128) (V c main_arg0) (V c main_arg2)) := by
  show (cfg0.win 2).cut (grid0.coords t) ((dat0 V c).after 2 t) = _
  rw [after0_2]
  unfold out0_2
  rw [View.canon_unit_zero hz0]
  simp only [View.ld_unit_zero (S := S5000x256) hz0, View.ld_unit_zero (S := S256x128) hz0]
  obtain ⟨e0, e1, e2, e3, e4, e5⟩ := idx_facts0 t
  funext j
  refine (congrFun (pay0_eq (iblk0 V c 0 t) (iblk0 V c 1 t)) j).trans ?_
  show ∑ k : Fin 256, pr (V c main_arg0 (((cfg0.win 0).blk t).view.emb (ix2 (n0 := 5000) (n1 := 256) (j 0) k)))
        (V c main_arg2 (((cfg0.win 1).blk t).view.emb (ix2 (n0 := 256) (n1 := 128) k (j 1))))
    = ∑ k : Fin 256, pr (V c main_arg0 (ix2 (n0 := 50000) (n1 := 256) ((((cfg0.win 2).blk t).view.emb j) 0) k))
        (V c main_arg2 (ix2 (n0 := 256) (n1 := 128) k ((((cfg0.win 2).blk t).view.emb j) 1)))
  refine Finset.sum_congr rfl fun k _ => ?_
  have h0 : ((cfg0.win 0).blk t).view.emb (ix2 (n0 := 5000) (n1 := 256) (j 0) k)
      = ix2 (n0 := 50000) (n1 := 256) ((((cfg0.win 2).blk t).view.emb j) 0) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  have h1 : ((cfg0.win 1).blk t).view.emb (ix2 (n0 := 256) (n1 := 128) k (j 1))
      = ix2 (n0 := 256) (n1 := 128) k ((((cfg0.win 2).blk t).view.emb j) 1) := by
    funext a; apply Fin.ext
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega
  rw [h0, h1]

/-- An entry of the products is in point `t`'s block iff each coordinate is in the block's range on its axis. -/
theorem mem_blk0_2 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row r lies in the block of point r / 5000. -/
theorem cover0_2' (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  refine ⟨⟨(i 0).val / 5000, by rw [show cfg0.N = 10 from N_0]; omega⟩, flush0_2 _, ?_⟩
  obtain ⟨e0, e1, e2, e3, e4, e5⟩ := idx_facts0 ⟨(i 0).val / 5000, by rw [show cfg0.N = 10 from N_0]; omega⟩
  rw [mem_blk0_2]
  intro a
  match a with
  | ⟨0, _⟩ => show win0_2.index _ (0 : Fin 2) * 5000 ≤ (i 0).val ∧ (i 0).val < win0_2.index _ (0 : Fin 2) * 5000 + 5000; rw [e4]; show (i 0).val / 5000 * 5000 ≤ (i 0).val ∧ (i 0).val < (i 0).val / 5000 * 5000 + 5000; omega
  | ⟨1, _⟩ => show win0_2.index _ (1 : Fin 2) * 128 ≤ (i 1).val ∧ (i 1).val < win0_2.index _ (1 : Fin 2) * 128 + 128; rw [e5]; omega

/-- After the region its result array is the product of the features with the weights, as the region found them. -/
theorem arr0_2 (c : Dev nD) : (dat0 V c).arrAt 2 cfg0.N
    = matProd (R := 50000) (K := 256) (N := 128) (V c main_arg0) (V c main_arg2) :=
  (dat0 V c).arrAt_eq_of_cover 2 _ (fun t _ => flushed0_2_eq V c t) cover0_2'

end Cert.KernelIdeal.KValue

end
-- ==== Proof.Region1.lean ====
/-
  The second region: bias, rectifier and the product with the second weight matrix, block by block.

  The region walks the 50 000 rows of the first layer's sums in ten blocks of 5 000 rows. At a point it adds the bias
  row to every row of its block, replaces negative entries by 0, multiplies the result by the whole second weight
  matrix and writes the block of products. Row r of the product depends only on row r of the sums, so each block written
  is the restriction of ONE function of the whole arrays — the product of the rectified biased sums with the weights —
  and the ten blocks cover it. The changes of float format are the identity on the extended reals.
-/
import proofs.«156578_j35175782154949_2_alg».proof.Proof.Gen.KernelIdeal.Frame
import proofs.«156578_j35175782154949_2_alg».proof.Proof.LibMatProd
import proofs.«156578_j35175782154949_2_alg».proof.Proof.LibDotLists
import proofs.«156578_j35175782154949_2_alg».proof.Proof.LibRowLayout
import Idealize.ShloMosaic.Lib.Pipeline.Value
import Idealize.ShloMosaic.Lib.ValueLayout
import Idealize.ShloMosaic.Lib.ValueIdx

set_option maxRecDepth 16384

noncomputable section

open scoped BigOperators

namespace Cert.KernelIdeal.KValue

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

open Cert.Linear

theorem hz1 : (![0, 0] : Fin 2 → Nat) = fun _ => 0 := funext fun a => by fin_cases a <;> rfl

/-- A sum plus a bias, negative values replaced by 0. -/
def hid (a b : Ideal .f32) : Ideal .f32 :=
  FloatOps.maximumf (F := Ideal) (φ := .f32) (FloatOps.addf (F := Ideal) (φ := .f32) a b) (Scalar.ofBits .f32 0x00000000#32)

/-- The hidden activations of `R` rows of sums `A` under the bias row `r`. -/
def hidOf {R : Nat} (A : (Mat R 128).Idx → Ideal .f32) (r : S1x128.Idx → Ideal .f32) : (Mat R 128).Idx → Ideal .f32 :=
  fun i => hid (A i) (r (ix2 (0 : Fin 1) (i 1)))

/-- The product of two extended reals. -/
def pr1 (a b : EReal) : EReal := a * b

/-- The body's payload is the product of the hidden activations of its block with the weights. -/
theorem pay1_eq (x0 : FVec Ideal S5000x128 .f32) (x1 : FVec Ideal S1x128 .f32) (x2 : FVec Ideal S128x64 .f32) :
    k1_pay1 (F := Ideal) x0 x1 x2 = matProd (R := 5000) (K := 128) (N := 64) (hidOf x0 x1) x2 := by
  unfold k1_pay1
  simp only [truncf_id]
  refine (matmul_zero_eq (contracts_of_lists _ rfl rfl rfl rfl rfl rfl) none _ x2).trans ?_
  refine congrArg (fun z => matProd (R := 5000) (K := 128) (N := 64) z x2) ?_
  funext y
  obtain ⟨p, q, rfl⟩ : ∃ (p : Fin 5000) (q : Fin 128), y = ix2 p q := ⟨y 0, y 1, eq_ix2 y⟩
  show hid (shapeCast (α := Ideal .f32) S5000x128 x0 _ (ix2 p q))
      (broadcastTo (α := Ideal .f32) S5000x128 (shapeCast (α := Ideal .f32) S1x128 x1 _) _ (ix2 p q)) = hid (x0 (ix2 p q)) (x1 (ix2 (0 : Fin 1) q))
  rw [shapeCast_self, shapeCast_self, broadcastTo_1b_ab_apply]

/-- At point `t` the sums and the products are at block row `t`; the bias row and the weights are always block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Point `t` writes back block `t` of the product of the whole hidden activations with the weights. -/
theorem flushed1_3_eq (c : Dev nD) (t : Fin cfg1.N) :
    (dat1 V c).flushed 3 t = ((cfg1.win 3).blk t).view.read (Elt Ideal)
      (matProd (R := 50000) (K := 128) (N := 64) (hidOf (R := 50000) (V c main_v44) (V c main_v45)) (V c main_arg4)) := by
  show (cfg1.win 3).cut (grid1.coords t) ((dat1 V c).after 3 t) = _
  rw [after1_3]
  unfold out1_3
  rw [View.canon_unit_zero hz1]
  simp only [View.ld_unit_zero (S := S5000x128) hz1, View.ld_unit_zero (S := S1x128) hz1, View.ld_unit_zero (S := S128x64) hz1]
  obtain ⟨e0, e1, e2, e3, e4, e5, e6, e7⟩ := idx_facts1 t
  funext j
  refine (congrFun (pay1_eq (iblk1 V c 0 t) (iblk1 V c 1 t) (iblk1 V c 2 t)) j).trans ?_
  show ∑ k : Fin 128, pr1 (hid (V c main_v44 (((cfg1.win 0).blk t).view.emb (ix2 (n0 := 5000) (n1 := 128) (j 0) k)))
          (V c main_v45 (((cfg1.win 1).blk t).view.emb (ix2 (n0 := 1) (n1 := 128) (0 : Fin 1) k))))
        (V c main_arg4 (((cfg1.win 2).blk t).view.emb (ix2 (n0 := 128) (n1 := 64) k (j 1))))
    = ∑ k : Fin 128, pr1 (hid (V c main_v44 (ix2 (n0 := 50000) (n1 := 128) ((((cfg1.win 3).blk t).view.emb j) 0) k))
          (V c main_v45 (ix2 (n0 := 1) (n1 := 128) (0 : Fin 1) k)))
        (V c main_arg4 (ix2 (n0 := 128) (n1 := 64) k ((((cfg1.win 3).blk t).view.emb j) 1)))
  refine Finset.sum_congr rfl fun k _ => ?_
  have h0 : ((cfg1.win 0).blk t).view.emb (ix2 (n0 := 5000) (n1 := 128) (j 0) k)
      = ix2 (n0 := 50000) (n1 := 128) ((((cfg1.win 3).blk t).view.emb j) 0) k := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * k.val = k.val; omega
  have h1 : ((cfg1.win 1).blk t).view.emb (ix2 (n0 := 1) (n1 := 128) (0 : Fin 1) k) = ix2 (n0 := 1) (n1 := 128) (0 : Fin 1) k := by
    funext a; apply Fin.ext
    match a with
    | ⟨0, _⟩ => show win1_1.index t (0 : Fin 2) * 1 + 1 * 0 = 0; omega
    | ⟨1, _⟩ => show win1_1.index t (1 : Fin 2) * 128 + 1 * k.val = k.val; omega
  have h2 : ((cfg1.win 2).blk t).view.emb (ix2 (n0 := 128) (n1 := 64) k (j 1))
      = ix2 (n0 := 128) (n1 := 64) k ((((cfg1.win 3).blk t).view.emb j) 1) := by
    funext a; apply Fin.ext
    match a with
    | ⟨0, _⟩ => show win1_2.index t (0 : Fin 2) * 128 + 1 * k.val = k.val; omega
    | ⟨1, _⟩ => show win1_2.index t (1 : Fin 2) * 64 + 1 * (j 1).val = win1_3.index t (1 : Fin 2) * 64 + 1 * (j 1).val; omega
  rw [h0, h1, h2]

/-- An entry of the products is in point `t`'s block iff each coordinate is in the block's range on its axis. -/
theorem mem_blk1_3 (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v46).slice (win1_3.rect t)).set ↔ _
  rw [View.set_slice_whole, Rect.mem_set_unit]
  exact Iff.rfl

/-- Row r lies in the block of point r / 5000. -/
theorem cover1_3' (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  refine ⟨⟨(i 0).val / 5000, by rw [show cfg1.N = 10 from N_1]; omega⟩, flush1_3 _, ?_⟩
  obtain ⟨e0, e1, e2, e3, e4, e5, e6, e7⟩ := idx_facts1 ⟨(i 0).val / 5000, by rw [show cfg1.N = 10 from N_1]; omega⟩
  rw [mem_blk1_3]
  intro a
  match a with
  | ⟨0, _⟩ => show win1_3.index _ (0 : Fin 2) * 5000 ≤ (i 0).val ∧ (i 0).val < win1_3.index _ (0 : Fin 2) * 5000 + 5000; rw [e6]; show (i 0).val / 5000 * 5000 ≤ (i 0).val ∧ (i 0).val < (i 0).val / 5000 * 5000 + 5000; omega
  | ⟨1, _⟩ => show win1_3.index _ (1 : Fin 2) * 64 ≤ (i 1).val ∧ (i 1).val < win1_3.index _ (1 : Fin 2) * 64 + 64; rw [e7]; omega

/-- After the region its result array is the product of the hidden activations (of the sums and the bias row as the
    region found them) with the weights. -/
theorem arr1_3 (c : Dev nD) : (dat1 V c).arrAt 3 cfg1.N
    = matProd (R := 50000) (K := 128) (N := 64) (hidOf (R := 50000) (V c main_v44) (V c main_v45)) (V c main_arg4) :=
  (dat1 V c).arrAt_eq_of_cover 3 _ (fun t _ => flushed1_3_eq V c t) cover1_3'

end Cert.KernelIdeal.KValue

end
-- ==== Proof.Region2.lean ====
/-
  The last region: bias, logistic function and threshold, block by block.

  The region walks the 50 000 rows of the second layer's sums in ten blocks of 5 000 rows. At a point it adds the bias
  row to every row of its block, applies the logistic function, and writes the block of probabilities; it compares
  each probability with one half and writes 1 or 0 into the block of predictions. Entry (r, q) of either result
  depends only on entry (r, q) of the sums and entry q of the bias, so the ten blocks are the restrictions of ONE
  function of the whole arrays, and the blocks cover the arrays.
-/
import proofs.«156578_j35175782154949_2_alg».proof.Proof.Gen.KernelIdeal.Frame
import Idealize.ShloMosaic.Lib.Pipeline.Value
import Idealize.ShloMosaic.Lib.ValueLayout
import Idealize.ShloMosaic.Lib.ValueIdx

set_option maxRecDepth 16384

noncomputable section

open scoped BigOperators

namespace Cert.KernelIdeal.KValue

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The threshold of one probability: 1 if it exceeds one half, else 0 (as the kernel computes it: the comparison's
    bit widened to a word and read as a signed integer). -/
def thr (p : Ideal .f32) : Ideal .f32 :=
  FloatOps.sitofp .f32 ((FloatOps.cmpf .ogt p (Scalar.ofBits .f32 0x3F000000#32)).setWidth 32)

/-- The logistic function of a sum and a bias. -/
def lg (a b : Ideal .f32) : Ideal .f32 := FloatOps.logistic (F := Ideal) (φ := .f32) (FloatOps.addf (F := Ideal) (φ := .f32) a b)

/-- The probabilities as one function of the sums `A` and the bias row `r`. -/
def probOf (A : S50000x64.Idx → Ideal .f32) (r : S1x64.Idx → Ideal .f32) : S50000x64.Idx → Ideal .f32 :=
  fun i => lg (A i) (r (ix2 (0 : Fin 1) (i 1)))

/-- The predictions likewise. -/
def predOf (A : S50000x64.Idx → Ideal .f32) (r : S1x64.Idx → Ideal .f32) : S50000x64.Idx → Ideal .f32 :=
  fun i => thr (probOf A r i)

/-- The body's first payload at an entry of the block. -/
theorem pay1_at (x0 : FVec Ideal S5000x64 .f32) (x1 : FVec Ideal S1x64 .f32) (y : S5000x64.Idx) :
    k2_pay1 (F := Ideal) x0 x1 y = lg (x0 y) (x1 (ix2 (0 : Fin 1) (y 1))) := by
  obtain ⟨p, q, rfl⟩ : ∃ (p : Fin 5000) (q : Fin 64), y = ix2 p q := ⟨y 0, y 1, eq_ix2 y⟩
  unfold k2_pay1
  show lg (shapeCast (α := Ideal .f32) S5000x64 x0 _ (ix2 p q))
      (broadcastTo (α := Ideal .f32) S5000x64 (shapeCast (α := Ideal .f32) S1x64 x1 _) _ (ix2 p q)) = _
  rw [shapeCast_self, shapeCast_self, broadcastTo_1b_ab_apply]

/-- The body's second payload is the threshold of the first. -/
theorem pay2_at (x0 : FVec Ideal S5000x64 .f32) (x1 : FVec Ideal S1x64 .f32) (y : S5000x64.Idx) :
    k2_pay2 (F := Ideal) x0 x1 y = thr (k2_pay1 x0 x1 y) := rfl

/-! ## The index maps -/

/-- At point `t` the sums, the probabilities and the predictions are all at block row `t`, column block 0; the bias row
    is always block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-! ## What a point writes back -/

/-- Point `t` writes back block `t` of the probabilities. -/
theorem flushed2_2_eq (c : Dev nD) (t : Fin cfg2.N) :
    (dat2 V c).flushed 2 t = ((cfg2.win 2).blk t).view.read (Elt Ideal) (probOf (V c main_v60) (V c main_v61)) := by
  show (cfg2.win 2).cut (grid2.coords t) ((dat2 V c).after 2 t) = _
  rw [after2_2]
  unfold out2_2
  rw [View.canon_unit_zero hz]
  simp only [View.ld_unit_zero (S := S5000x64) hz, View.ld_unit_zero (S := S1x64) hz]
  obtain ⟨e0, e1, e2, e3, e4, e5, e6, e7⟩ := idx_facts2 t
  funext j
  refine (pay1_at (iblk2 V c 0 t) (iblk2 V c 1 t) j).trans ?_
  show lg (V c main_v60 (((cfg2.win 0).blk t).view.emb j)) (V c main_v61 (((cfg2.win 1).blk t).view.emb (ix2 (0 : Fin 1) (j 1))))
    = lg (V c main_v60 (((cfg2.win 2).blk t).view.emb j)) (V c main_v61 (ix2 (0 : Fin 1) ((((cfg2.win 2).blk t).view.emb j) 1)))
  have h0 : ((cfg2.win 0).blk t).view.emb j = ((cfg2.win 2).blk t).view.emb j := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 64 + 1 * (j 1).val = win2_2.index t (1 : Fin 2) * 64 + 1 * (j 1).val; omega
  have h1 : ((cfg2.win 1).blk t).view.emb (ix2 (0 : Fin 1) (j 1)) = ix2 (0 : Fin 1) ((((cfg2.win 2).blk t).view.emb j) 1) := by
    funext a; apply Fin.ext
    match a with
    | ⟨0, _⟩ => show win2_1.index t (0 : Fin 2) * 1 + 1 * 0 = 0; omega
    | ⟨1, _⟩ => show win2_1.index t (1 : Fin 2) * 64 + 1 * (j 1).val = win2_2.index t (1 : Fin 2) * 64 + 1 * (j 1).val; omega
  rw [h0, h1]
  rfl

/-- Point `t` writes back block `t` of the predictions. -/
theorem flushed2_3_eq (c : Dev nD) (t : Fin cfg2.N) :
    (dat2 V c).flushed 3 t = ((cfg2.win 3).blk t).view.read (Elt Ideal) (predOf (V c main_v60) (V c main_v61)) := by
  show (cfg2.win 3).cut (grid2.coords t) ((dat2 V c).after 3 t) = _
  rw [after2_3]
  unfold out2_3
  rw [View.canon_unit_zero hz]
  simp only [View.ld_unit_zero (S := S5000x64) hz, View.ld_unit_zero (S := S1x64) hz]
  obtain ⟨e0, e1, e2, e3, e4, e5, e6, e7⟩ := idx_facts2 t
  funext j
  refine (pay2_at (iblk2 V c 0 t) (iblk2 V c 1 t) j).trans (congrArg thr ?_)
  refine (pay1_at (iblk2 V c 0 t) (iblk2 V c 1 t) j).trans ?_
  show lg (V c main_v60 (((cfg2.win 0).blk t).view.emb j)) (V c main_v61 (((cfg2.win 1).blk t).view.emb (ix2 (0 : Fin 1) (j 1))))
    = lg (V c main_v60 (((cfg2.win 3).blk t).view.emb j)) (V c main_v61 (ix2 (0 : Fin 1) ((((cfg2.win 3).blk t).view.emb j) 1)))
  have h0 : ((cfg2.win 0).blk t).view.emb j = ((cfg2.win 3).blk t).view.emb j := by
    funext a; apply Fin.ext
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 64 + 1 * (j 1).val = win2_3.index t (1 : Fin 2) * 64 + 1 * (j 1).val; omega
  have h1 : ((cfg2.win 1).blk t).view.emb (ix2 (0 : Fin 1) (j 1)) = ix2 (0 : Fin 1) ((((cfg2.win 3).blk t).view.emb j) 1) := by
    funext a; apply Fin.ext
    match a with
    | ⟨0, _⟩ => show win2_1.index t (0 : Fin 2) * 1 + 1 * 0 = 0; omega
    | ⟨1, _⟩ => show win2_1.index t (1 : Fin 2) * 64 + 1 * (j 1).val = win2_3.index t (1 : Fin 2) * 64 + 1 * (j 1).val; omega
  rw [h0, h1]
  rfl

/-! ## The blocks cover the arrays -/

/-- An entry of the probabilities is in point `t`'s block iff each coordinate is in the block's range on its axis. -/
theorem mem_blk2_2 (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v62_0).slice (win2_2.rect t)).set ↔ _
  rw [View.set_slice_whole, Rect.mem_set_unit]
  exact Iff.rfl

/-- The same for the predictions. -/
theorem mem_blk2_3 (t : Fin cfg2.N) (i : S50000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v62_1).slice (win2_3.rect t)).set ↔ _
  rw [View.set_slice_whole, Rect.mem_set_unit]
  exact Iff.rfl

/-- Row r lies in the block of point r / 5000. -/
theorem cover2_2 (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  refine ⟨⟨(i 0).val / 5000, by rw [show cfg2.N = 10 from N_2]; omega⟩, flush2_2 _, ?_⟩
  obtain ⟨e0, e1, e2, e3, e4, e5, e6, e7⟩ := idx_facts2 ⟨(i 0).val / 5000, by rw [show cfg2.N = 10 from N_2]; omega⟩
  rw [mem_blk2_2]
  intro a
  match a with
  | ⟨0, _⟩ => show win2_2.index _ (0 : Fin 2) * 5000 ≤ (i 0).val ∧ (i 0).val < win2_2.index _ (0 : Fin 2) * 5000 + 5000; rw [e4]; show (i 0).val / 5000 * 5000 ≤ (i 0).val ∧ (i 0).val < (i 0).val / 5000 * 5000 + 5000; omega
  | ⟨1, _⟩ => show win2_2.index _ (1 : Fin 2) * 64 ≤ (i 1).val ∧ (i 1).val < win2_2.index _ (1 : Fin 2) * 64 + 64; rw [e5]; omega

theorem cover2_3 (i : S50000x64.Idx) : ∃ t : Fin cfg2.N, (cfg2.win 3).flush t = true ∧ i ∈ ((cfg2.win 3).blk t).view.set := by
  have hi0 : (i 0).val < 50000 := (i 0).isLt
  have hi1 : (i 1).val < 64 := (i 1).isLt
  refine ⟨⟨(i 0).val / 5000, by rw [show cfg2.N = 10 from N_2]; omega⟩, flush2_3 _, ?_⟩
  obtain ⟨e0, e1, e2, e3, e4, e5, e6, e7⟩ := idx_facts2 ⟨(i 0).val / 5000, by rw [show cfg2.N = 10 from N_2]; omega⟩
  rw [mem_blk2_3]
  intro a
  match a with
  | ⟨0, _⟩ => show win2_3.index _ (0 : Fin 2) * 5000 ≤ (i 0).val ∧ (i 0).val < win2_3.index _ (0 : Fin 2) * 5000 + 5000; rw [e6]; show (i 0).val / 5000 * 5000 ≤ (i 0).val ∧ (i 0).val < (i 0).val / 5000 * 5000 + 5000; omega
  | ⟨1, _⟩ => show win2_3.index _ (1 : Fin 2) * 64 ≤ (i 1).val ∧ (i 1).val < win2_3.index _ (1 : Fin 2) * 64 + 64; rw [e7]; omega

/-! ## The arrays after the region -/

/-- After the region the probabilities are `probOf` of the sums and the bias row as the region found them. -/
theorem arr2_2 (c : Dev nD) : (dat2 V c).arrAt 2 cfg2.N = probOf (V c main_v60) (V c main_v61) :=
  (dat2 V c).arrAt_eq_of_cover 2 _ (fun t _ => flushed2_2_eq V c t) cover2_2

/-- After the region the predictions are `predOf` of the same. -/
theorem arr2_3 (c : Dev nD) : (dat2 V c).arrAt 3 cfg2.N = predOf (V c main_v60) (V c main_v61) :=
  (dat2 V c).arrAt_eq_of_cover 3 _ (fun t _ => flushed2_3_eq V c t) cover2_3

end Cert.KernelIdeal.KValue

end
-- ==== Proof.KChain.lean ====
/-
  The buffer contents at the boundaries of the program's stretches, read as the network's functions of the launch memory.

  The contents at a boundary are a fold: a line of host operations rewrites the buffers it writes and leaves the rest,
  a region rewrites its result array and leaves every other buffer. Walking the fold from the launch memory: after the
  three opening lines the sources, the targets and the edge weights are in their buffers and never change again; the
  first region leaves the product of the features with the first weights; the next line aggregates it; the second region
  leaves the product of the hidden activations with the second weights; the next line aggregates that; the last region
  leaves the probabilities and the predictions.
-/
import proofs.«156578_j35175782154949_2_alg».proof.Proof.Gen.KernelIdeal.Frame
import proofs.«156578_j35175782154949_2_alg».proof.Proof.Spec
import proofs.«156578_j35175782154949_2_alg».proof.Proof.KHost
import proofs.«156578_j35175782154949_2_alg».proof.Proof.Region0
import proofs.«156578_j35175782154949_2_alg».proof.Proof.Region1
import proofs.«156578_j35175782154949_2_alg».proof.Proof.Region2

set_option maxRecDepth 16384

noncomputable section

namespace Cert.KernelIdeal.KValue

open Idealize.ShloMosaic Idealize.ShloMosaic.TcCoe Idealize.SL.Sem
open Idealize.ShloMosaic.Pipeline (Dat Cfg Window)
open Cert.KernelIdeal Cert.KernelIdeal.Gen Cert.Linear

variable (m : (ℓ : Loc nD τ sig) → Buf (Elt Ideal) ℓ) (ρ : Dev nD → PrngReg) (c : Dev nD)

/-- Closes "the contents of `b` after a line are its contents before", for a buffer no operation of the line writes. -/
macro "not_written" : tactic => `(tactic| (
  refine StableHlo.after_of_forall_not_mem _ _ (List.forall_iff_forall_mem.mp ?_)
  simp only [hostOps0, hostOps0_1, hostOps0_2, hostOps1, hostOps2, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-! ## After the three opening lines -/

/-- The opening lines do not touch argument 0. -/
theorem W3_arg0 : W3 m ρ c (Proc.devRef .tc main_arg0) = (m ((c : Thread nD τ).loc main_arg0)) :=
  calc W3 m ρ c (Proc.devRef .tc main_arg0)
    _ = W2 m ρ c (Proc.devRef .tc main_arg0) := by not_written
    _ = W1 m ρ c (Proc.devRef .tc main_arg0) := by not_written
    _ = W0 m ρ c (Proc.devRef .tc main_arg0) := by not_written
    _ = (m ((c : Thread nD τ).loc main_arg0)) := rfl

/-- The opening lines do not touch argument 1. -/
theorem W3_arg1 : W3 m ρ c (Proc.devRef .tc main_arg1) = (m ((c : Thread nD τ).loc main_arg1)) :=
  calc W3 m ρ c (Proc.devRef .tc main_arg1)
    _ = W2 m ρ c (Proc.devRef .tc main_arg1) := by not_written
    _ = W1 m ρ c (Proc.devRef .tc main_arg1) := by not_written
    _ = W0 m ρ c (Proc.devRef .tc main_arg1) := by not_written
    _ = (m ((c : Thread nD τ).loc main_arg1)) := rfl

/-- The opening lines do not touch argument 2. -/
theorem W3_arg2 : W3 m ρ c (Proc.devRef .tc main_arg2) = (m ((c : Thread nD τ).loc main_arg2)) :=
  calc W3 m ρ c (Proc.devRef .tc main_arg2)
    _ = W2 m ρ c (Proc.devRef .tc main_arg2) := by not_written
    _ = W1 m ρ c (Proc.devRef .tc main_arg2) := by not_written
    _ = W0 m ρ c (Proc.devRef .tc main_arg2) := by not_written
    _ = (m ((c : Thread nD τ).loc main_arg2)) := rfl

/-- The opening lines do not touch argument 3. -/
theorem W3_arg3 : W3 m ρ c (Proc.devRef .tc main_arg3) = (m ((c : Thread nD τ).loc main_arg3)) :=
  calc W3 m ρ c (Proc.devRef .tc main_arg3)
    _ = W2 m ρ c (Proc.devRef .tc main_arg3) := by not_written
    _ = W1 m ρ c (Proc.devRef .tc main_arg3) := by not_written
    _ = W0 m ρ c (Proc.devRef .tc main_arg3) := by not_written
    _ = (m ((c : Thread nD τ).loc main_arg3)) := rfl

/-- The opening lines do not touch argument 4. -/
theorem W3_arg4 : W3 m ρ c (Proc.devRef .tc main_arg4) = (m ((c : Thread nD τ).loc main_arg4)) :=
  calc W3 m ρ c (Proc.devRef .tc main_arg4)
    _ = W2 m ρ c (Proc.devRef .tc main_arg4) := by not_written
    _ = W1 m ρ c (Proc.devRef .tc main_arg4) := by not_written
    _ = W0 m ρ c (Proc.devRef .tc main_arg4) := by not_written
    _ = (m ((c : Thread nD τ).loc main_arg4)) := rfl

/-- The opening lines do not touch argument 5. -/
theorem W3_arg5 : W3 m ρ c (Proc.devRef .tc main_arg5) = (m ((c : Thread nD τ).loc main_arg5)) :=
  calc W3 m ρ c (Proc.devRef .tc main_arg5)
    _ = W2 m ρ c (Proc.devRef .tc main_arg5) := by not_written
    _ = W1 m ρ c (Proc.devRef .tc main_arg5) := by not_written
    _ = W0 m ρ c (Proc.devRef .tc main_arg5) := by not_written
    _ = (m ((c : Thread nD τ).loc main_arg5)) := rfl

/-- The sources of all edges. -/
theorem W1_src : W1 m ρ c (Proc.devRef .tc main_v3) = Cert.GCN.src (m ((c : Thread nD τ).loc main_arg1)) := host0_src (W0 m ρ c)
/-- The targets of all edges. -/
theorem W1_dst : W1 m ρ c (Proc.devRef .tc main_v6) = Cert.GCN.dst (m ((c : Thread nD τ).loc main_arg1)) := host0_dst (W0 m ρ c)

theorem W2_src : W2 m ρ c (Proc.devRef .tc main_v3) = Cert.GCN.src (m ((c : Thread nD τ).loc main_arg1)) :=
  (show W2 m ρ c (Proc.devRef .tc main_v3) = W1 m ρ c (Proc.devRef .tc main_v3) by not_written).trans (W1_src m ρ c)
theorem W2_dst : W2 m ρ c (Proc.devRef .tc main_v6) = Cert.GCN.dst (m ((c : Thread nD τ).loc main_arg1)) :=
  (show W2 m ρ c (Proc.devRef .tc main_v6) = W1 m ρ c (Proc.devRef .tc main_v6) by not_written).trans (W1_dst m ρ c)
theorem W3_src : W3 m ρ c (Proc.devRef .tc main_v3) = Cert.GCN.src (m ((c : Thread nD τ).loc main_arg1)) :=
  (show W3 m ρ c (Proc.devRef .tc main_v3) = W2 m ρ c (Proc.devRef .tc main_v3) by not_written).trans (W2_src m ρ c)
theorem W3_dst : W3 m ρ c (Proc.devRef .tc main_v6) = Cert.GCN.dst (m ((c : Thread nD τ).loc main_arg1)) :=
  (show W3 m ρ c (Proc.devRef .tc main_v6) = W2 m ρ c (Proc.devRef .tc main_v6) by not_written).trans (W2_dst m ρ c)

/-- The node weights. -/
theorem W2_dinv : W2 m ρ c (Proc.devRef .tc main_v14) = Cert.GCN.dinv (Cert.GCN.dst (m ((c : Thread nD τ).loc main_arg1))) := by
  refine (host01_sel (W1 m ρ c)).trans ?_
  rw [show W1 m ρ c (Proc.devRef .tc main_v12) = _ from host0_pos (W0 m ρ c), show W1 m ρ c (Proc.devRef .tc main_v13) = _ from host0_rsqrt (W0 m ρ c),
    show W1 m ρ c (Proc.devRef .tc main_cst_2) = _ from host0_zero (W0 m ρ c)]
  rfl

/-- The edge weights. -/
theorem W3_norm : W3 m ρ c (Proc.devRef .tc main_v29)
    = Cert.GCN.norm (Cert.GCN.src (m ((c : Thread nD τ).loc main_arg1))) (Cert.GCN.dst (m ((c : Thread nD τ).loc main_arg1))) := by
  refine (host02_norm (W2 m ρ c)).trans ?_
  rw [W2_dinv m ρ c, W2_src m ρ c, W2_dst m ρ c]
  exact edgeW_dinv _ _

/-! ## The network's intermediate values, in the kernel's spelling -/

/-- The first bias laid out as one row. -/
abbrev row1 (b1 : FVec Ideal Cert.GCN.SB1 .f32) : S1x128.Idx → Ideal .f32 := shapeCast S1x128 b1 (by decide)

/-- The second bias laid out as one row. -/
abbrev row2 (b2 : FVec Ideal Cert.GCN.SB2 .f32) : S1x64.Idx → Ideal .f32 := shapeCast S1x64 b2 (by decide)

/-- The aggregated product of the features with the first weights. -/
def ka0 (x : FVec Ideal Cert.GCN.SX .f32) (e : IVec Cert.GCN.SE2 32) (W1 : FVec Ideal Cert.GCN.SW1 .f32) : FVec Ideal Cert.GCN.SH .f32 :=
  Cert.GCN.agg128 (matProd (R := 50000) (K := 256) (N := 128) x W1) (Cert.GCN.src e) (Cert.GCN.dst e)
    (Cert.GCN.norm (Cert.GCN.src e) (Cert.GCN.dst e))

/-- The aggregated product of the hidden activations with the second weights. -/
def ka1 (x : FVec Ideal Cert.GCN.SX .f32) (e : IVec Cert.GCN.SE2 32) (W1 : FVec Ideal Cert.GCN.SW1 .f32)
    (b1 : FVec Ideal Cert.GCN.SB1 .f32) (W2 : FVec Ideal Cert.GCN.SW2 .f32) : FVec Ideal Cert.GCN.SC .f32 :=
  Cert.GCN.agg64 (matProd (R := 50000) (K := 128) (N := 64) (hidOf (R := 50000) (ka0 x e W1) (shapeCast S1x128 b1 (by decide))) W2)
    (Cert.GCN.src e) (Cert.GCN.dst e) (Cert.GCN.norm (Cert.GCN.src e) (Cert.GCN.dst e))

/-! ## The first region and the line after it -/

theorem W4_h0 : W4 m ρ c (Proc.devRef .tc main_v30) = matProd (R := 50000) (K := 256) (N := 128) (m ((c : Thread nD τ).loc main_arg0)) (m ((c : Thread nD τ).loc main_arg2)) := by
  refine (W4_arr m ρ c 2).trans ?_
  refine (arr0_2 (V3 m ρ) c).trans ?_
  show matProd (R := 50000) (K := 256) (N := 128) (W3 m ρ c (Proc.devRef .tc main_arg0)) (W3 m ρ c (Proc.devRef .tc main_arg2)) = _
  rw [W3_arg0 m ρ c, W3_arg2 m ρ c]

theorem W4_src : W4 m ρ c (Proc.devRef .tc main_v3) = Cert.GCN.src (m ((c : Thread nD τ).loc main_arg1)) := (W4_of_ne m ρ c main_v3 (by decide)).trans (W3_src m ρ c)
theorem W4_dst : W4 m ρ c (Proc.devRef .tc main_v6) = Cert.GCN.dst (m ((c : Thread nD τ).loc main_arg1)) := (W4_of_ne m ρ c main_v6 (by decide)).trans (W3_dst m ρ c)
theorem W4_norm : W4 m ρ c (Proc.devRef .tc main_v29) = Cert.GCN.norm (Cert.GCN.src (m ((c : Thread nD τ).loc main_arg1))) (Cert.GCN.dst (m ((c : Thread nD τ).loc main_arg1))) :=
  (W4_of_ne m ρ c main_v29 (by decide)).trans (W3_norm m ρ c)
theorem W4_arg3 : W4 m ρ c (Proc.devRef .tc main_arg3) = (m ((c : Thread nD τ).loc main_arg3)) := (W4_of_ne m ρ c main_arg3 (by decide)).trans (W3_arg3 m ρ c)
theorem W4_arg4 : W4 m ρ c (Proc.devRef .tc main_arg4) = (m ((c : Thread nD τ).loc main_arg4)) := (W4_of_ne m ρ c main_arg4 (by decide)).trans (W3_arg4 m ρ c)
theorem W4_arg5 : W4 m ρ c (Proc.devRef .tc main_arg5) = (m ((c : Thread nD τ).loc main_arg5)) := (W4_of_ne m ρ c main_arg5 (by decide)).trans (W3_arg5 m ρ c)

/-- The first layer's sums. -/
theorem W5_agg : W5 m ρ c (Proc.devRef .tc main_v44) = ka0 (m ((c : Thread nD τ).loc main_arg0)) (m ((c : Thread nD τ).loc main_arg1)) (m ((c : Thread nD τ).loc main_arg2)) := by
  refine (host1_agg (W4 m ρ c)).trans ?_
  rw [W4_h0 m ρ c, W4_src m ρ c, W4_dst m ρ c, W4_norm m ρ c]
  rfl

/-- The first bias as a row. -/
theorem W5_bias : W5 m ρ c (Proc.devRef .tc main_v45) = row1 (m ((c : Thread nD τ).loc main_arg3)) := by
  refine (host1_bias (W4 m ρ c)).trans ?_
  rw [W4_arg3 m ρ c]

theorem W5_arg4 : W5 m ρ c (Proc.devRef .tc main_arg4) = (m ((c : Thread nD τ).loc main_arg4)) :=
  (show W5 m ρ c (Proc.devRef .tc main_arg4) = W4 m ρ c (Proc.devRef .tc main_arg4) by not_written).trans (W4_arg4 m ρ c)
theorem W5_arg5 : W5 m ρ c (Proc.devRef .tc main_arg5) = (m ((c : Thread nD τ).loc main_arg5)) :=
  (show W5 m ρ c (Proc.devRef .tc main_arg5) = W4 m ρ c (Proc.devRef .tc main_arg5) by not_written).trans (W4_arg5 m ρ c)
theorem W5_src : W5 m ρ c (Proc.devRef .tc main_v3) = Cert.GCN.src (m ((c : Thread nD τ).loc main_arg1)) :=
  (show W5 m ρ c (Proc.devRef .tc main_v3) = W4 m ρ c (Proc.devRef .tc main_v3) by not_written).trans (W4_src m ρ c)
theorem W5_dst : W5 m ρ c (Proc.devRef .tc main_v6) = Cert.GCN.dst (m ((c : Thread nD τ).loc main_arg1)) :=
  (show W5 m ρ c (Proc.devRef .tc main_v6) = W4 m ρ c (Proc.devRef .tc main_v6) by not_written).trans (W4_dst m ρ c)
theorem W5_norm : W5 m ρ c (Proc.devRef .tc main_v29) = Cert.GCN.norm (Cert.GCN.src (m ((c : Thread nD τ).loc main_arg1))) (Cert.GCN.dst (m ((c : Thread nD τ).loc main_arg1))) :=
  (show W5 m ρ c (Proc.devRef .tc main_v29) = W4 m ρ c (Proc.devRef .tc main_v29) by not_written).trans (W4_norm m ρ c)

/-! ## The second region and the line after it -/

theorem W6_h1 : W6 m ρ c (Proc.devRef .tc main_v46)
    = matProd (R := 50000) (K := 128) (N := 64) (hidOf (R := 50000) (ka0 (m ((c : Thread nD τ).loc main_arg0)) (m ((c : Thread nD τ).loc main_arg1)) (m ((c : Thread nD τ).loc main_arg2))) (row1 (m ((c : Thread nD τ).loc main_arg3)))) (m ((c : Thread nD τ).loc main_arg4)) := by
  refine (W6_arr m ρ c 3).trans ?_
  refine (arr1_3 (V5 m ρ) c).trans ?_
  show matProd (R := 50000) (K := 128) (N := 64) (hidOf (R := 50000) (W5 m ρ c (Proc.devRef .tc main_v44)) (W5 m ρ c (Proc.devRef .tc main_v45))) (W5 m ρ c (Proc.devRef .tc main_arg4)) = _
  rw [W5_agg m ρ c, W5_bias m ρ c, W5_arg4 m ρ c]

theorem W6_src : W6 m ρ c (Proc.devRef .tc main_v3) = Cert.GCN.src (m ((c : Thread nD τ).loc main_arg1)) := (W6_of_ne m ρ c main_v3 (by decide)).trans (W5_src m ρ c)
theorem W6_dst : W6 m ρ c (Proc.devRef .tc main_v6) = Cert.GCN.dst (m ((c : Thread nD τ).loc main_arg1)) := (W6_of_ne m ρ c main_v6 (by decide)).trans (W5_dst m ρ c)
theorem W6_norm : W6 m ρ c (Proc.devRef .tc main_v29) = Cert.GCN.norm (Cert.GCN.src (m ((c : Thread nD τ).loc main_arg1))) (Cert.GCN.dst (m ((c : Thread nD τ).loc main_arg1))) :=
  (W6_of_ne m ρ c main_v29 (by decide)).trans (W5_norm m ρ c)
theorem W6_arg5 : W6 m ρ c (Proc.devRef .tc main_arg5) = (m ((c : Thread nD τ).loc main_arg5)) := (W6_of_ne m ρ c main_arg5 (by decide)).trans (W5_arg5 m ρ c)

/-- The second layer's sums. -/
theorem W7_agg : W7 m ρ c (Proc.devRef .tc main_v60) = ka1 (m ((c : Thread nD τ).loc main_arg0)) (m ((c : Thread nD τ).loc main_arg1)) (m ((c : Thread nD τ).loc main_arg2)) (m ((c : Thread nD τ).loc main_arg3)) (m ((c : Thread nD τ).loc main_arg4)) := by
  refine (host2_agg (W6 m ρ c)).trans ?_
  rw [W6_h1 m ρ c, W6_src m ρ c, W6_dst m ρ c, W6_norm m ρ c]
  rfl

/-- The second bias as a row. -/
theorem W7_bias : W7 m ρ c (Proc.devRef .tc main_v61) = row2 (m ((c : Thread nD τ).loc main_arg5)) := by
  refine (host2_bias (W6 m ρ c)).trans ?_
  rw [W6_arg5 m ρ c]

/-! ## The last region -/

/-- The probabilities the program ends with. -/
theorem W8_prob : W8 m ρ c (Proc.devRef .tc main_v62_0)
    = probOf (ka1 (m ((c : Thread nD τ).loc main_arg0)) (m ((c : Thread nD τ).loc main_arg1)) (m ((c : Thread nD τ).loc main_arg2)) (m ((c : Thread nD τ).loc main_arg3)) (m ((c : Thread nD τ).loc main_arg4))) (row2 (m ((c : Thread nD τ).loc main_arg5))) := by
  refine (W8_arr m ρ c 2).trans ?_
  refine (arr2_2 (V7 m ρ) c).trans ?_
  show probOf (W7 m ρ c (Proc.devRef .tc main_v60)) (W7 m ρ c (Proc.devRef .tc main_v61)) = _
  rw [W7_agg m ρ c, W7_bias m ρ c]

/-- The predictions the program ends with. -/
theorem W8_pred : W8 m ρ c (Proc.devRef .tc main_v62_1)
    = predOf (ka1 (m ((c : Thread nD τ).loc main_arg0)) (m ((c : Thread nD τ).loc main_arg1)) (m ((c : Thread nD τ).loc main_arg2)) (m ((c : Thread nD τ).loc main_arg3)) (m ((c : Thread nD τ).loc main_arg4))) (row2 (m ((c : Thread nD τ).loc main_arg5))) := by
  refine (W8_arr m ρ c 3).trans ?_
  refine (arr2_3 (V7 m ρ) c).trans ?_
  show predOf (W7 m ρ c (Proc.devRef .tc main_v60)) (W7 m ρ c (Proc.devRef .tc main_v61)) = _
  rw [W7_agg m ρ c, W7_bias m ρ c]

end Cert.KernelIdeal.KValue

end
-- ==== Proof.KAlg.lean ====
/-
  The kernel's spelling of the network's steps against the reference spelling, step by step.

  A product written as a plain sum of products is the host's general product for the plain dimension numbers. Adding a
  bias laid out as one row and repeated over all rows is adding the bias broadcast in two steps. The logistic function
  is one over one plus the exponential of the negation. And the bit "the probability exceeds one half", widened to a
  word and read as a signed integer, is the same number as that bit read as an unsigned integer: 0 or 1.
  None of these steps needs a finiteness hypothesis: each side is the same extended real, entry by entry.
-/
import proofs.«156578_j35175782154949_2_alg».proof.Proof.Spec
import proofs.«156578_j35175782154949_2_alg».proof.Proof.Region1
import proofs.«156578_j35175782154949_2_alg».proof.Proof.Region2
import proofs.«156578_j35175782154949_2_alg».proof.Proof.LibMatProd
import proofs.«156578_j35175782154949_2_alg».proof.Proof.LibDotLists
import proofs.«156578_j35175782154949_2_alg».proof.Proof.LibRowLayout
import Idealize.ShloMosaic.Lib.Pipeline.Value
import Idealize.ShloMosaic.Lib.ValueLayout
import Idealize.ShloMosaic.Lib.ValueIdx

set_option maxRecDepth 16384

noncomputable section

namespace Cert.KernelIdeal.KValue

open Idealize.ShloMosaic Idealize.ShloMosaic.ValueIdx
open Cert.KernelIdeal Cert.Linear

/-! ## The products -/

/-- The first layer's product, as the host writes it, is the plain product. -/
theorem dot1_eq (x : FVec Ideal Cert.GCN.SX .f32) (W1 : FVec Ideal Cert.GCN.SW1 .f32) :
    Host.dotGeneral Cert.GCN.dot1 none x W1 = matProd (R := 50000) (K := 256) (N := 128) x W1 :=
  dotGeneral_eq (contracts_of_lists Cert.GCN.dot1 rfl rfl rfl rfl rfl rfl) none .single x W1

/-- The second layer's product likewise. -/
theorem dot2_eq (z : FVec Ideal Cert.GCN.SH .f32) (W2 : FVec Ideal Cert.GCN.SW2 .f32) :
    Host.dotGeneral Cert.GCN.dot2 none z W2 = matProd (R := 50000) (K := 128) (N := 64) z W2 :=
  dotGeneral_eq (contracts_of_lists Cert.GCN.dot2 rfl rfl rfl rfl rfl rfl) none .single z W2

/-! ## The bias rows -/

/-- The hidden activations: the bias as one row repeated, against the bias broadcast in two steps. -/
theorem hid_eq (a : FVec Ideal Cert.GCN.SH .f32) (b1 : FVec Ideal Cert.GCN.SB1 .f32) :
    hidOf (R := 50000) a (shapeCast S1x128 b1 (by decide)) = Cert.GCN.hidden a b1 := by
  funext i
  obtain ⟨r, k, rfl⟩ : ∃ (r : Fin 50000) (k : Fin 128), i = ix2 r k := ⟨i 0, i 1, eq_ix2 i⟩
  have hs : shapeCast (α := Ideal .f32) S1x128 b1 (by decide) (ix2 (0 : Fin 1) k) = b1 (ix1 k) := shapeCast_a_1a_apply b1 _ 0 k
  have hb : broadcastInDim (α := Ideal .f32) Cert.GCN.SH ![0, 1] (by decide) (broadcastInDim (α := Ideal .f32) Cert.GCN.SR1 ![1] (by decide) b1) (ix2 r k) = b1 (ix1 k) :=
    congrFun (biasRowsHost (a := 50000) (b := 128) b1 _ _) (ix2 r k)
  show hid (a (ix2 r k)) (shapeCast (α := Ideal .f32) S1x128 b1 _ (ix2 (0 : Fin 1) k))
    = hid (a (ix2 r k)) (broadcastInDim (α := Ideal .f32) Cert.GCN.SH ![0, 1] _ (broadcastInDim (α := Ideal .f32) Cert.GCN.SR1 ![1] _ b1) (ix2 r k))
  rw [hs, hb]

/-- The logits' bias likewise, under the logistic function, spelled the host's way. -/
theorem prob_eq (a : FVec Ideal Cert.GCN.SC .f32) (b2 : FVec Ideal Cert.GCN.SB2 .f32) :
    probOf a (shapeCast S1x64 b2 (by decide)) = Cert.GCN.sigm (Cert.GCN.logits a b2) := by
  funext i
  obtain ⟨r, k, rfl⟩ : ∃ (r : Fin 50000) (k : Fin 64), i = ix2 r k := ⟨i 0, i 1, eq_ix2 i⟩
  have hs : shapeCast (α := Ideal .f32) S1x64 b2 (by decide) (ix2 (0 : Fin 1) k) = b2 (ix1 k) := shapeCast_a_1a_apply b2 _ 0 k
  have hb : broadcastInDim (α := Ideal .f32) Cert.GCN.SC ![0, 1] (by decide) (broadcastInDim (α := Ideal .f32) Cert.GCN.SR2 ![1] (by decide) b2) (ix2 r k) = b2 (ix1 k) :=
    congrFun (biasRowsHost (a := 50000) (b := 64) b2 _ _) (ix2 r k)
  show lg (a (ix2 r k)) (shapeCast (α := Ideal .f32) S1x64 b2 _ (ix2 (0 : Fin 1) k))
    = Ideal.div (Ideal.ofBits .f32 0x3F800000#32) (Ideal.ofBits .f32 0x3F800000#32
        + Ideal.exp (-(a (ix2 r k) + broadcastInDim (α := Ideal .f32) Cert.GCN.SC ![0, 1] _ (broadcastInDim (α := Ideal .f32) Cert.GCN.SR2 ![1] _ b2) (ix2 r k))))
  rw [hs, hb, logistic_words]
  rfl

/-! ## The threshold -/

/-- A bit widened to a word and read signed is the bit read unsigned. -/
theorem bit_word (b : BitVec 1) : (((b.setWidth 32).toInt : ℝ) : EReal) = ((b.toNat : ℝ) : EReal) := by
  rcases (by decide : ∀ b : BitVec 1, b = 0#1 ∨ b = 1#1) b with rfl | rfl <;> rfl

/-- The predictions are the threshold of the probabilities. -/
theorem pred_eq (a : FVec Ideal Cert.GCN.SC .f32) (r : S1x64.Idx → Ideal .f32) :
    predOf a r = Cert.GCN.thresh (probOf a r) := by
  funext i
  exact bit_word _

end Cert.KernelIdeal.KValue

end
-- ==== Proof.KFinal.lean ====
/-
  The idealized kernel program computes the network: its run, with the two results read as the network's functions.

  The boundary contents give the results in the kernel's spelling (plain products, the bias as a repeated row, the
  logistic function, the widened comparison bit); step by step these are the reference spelling's functions of the six
  arguments.
-/
import proofs.«156578_j35175782154949_2_alg».proof.Proof.KRun
import proofs.«156578_j35175782154949_2_alg».proof.Proof.KChain
import proofs.«156578_j35175782154949_2_alg».proof.Proof.KAlg

set_option maxRecDepth 16384

noncomputable section

namespace Cert.KernelIdeal.KValue

open Idealize.ShloMosaic Idealize.ShloMosaic.TcCoe Idealize.SL.Sem
open Cert.KernelIdeal Cert.KernelIdeal.Gen Cert.Linear

/-- The first layer's sums in the two spellings. -/
theorem ka0_eq (x : FVec Ideal Cert.GCN.SX .f32) (e : IVec Cert.GCN.SE2 32) (W1 : FVec Ideal Cert.GCN.SW1 .f32) :
    ka0 x e W1 = Cert.GCN.a0 x e W1 := by
  unfold ka0 Cert.GCN.a0
  rw [dot1_eq]

/-- The second layer's sums in the two spellings. -/
theorem ka1_eq (x : FVec Ideal Cert.GCN.SX .f32) (e : IVec Cert.GCN.SE2 32) (W1 : FVec Ideal Cert.GCN.SW1 .f32)
    (b1 : FVec Ideal Cert.GCN.SB1 .f32) (W2 : FVec Ideal Cert.GCN.SW2 .f32) :
    ka1 x e W1 b1 W2 = Cert.GCN.a1 (Cert.GCN.hidden (Cert.GCN.a0 x e W1) b1) e W2 := by
  unfold ka1 Cert.GCN.a1
  rw [hid_eq, ka0_eq, dot2_eq]

/-- The probabilities in the two spellings. -/
theorem kprob_eq (x : FVec Ideal Cert.GCN.SX .f32) (e : IVec Cert.GCN.SE2 32) (W1 : FVec Ideal Cert.GCN.SW1 .f32)
    (b1 : FVec Ideal Cert.GCN.SB1 .f32) (W2 : FVec Ideal Cert.GCN.SW2 .f32) (b2 : FVec Ideal Cert.GCN.SB2 .f32) :
    probOf (ka1 x e W1 b1 W2) (shapeCast S1x64 b2 (by decide)) = Cert.GCN.prob x e W1 b1 W2 b2 := by
  rw [prob_eq, ka1_eq]
  rfl

/-- The predictions in the two spellings. -/
theorem kpred_eq (x : FVec Ideal Cert.GCN.SX .f32) (e : IVec Cert.GCN.SE2 32) (W1 : FVec Ideal Cert.GCN.SW1 .f32)
    (b1 : FVec Ideal Cert.GCN.SB1 .f32) (W2 : FVec Ideal Cert.GCN.SW2 .f32) (b2 : FVec Ideal Cert.GCN.SB2 .f32) :
    predOf (ka1 x e W1 b1 W2) (shapeCast S1x64 b2 (by decide)) = Cert.GCN.pred x e W1 b1 W2 b2 := by
  rw [pred_eq, kprob_eq]
  rfl

variable (m : (ℓ : Loc nD τ sig) → Buf (Elt Ideal) ℓ) (ρ : Dev nD → PrngReg)

/-- Every weakly fair execution of the idealized kernel program terminates without a fault, with the network's
    predictions and probabilities of the launched arguments in the two result arrays and the arguments unchanged. -/
theorem run : θ_run (defs (F := Ideal)) (onTc (τ := τ) (main (F := Ideal))) ⟨m, fun _ => 0, ρ⟩ (fun r => ∀ c : Dev nD,
      r.2.mem ((c.tc : Thread nD τ).loc main_v62_1) = Cert.GCN.pred (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v62_0) = Cert.GCN.prob (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono (fun r h c =>
      ⟨(h c).1.trans ((W8_pred m ρ c).trans (kpred_eq _ _ _ _ _ _)),
       (h c).2.1.trans ((W8_prob m ρ c).trans (kprob_eq _ _ _ _ _ _)),
       (h c).2.2⟩)
    (run_named (F := Ideal) m ρ)

end Cert.KernelIdeal.KValue

end
-- ==== Proof.LibAfter.lean ====
/-
  Two facts about a straight line of host operations, for running a long line in segments.

  The contents of the buffers after a line of operations is a fold over the line (each operation rewrites the buffers
  it writes and leaves the rest), so the contents after a concatenation of two lines are the contents after the second
  line, started from the contents after the first (`after_append`). And the side condition "no operation of the line
  allocates a buffer", which a run of the line asks for every member of the list, follows from the same condition
  stated as one conjunction over the list (`fresh_of_forall`), which splits along a concatenation (`forall_append`)
  and which, for a list written out operation by operation, holds by computation (`all_fresh`).
-/
import Idealize.ShloMosaic.Lib.StableHlo.Run

namespace Cert.LibAfter

open Idealize.ShloMosaic Idealize.ShloMosaic.StableHlo

variable {τ : Topo} {sig : RefSig} {Val : EltTy → Type}

/-- The buffer contents after a concatenation of two lines of operations are the contents after the second line,
    started from the contents after the first. -/
theorem after_append (a b : List (HloOp τ sig Val)) (V : Valuation τ sig Val) :
    after (a ++ b) V = after b (after a V) := by
  induction a generalizing V with
  | nil => rfl
  | cons op a ih => rw [List.cons_append, after_cons, after_cons, ih]

/-- A property of every operation of a concatenation is the property of every operation of each part. -/
theorem forall_append {α : Type} (p : α → Prop) (a b : List α) :
    (a ++ b).Forall p ↔ a.Forall p ∧ b.Forall p :=
  List.forall_append

/-- The property of each part gives the property of the concatenation. -/
theorem Forall.append {α : Type} {p : α → Prop} {a b : List α} (ha : a.Forall p) (hb : b.Forall p) :
    (a ++ b).Forall p :=
  (forall_append p a b).mpr ⟨ha, hb⟩

/-- "No operation allocates a buffer", stated as one conjunction over the list, gives it for every member. -/
theorem fresh_of_forall {ops : List (HloOp τ sig Val)} (h : ops.Forall fun op => op.fresh = ∅) :
    ∀ op ∈ ops, op.fresh = ∅ :=
  List.forall_iff_forall_mem.mp h

/-- The same for a family of lines, one per device: the form a run of the line asks for. -/
theorem fresh_of_forall_dev {ι : Type} {ops : ι → List (HloOp τ sig Val)}
    (h : ∀ d, (ops d).Forall fun op => op.fresh = ∅) : ∀ d, ∀ op ∈ ops d, op.fresh = ∅ :=
  fun d => fresh_of_forall (h d)

/-- `all_fresh ops` proves `ops.Forall fun op => op.fresh = ∅` for a list `ops` written out operation by operation
    (under a name, which is unfolded first): the conjunction over the list is split, and each operation built by a
    non-allocating builder has the empty set of fresh buffers by computation. -/
macro "all_fresh " ops:ident : tactic =>
  `(tactic| (first | simp only [$ops:ident, List.Forall] | simp only [List.Forall]
             repeat' constructor))

end Cert.LibAfter
-- ==== Proof.RefOps.lean ====
/-
  The reference program's statements as one line of host operations, cut into ten consecutive pieces, and its run:
  every weakly fair execution ends with each buffer holding what the line, folded over the launch contents, leaves there.

  The pieces follow the program's own structure. The program computes, from the edge list, the source and target
  node of every edge (with one self-loop per node appended), the degree of every node, and the weight
  1/sqrt(deg src) * 1/sqrt(deg tgt) of every edge; then a first graph-convolution layer (a matrix product, the weighted
  gather-and-scatter along the edges, a bias and a rectifier); then the same edge data a second time; then the
  second layer and the logistic function with its threshold at one half. A called function's three statements are
  written out at its call, over the call's own buffers.
-/
import proofs.«156578_j35175782154949_2_alg».proof.Proof.Gen.ReferenceIdeal
import proofs.«156578_j35175782154949_2_alg».proof.Proof.LibAfter
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- %0 … %3: node numbers, row 0 of the edge list, and their concatenation (the sources). -/
abbrev segA1 : List (HloOp τ sig (Elt F)) :=
  [ nullary main_v0 (iotaInDim S50000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)) ]

/-- %4 … %6: row 1 of the edge list and its concatenation with the node numbers (the targets). -/
abbrev segA2 : List (HloOp τ sig (Elt F)) :=
  [ unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)) ]

/-- %cst … %29: the degrees, their inverse square roots, and the edge weights. -/
abbrev segA3 : List (HloOp τ sig (Elt F)) :=
  [ nullary main_cst (constant S_ .f32 0x3F800000#32),
    unary main_cst main_v7 (broadcastInDim S1650000 ![] bcast_S_S1650000 : (⟨S_, .f32⟩ : BufTy).Contents (Elt F) → (⟨S1650000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S1650000x1 ![0] bcast_S1650000_S1650000x1_0 : (⟨S1650000, .i32⟩ : BufTy).Contents (Elt F) → (⟨S1650000x1, .i32⟩ : BufTy).Contents (Elt F)),
    ternary main_v8 main_v9 main_v7 main_v10 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (.of main_cst_2) main_call0.v0 id,
    TRef.unary main_call0.v0 main_call0.v1 (broadcastInDim S50000 ![] bcast_S_S50000),
    TRef.ternary (.of main_v12) (.of main_v13) main_call0.v1 main_call0.v2 select,
    nullary main_c (constantI S_ 32 0#32),
    unary main_c main_v15 (broadcastInDim S1650000 ![] bcast_S_S1650000 : (⟨S_, .i32⟩ : BufTy).Contents (Elt F) → (⟨S1650000, .i32⟩ : BufTy).Contents (Elt F)),
    binary main_v3 main_v15 main_v16 (cmpi .slt : (⟨S1650000, .i32⟩ : BufTy).Contents (Elt F) → (⟨S1650000, .i32⟩ : BufTy).Contents (Elt F) → (⟨S1650000, .i1⟩ : BufTy).Contents (Elt F)),
    nullary main_c_3 (constantI S_ 32 50000#32),
    unary main_c_3 main_v17 (broadcastInDim S1650000 ![] bcast_S_S1650000 : (⟨S_, .i32⟩ : BufTy).Contents (Elt F) → (⟨S1650000, .i32⟩ : BufTy).Contents (Elt F)),
    binary main_v3 main_v17 main_v18 (addi : (⟨S1650000, .i32⟩ : BufTy).Contents (Elt F) → (⟨S1650000, .i32⟩ : BufTy).Contents (Elt F) → (⟨S1650000, .i32⟩ : BufTy).Contents (Elt F)),
    ternary main_v16 main_v18 main_v3 main_v19 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v19 main_v20 (broadcastInDim S1650000x1 ![0] bcast_S1650000_S1650000x1_0 : (⟨S1650000, .i32⟩ : BufTy).Contents (Elt F) → (⟨S1650000x1, .i32⟩ : BufTy).Contents (Elt F)),
    binary main_v14 main_v20 main_v21 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    nullary main_c_4 (constantI S_ 32 0#32),
    unary main_c_4 main_v22 (broadcastInDim S1650000 ![] bcast_S_S1650000 : (⟨S_, .i32⟩ : BufTy).Contents (Elt F) → (⟨S1650000, .i32⟩ : BufTy).Contents (Elt F)),
    binary main_v6 main_v22 main_v23 (cmpi .slt : (⟨S1650000, .i32⟩ : BufTy).Contents (Elt F) → (⟨S1650000, .i32⟩ : BufTy).Contents (Elt F) → (⟨S1650000, .i1⟩ : BufTy).Contents (Elt F)),
    nullary main_c_5 (constantI S_ 32 50000#32),
    unary main_c_5 main_v24 (broadcastInDim S1650000 ![] bcast_S_S1650000 : (⟨S_, .i32⟩ : BufTy).Contents (Elt F) → (⟨S1650000, .i32⟩ : BufTy).Contents (Elt F)),
    binary main_v6 main_v24 main_v25 (addi : (⟨S1650000, .i32⟩ : BufTy).Contents (Elt F) → (⟨S1650000, .i32⟩ : BufTy).Contents (Elt F) → (⟨S1650000, .i32⟩ : BufTy).Contents (Elt F)),
    ternary main_v23 main_v25 main_v6 main_v26 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v26 main_v27 (broadcastInDim S1650000x1 ![0] bcast_S1650000_S1650000x1_0 : (⟨S1650000, .i32⟩ : BufTy).Contents (Elt F) → (⟨S1650000x1, .i32⟩ : BufTy).Contents (Elt F)),
    binary main_v14 main_v27 main_v28 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    binary main_v21 main_v28 main_v29 (mulf : (⟨S1650000, .f32⟩ : BufTy).Contents (Elt F) → (⟨S1650000, .f32⟩ : BufTy).Contents (Elt F) → (⟨S1650000, .f32⟩ : BufTy).Contents (Elt F)) ]

/-- %30 … %47: the first layer. -/
abbrev segA4 : List (HloOp τ sig (Elt F)) :=
  [ binary main_arg0 main_arg2 main_v30 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    nullary main_c_6 (constantI S_ 32 0#32),
    unary main_c_6 main_v31 (broadcastInDim S1650000 ![] bcast_S_S1650000 : (⟨S_, .i32⟩ : BufTy).Contents (Elt F) → (⟨S1650000, .i32⟩ : BufTy).Contents (Elt F)),
    binary main_v3 main_v31 main_v32 (cmpi .slt : (⟨S1650000, .i32⟩ : BufTy).Contents (Elt F) → (⟨S1650000, .i32⟩ : BufTy).Contents (Elt F) → (⟨S1650000, .i1⟩ : BufTy).Contents (Elt F)),
    nullary main_c_7 (constantI S_ 32 50000#32),
    unary main_c_7 main_v33 (broadcastInDim S1650000 ![] bcast_S_S1650000 : (⟨S_, .i32⟩ : BufTy).Contents (Elt F) → (⟨S1650000, .i32⟩ : BufTy).Contents (Elt F)),
    binary main_v3 main_v33 main_v34 (addi : (⟨S1650000, .i32⟩ : BufTy).Contents (Elt F) → (⟨S1650000, .i32⟩ : BufTy).Contents (Elt F) → (⟨S1650000, .i32⟩ : BufTy).Contents (Elt F)),
    ternary main_v32 main_v34 main_v3 main_v35 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v35 main_v36 (broadcastInDim S1650000x1 ![0] bcast_S1650000_S1650000x1_0 : (⟨S1650000, .i32⟩ : BufTy).Contents (Elt F) → (⟨S1650000x1, .i32⟩ : BufTy).Contents (Elt F)),
    binary main_v30 main_v36 main_v37 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)),
    unary main_v29 main_v38 (broadcastInDim S1650000x1 ![0] bcast_S1650000_S1650000x1_0 : (⟨S1650000, .f32⟩ : BufTy).Contents (Elt F) → (⟨S1650000x1, .f32⟩ : BufTy).Contents (Elt F)),
    unary main_v38 main_v39 (broadcastInDim S1650000x128 ![0, 1] bcast_S1650000x1_S1650000x128_0_1 : (⟨S1650000x1, .f32⟩ : BufTy).Contents (Elt F) → (⟨S1650000x128, .f32⟩ : BufTy).Contents (Elt F)),
    binary main_v37 main_v39 main_v40 (mulf : (⟨S1650000x128, .f32⟩ : BufTy).Contents (Elt F) → (⟨S1650000x128, .f32⟩ : BufTy).Contents (Elt F) → (⟨S1650000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v6 main_v42 (broadcastInDim S1650000x1 ![0] bcast_S1650000_S1650000x1_0 : (⟨S1650000, .i32⟩ : BufTy).Contents (Elt F) → (⟨S1650000x1, .i32⟩ : BufTy).Contents (Elt F)),
    ternary main_v41 main_v42 main_v40 main_v43 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)),
    TRef.nullary main_call1.cst (constant S_ .f32 0x00000000#32),
    TRef.unary main_call1.cst main_call1.v0 (broadcastInDim S50000x128 ![] bcast_S_S50000x128),
    TRef.binary (.of main_v46) main_call1.v0 main_call1.v1 maximumf ]

/-- %48: the node numbers again. -/
abbrev segA5 : List (HloOp τ sig (Elt F)) :=
  [ nullary main_v48 (iotaInDim S50000 32 0) ]

/-- %49 … %51: the sources again. -/
abbrev segB1 : List (HloOp τ sig (Elt F)) :=
  [ unary main_arg1 main_v49 ((extractStridedSlice S1x1600000 ![0, 0] · slices_S2x1600000_S1x1600000_0_0) : (⟨S2x1600000, .i32⟩ : BufTy).Contents (Elt F) → (⟨S1x1600000, .i32⟩ : BufTy).Contents (Elt F)),
    reshape main_v49 main_v50 rfl shapeCasts_S1x1600000_S1600000,
    binary main_v50 main_v48 main_v51 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)) ]

/-- %52 … %54: the targets again. -/
abbrev segB2 : List (HloOp τ sig (Elt F)) :=
  [ unary main_arg1 main_v52 ((extractStridedSlice S1x1600000 ![1, 0] · slices_S2x1600000_S1x1600000_1_0) : (⟨S2x1600000, .i32⟩ : BufTy).Contents (Elt F) → (⟨S1x1600000, .i32⟩ : BufTy).Contents (Elt F)),
    reshape main_v52 main_v53 rfl shapeCasts_S1x1600000_S1600000,
    binary main_v53 main_v48 main_v54 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)) ]

/-- %cst_9 … %77: the edge weights again. -/
abbrev segB3 : List (HloOp τ sig (Elt F)) :=
  [ nullary main_cst_9 (constant S_ .f32 0x3F800000#32),
    unary main_cst_9 main_v55 (broadcastInDim S1650000 ![] bcast_S_S1650000 : (⟨S_, .f32⟩ : BufTy).Contents (Elt F) → (⟨S1650000, .f32⟩ : BufTy).Contents (Elt F)),
    nullary main_cst_10 (constant S_ .f32 0x00000000#32),
    unary main_cst_10 main_v56 (broadcastInDim S50000 ![] bcast_S_S50000 : (⟨S_, .f32⟩ : BufTy).Contents (Elt F) → (⟨S50000, .f32⟩ : BufTy).Contents (Elt F)),
    unary main_v54 main_v57 (broadcastInDim S1650000x1 ![0] bcast_S1650000_S1650000x1_0 : (⟨S1650000, .i32⟩ : BufTy).Contents (Elt F) → (⟨S1650000x1, .i32⟩ : BufTy).Contents (Elt F)),
    ternary main_v56 main_v57 main_v55 main_v58 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    nullary main_cst_11 (constant S_ .f32 0x00000000#32),
    unary main_cst_11 main_v59 (broadcastInDim S50000 ![] bcast_S_S50000 : (⟨S_, .f32⟩ : BufTy).Contents (Elt F) → (⟨S50000, .f32⟩ : BufTy).Contents (Elt F)),
    binary main_v58 main_v59 main_v60 (cmpf .ogt : (⟨S50000, .f32⟩ : BufTy).Contents (Elt F) → (⟨S50000, .f32⟩ : BufTy).Contents (Elt F) → (⟨S50000, .i1⟩ : BufTy).Contents (Elt F)),
    unary main_v58 main_v61 (Host.rsqrt : (⟨S50000, .f32⟩ : BufTy).Contents (Elt F) → (⟨S50000, .f32⟩ : BufTy).Contents (Elt F)),
    nullary main_cst_12 (constant S_ .f32 0x00000000#32),
    TRef.unary (.of main_cst_12) main_call2.v0 id,
    TRef.unary main_call2.v0 main_call2.v1 (broadcastInDim S50000 ![] bcast_S_S50000),
    TRef.ternary (.of main_v60) (.of main_v61) main_call2.v1 main_call2.v2 select,
    nullary main_c_13 (constantI S_ 32 0#32),
    unary main_c_13 main_v63 (broadcastInDim S1650000 ![] bcast_S_S1650000 : (⟨S_, .i32⟩ : BufTy).Contents (Elt F) → (⟨S1650000, .i32⟩ : BufTy).Contents (Elt F)),
    binary main_v51 main_v63 main_v64 (cmpi .slt : (⟨S1650000, .i32⟩ : BufTy).Contents (Elt F) → (⟨S1650000, .i32⟩ : BufTy).Contents (Elt F) → (⟨S1650000, .i1⟩ : BufTy).Contents (Elt F)),
    nullary main_c_14 (constantI S_ 32 50000#32),
    unary main_c_14 main_v65 (broadcastInDim S1650000 ![] bcast_S_S1650000 : (⟨S_, .i32⟩ : BufTy).Contents (Elt F) → (⟨S1650000, .i32⟩ : BufTy).Contents (Elt F)),
    binary main_v51 main_v65 main_v66 (addi : (⟨S1650000, .i32⟩ : BufTy).Contents (Elt F) → (⟨S1650000, .i32⟩ : BufTy).Contents (Elt F) → (⟨S1650000, .i32⟩ : BufTy).Contents (Elt F)),
    ternary main_v64 main_v66 main_v51 main_v67 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v67 main_v68 (broadcastInDim S1650000x1 ![0] bcast_S1650000_S1650000x1_0 : (⟨S1650000, .i32⟩ : BufTy).Contents (Elt F) → (⟨S1650000x1, .i32⟩ : BufTy).Contents (Elt F)),
    binary main_v62 main_v68 main_v69 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    nullary main_c_15 (constantI S_ 32 0#32),
    unary main_c_15 main_v70 (broadcastInDim S1650000 ![] bcast_S_S1650000 : (⟨S_, .i32⟩ : BufTy).Contents (Elt F) → (⟨S1650000, .i32⟩ : BufTy).Contents (Elt F)),
    binary main_v54 main_v70 main_v71 (cmpi .slt : (⟨S1650000, .i32⟩ : BufTy).Contents (Elt F) → (⟨S1650000, .i32⟩ : BufTy).Contents (Elt F) → (⟨S1650000, .i1⟩ : BufTy).Contents (Elt F)),
    nullary main_c_16 (constantI S_ 32 50000#32),
    unary main_c_16 main_v72 (broadcastInDim S1650000 ![] bcast_S_S1650000 : (⟨S_, .i32⟩ : BufTy).Contents (Elt F) → (⟨S1650000, .i32⟩ : BufTy).Contents (Elt F)),
    binary main_v54 main_v72 main_v73 (addi : (⟨S1650000, .i32⟩ : BufTy).Contents (Elt F) → (⟨S1650000, .i32⟩ : BufTy).Contents (Elt F) → (⟨S1650000, .i32⟩ : BufTy).Contents (Elt F)),
    ternary main_v71 main_v73 main_v54 main_v74 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v74 main_v75 (broadcastInDim S1650000x1 ![0] bcast_S1650000_S1650000x1_0 : (⟨S1650000, .i32⟩ : BufTy).Contents (Elt F) → (⟨S1650000x1, .i32⟩ : BufTy).Contents (Elt F)),
    binary main_v62 main_v75 main_v76 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    binary main_v69 main_v76 main_v77 (mulf : (⟨S1650000, .f32⟩ : BufTy).Contents (Elt F) → (⟨S1650000, .f32⟩ : BufTy).Contents (Elt F) → (⟨S1650000, .f32⟩ : BufTy).Contents (Elt F)) ]

/-- %78 … %cst_20: the second layer up to the exponential. -/
abbrev segB4 : List (HloOp τ sig (Elt F)) :=
  [ binary main_v47 main_arg4 main_v78 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    nullary main_c_17 (constantI S_ 32 0#32),
    unary main_c_17 main_v79 (broadcastInDim S1650000 ![] bcast_S_S1650000 : (⟨S_, .i32⟩ : BufTy).Contents (Elt F) → (⟨S1650000, .i32⟩ : BufTy).Contents (Elt F)),
    binary main_v51 main_v79 main_v80 (cmpi .slt : (⟨S1650000, .i32⟩ : BufTy).Contents (Elt F) → (⟨S1650000, .i32⟩ : BufTy).Contents (Elt F) → (⟨S1650000, .i1⟩ : BufTy).Contents (Elt F)),
    nullary main_c_18 (constantI S_ 32 50000#32),
    unary main_c_18 main_v81 (broadcastInDim S1650000 ![] bcast_S_S1650000 : (⟨S_, .i32⟩ : BufTy).Contents (Elt F) → (⟨S1650000, .i32⟩ : BufTy).Contents (Elt F)),
    binary main_v51 main_v81 main_v82 (addi : (⟨S1650000, .i32⟩ : BufTy).Contents (Elt F) → (⟨S1650000, .i32⟩ : BufTy).Contents (Elt F) → (⟨S1650000, .i32⟩ : BufTy).Contents (Elt F)),
    ternary main_v80 main_v82 main_v51 main_v83 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v83 main_v84 (broadcastInDim S1650000x1 ![0] bcast_S1650000_S1650000x1_0 : (⟨S1650000, .i32⟩ : BufTy).Contents (Elt F) → (⟨S1650000x1, .i32⟩ : BufTy).Contents (Elt F)),
    binary main_v78 main_v84 main_v85 ((fun x i => Host.gather gather_S50000x64_S1650000x1_S1650000x64_1_0_n_n_0_1_164 x i) : (⟨S50000x64, .f32⟩ : BufTy).Contents (Elt F) → (⟨S1650000x1, .i32⟩ : BufTy).Contents (Elt F) → (⟨S1650000x64, .f32⟩ : BufTy).Contents (Elt F)),
    unary main_v77 main_v86 (broadcastInDim S1650000x1 ![0] bcast_S1650000_S1650000x1_0 : (⟨S1650000, .f32⟩ : BufTy).Contents (Elt F) → (⟨S1650000x1, .f32⟩ : BufTy).Contents (Elt F)),
    unary main_v86 main_v87 (broadcastInDim S1650000x64 ![0, 1] bcast_S1650000x1_S1650000x64_0_1 : (⟨S1650000x1, .f32⟩ : BufTy).Contents (Elt F) → (⟨S1650000x64, .f32⟩ : BufTy).Contents (Elt F)),
    binary main_v85 main_v87 main_v88 (mulf : (⟨S1650000x64, .f32⟩ : BufTy).Contents (Elt F) → (⟨S1650000x64, .f32⟩ : BufTy).Contents (Elt F) → (⟨S1650000x64, .f32⟩ : BufTy).Contents (Elt F)),
    nullary main_cst_19 (constant S_ .f32 0x00000000#32),
    unary main_cst_19 main_v89 (broadcastInDim S50000x64 ![] bcast_S_S50000x64 : (⟨S_, .f32⟩ : BufTy).Contents (Elt F) → (⟨S50000x64, .f32⟩ : BufTy).Contents (Elt F)),
    unary main_v54 main_v90 (broadcastInDim S1650000x1 ![0] bcast_S1650000_S1650000x1_0 : (⟨S1650000, .i32⟩ : BufTy).Contents (Elt F) → (⟨S1650000x1, .i32⟩ : BufTy).Contents (Elt F)),
    ternary main_v89 main_v90 main_v88 main_v91 ((fun x i u => Host.scatterAdd scatter_S50000x64_S1650000x1_S1650000x64_1_0_0_1 x i u) : (⟨S50000x64, .f32⟩ : BufTy).Contents (Elt F) → (⟨S1650000x1, .i32⟩ : BufTy).Contents (Elt F) → (⟨S1650000x64, .f32⟩ : BufTy).Contents (Elt F) → (⟨S50000x64, .f32⟩ : BufTy).Contents (Elt F)),
    unary main_arg5 main_v92 (broadcastInDim S1x64 ![1] bcast_S64_S1x64_1 : (⟨S64, .f32⟩ : BufTy).Contents (Elt F) → (⟨S1x64, .f32⟩ : BufTy).Contents (Elt F)),
    unary main_v92 main_v93 (broadcastInDim S50000x64 ![0, 1] bcast_S1x64_S50000x64_0_1 : (⟨S1x64, .f32⟩ : BufTy).Contents (Elt F) → (⟨S50000x64, .f32⟩ : BufTy).Contents (Elt F)),
    binary main_v91 main_v93 main_v94 (addf : (⟨S50000x64, .f32⟩ : BufTy).Contents (Elt F) → (⟨S50000x64, .f32⟩ : BufTy).Contents (Elt F) → (⟨S50000x64, .f32⟩ : BufTy).Contents (Elt F)),
    unary main_v94 main_v95 (Host.negf : (⟨S50000x64, .f32⟩ : BufTy).Contents (Elt F) → (⟨S50000x64, .f32⟩ : BufTy).Contents (Elt F)),
    unary main_v95 main_v96 (Host.exp : (⟨S50000x64, .f32⟩ : BufTy).Contents (Elt F) → (⟨S50000x64, .f32⟩ : BufTy).Contents (Elt F)),
    nullary main_cst_20 (constant S_ .f32 0x3F800000#32) ]

/-- %97 … %103: the sigmoid and the threshold. -/
abbrev segC1 : List (HloOp τ sig (Elt F)) :=
  [ unary main_cst_20 main_v97 (broadcastInDim S50000x64 ![] bcast_S_S50000x64 : (⟨S_, .f32⟩ : BufTy).Contents (Elt F) → (⟨S50000x64, .f32⟩ : BufTy).Contents (Elt F)),
    binary main_v97 main_v96 main_v98 (addf : (⟨S50000x64, .f32⟩ : BufTy).Contents (Elt F) → (⟨S50000x64, .f32⟩ : BufTy).Contents (Elt F) → (⟨S50000x64, .f32⟩ : BufTy).Contents (Elt F)),
    nullary main_cst_21 (constant S_ .f32 0x3F800000#32),
    unary main_cst_21 main_v99 (broadcastInDim S50000x64 ![] bcast_S_S50000x64 : (⟨S_, .f32⟩ : BufTy).Contents (Elt F) → (⟨S50000x64, .f32⟩ : BufTy).Contents (Elt F)),
    binary main_v99 main_v98 main_v100 (Host.divf : (⟨S50000x64, .f32⟩ : BufTy).Contents (Elt F) → (⟨S50000x64, .f32⟩ : BufTy).Contents (Elt F) → (⟨S50000x64, .f32⟩ : BufTy).Contents (Elt F)),
    nullary main_cst_22 (constant S_ .f32 0x3F000000#32),
    unary main_cst_22 main_v101 (broadcastInDim S50000x64 ![] bcast_S_S50000x64 : (⟨S_, .f32⟩ : BufTy).Contents (Elt F) → (⟨S50000x64, .f32⟩ : BufTy).Contents (Elt F)),
    binary main_v100 main_v101 main_v102 (cmpf .ogt : (⟨S50000x64, .f32⟩ : BufTy).Contents (Elt F) → (⟨S50000x64, .f32⟩ : BufTy).Contents (Elt F) → (⟨S50000x64, .i1⟩ : BufTy).Contents (Elt F)),
    unary main_v102 main_v103 (uitofp .f32 : (⟨S50000x64, .i1⟩ : BufTy).Contents (Elt F) → (⟨S50000x64, .f32⟩ : BufTy).Contents (Elt F)) ]

/-- The whole line: the ten pieces in order. -/
abbrev ops : List (HloOp τ sig (Elt F)) :=
  segA1 ++ segA2 ++ segA3 ++ segA4 ++ segA5 ++ segB1 ++ segB2 ++ segB3 ++ segB4 ++ segC1

set_option maxRecDepth 16384 in
set_option maxHeartbeats 4000000 in
/-- The program is that line: its three windows and the called functions unfold to the same chain of steps. -/
theorem main_eq (c : Dev nD) : main (F := F) c = seq ops := rfl

end Cert.ReferenceIdeal.RefValue

end
-- ==== Proof.RefRun.lean ====
/-
  The run of the reference program: each of the ten pieces touches only buffers of the device and allocates none, so
  the whole line runs to its end from any launch memory, and every buffer ends at the line's fold over the launch contents.
-/
import proofs.«156578_j35175782154949_2_alg».proof.Proof.RefOps

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

theorem segA1_sub : (segA1 : List (HloOp τ sig (Elt F))).Forall fun op => op.bufs ⊆ tcRefs τ sig := by
  simp only [List.Forall, nullary_bufs_sub, unary_bufs_sub, binary_bufs_sub, ternary_bufs_sub, reshape_bufs_sub, and_self]
theorem segA1_fresh : (segA1 : List (HloOp τ sig (Elt F))).Forall fun op => op.fresh = ∅ := by
  all_fresh segA1

theorem segA2_sub : (segA2 : List (HloOp τ sig (Elt F))).Forall fun op => op.bufs ⊆ tcRefs τ sig := by
  simp only [List.Forall, nullary_bufs_sub, unary_bufs_sub, binary_bufs_sub, ternary_bufs_sub, reshape_bufs_sub, and_self]
theorem segA2_fresh : (segA2 : List (HloOp τ sig (Elt F))).Forall fun op => op.fresh = ∅ := by
  all_fresh segA2

theorem segA3_sub : (segA3 : List (HloOp τ sig (Elt F))).Forall fun op => op.bufs ⊆ tcRefs τ sig := by
  simp only [List.Forall, nullary_bufs_sub, unary_bufs_sub, binary_bufs_sub, ternary_bufs_sub, reshape_bufs_sub, and_self]
theorem segA3_fresh : (segA3 : List (HloOp τ sig (Elt F))).Forall fun op => op.fresh = ∅ := by
  all_fresh segA3

theorem segA4_sub : (segA4 : List (HloOp τ sig (Elt F))).Forall fun op => op.bufs ⊆ tcRefs τ sig := by
  simp only [List.Forall, nullary_bufs_sub, unary_bufs_sub, binary_bufs_sub, ternary_bufs_sub, reshape_bufs_sub, and_self]
theorem segA4_fresh : (segA4 : List (HloOp τ sig (Elt F))).Forall fun op => op.fresh = ∅ := by
  all_fresh segA4

theorem segA5_sub : (segA5 : List (HloOp τ sig (Elt F))).Forall fun op => op.bufs ⊆ tcRefs τ sig := by
  simp only [List.Forall, nullary_bufs_sub, unary_bufs_sub, binary_bufs_sub, ternary_bufs_sub, reshape_bufs_sub, and_self]
theorem segA5_fresh : (segA5 : List (HloOp τ sig (Elt F))).Forall fun op => op.fresh = ∅ := by
  all_fresh segA5

theorem segB1_sub : (segB1 : List (HloOp τ sig (Elt F))).Forall fun op => op.bufs ⊆ tcRefs τ sig := by
  simp only [List.Forall, nullary_bufs_sub, unary_bufs_sub, binary_bufs_sub, ternary_bufs_sub, reshape_bufs_sub, and_self]
theorem segB1_fresh : (segB1 : List (HloOp τ sig (Elt F))).Forall fun op => op.fresh = ∅ := by
  all_fresh segB1

theorem segB2_sub : (segB2 : List (HloOp τ sig (Elt F))).Forall fun op => op.bufs ⊆ tcRefs τ sig := by
  simp only [List.Forall, nullary_bufs_sub, unary_bufs_sub, binary_bufs_sub, ternary_bufs_sub, reshape_bufs_sub, and_self]
theorem segB2_fresh : (segB2 : List (HloOp τ sig (Elt F))).Forall fun op => op.fresh = ∅ := by
  all_fresh segB2

theorem segB3_sub : (segB3 : List (HloOp τ sig (Elt F))).Forall fun op => op.bufs ⊆ tcRefs τ sig := by
  simp only [List.Forall, nullary_bufs_sub, unary_bufs_sub, binary_bufs_sub, ternary_bufs_sub, reshape_bufs_sub, and_self]
theorem segB3_fresh : (segB3 : List (HloOp τ sig (Elt F))).Forall fun op => op.fresh = ∅ := by
  all_fresh segB3

theorem segB4_sub : (segB4 : List (HloOp τ sig (Elt F))).Forall fun op => op.bufs ⊆ tcRefs τ sig := by
  simp only [List.Forall, nullary_bufs_sub, unary_bufs_sub, binary_bufs_sub, ternary_bufs_sub, reshape_bufs_sub, and_self]
theorem segB4_fresh : (segB4 : List (HloOp τ sig (Elt F))).Forall fun op => op.fresh = ∅ := by
  all_fresh segB4

theorem segC1_sub : (segC1 : List (HloOp τ sig (Elt F))).Forall fun op => op.bufs ⊆ tcRefs τ sig := by
  simp only [List.Forall, nullary_bufs_sub, unary_bufs_sub, binary_bufs_sub, ternary_bufs_sub, reshape_bufs_sub, and_self]
theorem segC1_fresh : (segC1 : List (HloOp τ sig (Elt F))).Forall fun op => op.fresh = ∅ := by
  all_fresh segC1

/-- Every operation of the line touches TensorCore buffers only. -/
theorem ops_sub : (ops : List (HloOp τ sig (Elt F))).Forall fun op => op.bufs ⊆ tcRefs τ sig :=
  Cert.LibAfter.Forall.append (Cert.LibAfter.Forall.append (Cert.LibAfter.Forall.append (Cert.LibAfter.Forall.append (Cert.LibAfter.Forall.append (Cert.LibAfter.Forall.append (Cert.LibAfter.Forall.append (Cert.LibAfter.Forall.append (Cert.LibAfter.Forall.append (segA1_sub) segA2_sub) segA3_sub) segA4_sub) segA5_sub) segB1_sub) segB2_sub) segB3_sub) segB4_sub) segC1_sub

/-- No operation of the line allocates a buffer. -/
theorem ops_fresh : (ops : List (HloOp τ sig (Elt F))).Forall fun op => op.fresh = ∅ :=
  Cert.LibAfter.Forall.append (Cert.LibAfter.Forall.append (Cert.LibAfter.Forall.append (Cert.LibAfter.Forall.append (Cert.LibAfter.Forall.append (Cert.LibAfter.Forall.append (Cert.LibAfter.Forall.append (Cert.LibAfter.Forall.append (Cert.LibAfter.Forall.append (segA1_fresh) segA2_fresh) segA3_fresh) segA4_fresh) segA5_fresh) segB1_fresh) segB2_fresh) segB3_fresh) segB4_fresh) segC1_fresh

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of the
    program terminates, and every buffer ends at the line's fold over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ
    (Cert.LibAfter.fresh_of_forall_dev fun _ => ops_fresh)

end Cert.ReferenceIdeal.RefValue

end
-- ==== Proof.RefEdges.lean ====
/-
  The edge data, both times the program computes them: from any contents of the buffers, after the seven operations
  the source and the target of every edge (the two rows of the edge list, each followed by the node numbers: one self
  loop per node) are the specification's `src` and `dst` of the edge list; and every buffer the seven operations do
  not write keeps its contents.
-/
import proofs.«156578_j35175782154949_2_alg».proof.Proof.RefOps
import proofs.«156578_j35175782154949_2_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- the node numbers, the two rows of the edge list, and the sources and targets of all edges. -/
def E1 : List (HloOp τ sig (Elt F)) :=
  [ nullary main_v0 (iotaInDim S50000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)) ]

set_option maxRecDepth 16384 in
theorem E1_v3 (V : Valuation τ sig (Elt Ideal)) :
    after E1 V (Proc.devRef .tc main_v3)
      = Cert.GCN.src (V (Proc.devRef .tc main_arg1) : IVec S2x1600000 32) := by
  unfold E1
  simp only [after_cons, after_nil]
  rfl

set_option maxRecDepth 16384 in
theorem E1_v6 (V : Valuation τ sig (Elt Ideal)) :
    after E1 V (Proc.devRef .tc main_v6)
      = Cert.GCN.dst (V (Proc.devRef .tc main_arg1) : IVec S2x1600000 32) := by
  unfold E1
  simp only [after_cons, after_nil]
  rfl

/-- The buffers `E1` writes. -/
def E1_W : List (Ref sig .tc) := [main_v0, main_v1, main_v2, main_v3, main_v4, main_v5, main_v6]
theorem E1_writes : (E1 : List (HloOp τ sig (Elt F))).Forall fun op => op.writes ⊆ (E1_W.map (Proc.devRef (τ := τ) .tc)).toFinset := by
  simp only [E1, List.Forall, nullary_writes, unary_writes, binary_writes, ternary_writes, reshape_writes, Finset.singleton_subset_iff, List.mem_toFinset]
  repeat' apply And.intro
  all_goals exact List.mem_map_of_mem (by decide)
/-- A buffer `E1` does not write keeps its contents. -/
theorem E1_keeps (V : Valuation τ sig (Elt F)) {r : Ref sig .tc} (hr : r ∉ E1_W) :
    after E1 V (no_index (Proc.devRef .tc r)) = V (Proc.devRef .tc r) :=
  after_of_writes_sub E1 V E1_writes hr

/-- the node numbers, the two rows of the edge list, and the sources and targets of all edges, a second time. -/
def E2 : List (HloOp τ sig (Elt F)) :=
  [ nullary main_v48 (iotaInDim S50000 32 0),
    unary main_arg1 main_v49 ((extractStridedSlice S1x1600000 ![0, 0] · slices_S2x1600000_S1x1600000_0_0) : (⟨S2x1600000, .i32⟩ : BufTy).Contents (Elt F) → (⟨S1x1600000, .i32⟩ : BufTy).Contents (Elt F)),
    reshape main_v49 main_v50 rfl shapeCasts_S1x1600000_S1600000,
    binary main_v50 main_v48 main_v51 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    unary main_arg1 main_v52 ((extractStridedSlice S1x1600000 ![1, 0] · slices_S2x1600000_S1x1600000_1_0) : (⟨S2x1600000, .i32⟩ : BufTy).Contents (Elt F) → (⟨S1x1600000, .i32⟩ : BufTy).Contents (Elt F)),
    reshape main_v52 main_v53 rfl shapeCasts_S1x1600000_S1600000,
    binary main_v53 main_v48 main_v54 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)) ]

set_option maxRecDepth 16384 in
theorem E2_v51 (V : Valuation τ sig (Elt Ideal)) :
    after E2 V (Proc.devRef .tc main_v51)
      = Cert.GCN.src (V (Proc.devRef .tc main_arg1) : IVec S2x1600000 32) := by
  unfold E2
  simp only [after_cons, after_nil]
  rfl

set_option maxRecDepth 16384 in
theorem E2_v54 (V : Valuation τ sig (Elt Ideal)) :
    after E2 V (Proc.devRef .tc main_v54)
      = Cert.GCN.dst (V (Proc.devRef .tc main_arg1) : IVec S2x1600000 32) := by
  unfold E2
  simp only [after_cons, after_nil]
  rfl

/-- The buffers `E2` writes. -/
def E2_W : List (Ref sig .tc) := [main_v48, main_v49, main_v50, main_v51, main_v52, main_v53, main_v54]
theorem E2_writes : (E2 : List (HloOp τ sig (Elt F))).Forall fun op => op.writes ⊆ (E2_W.map (Proc.devRef (τ := τ) .tc)).toFinset := by
  simp only [E2, List.Forall, nullary_writes, unary_writes, binary_writes, ternary_writes, reshape_writes, Finset.singleton_subset_iff, List.mem_toFinset]
  repeat' apply And.intro
  all_goals exact List.mem_map_of_mem (by decide)
/-- A buffer `E2` does not write keeps its contents. -/
theorem E2_keeps (V : Valuation τ sig (Elt F)) {r : Ref sig .tc} (hr : r ∉ E2_W) :
    after E2 V (no_index (Proc.devRef .tc r)) = V (Proc.devRef .tc r) :=
  after_of_writes_sub E2 V E2_writes hr

end Cert.ReferenceIdeal.RefValue

end
-- ==== Proof.RefWeights1.lean ====
/-
  The edge weights, the first time the program computes them, in three consecutive pieces: the degree of every node
  with the test that it is positive and its inverse square root; the choice between that root and zero (a called
  function's three operations); and the product of the chosen values at the two ends of every edge. Each piece is read
  from any contents of the buffers, and every buffer a piece does not write keeps its contents.
-/
import proofs.«156578_j35175782154949_2_alg».proof.Proof.RefOps
import proofs.«156578_j35175782154949_2_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- the degrees, the test that a degree is positive, its inverse square root, and a zero. -/
def N1a : List (HloOp τ sig (Elt F)) :=
  [ nullary main_cst (constant S_ .f32 0x3F800000#32),
    unary main_cst main_v7 (broadcastInDim S1650000 ![] bcast_S_S1650000 : (⟨S_, .f32⟩ : BufTy).Contents (Elt F) → (⟨S1650000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S1650000x1 ![0] bcast_S1650000_S1650000x1_0 : (⟨S1650000, .i32⟩ : BufTy).Contents (Elt F) → (⟨S1650000x1, .i32⟩ : BufTy).Contents (Elt F)),
    ternary main_v8 main_v9 main_v7 main_v10 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32) ]

set_option maxRecDepth 16384 in
theorem N1a_v12 (V : Valuation τ sig (Elt Ideal)) :
    after N1a V (Proc.devRef .tc main_v12)
      = cmpf .ogt (Cert.GCN.deg (V (Proc.devRef .tc main_v6) : IVec S1650000 32)) (broadcastInDim Cert.GCN.SN ![] (by decide) (constant (F := Ideal) Cert.GCN.S0 .f32 0x00000000#32)) := by
  unfold N1a
  after_results_simp
  rfl

set_option maxRecDepth 16384 in
theorem N1a_v13 (V : Valuation τ sig (Elt Ideal)) :
    after N1a V (Proc.devRef .tc main_v13)
      = Host.rsqrt (Cert.GCN.deg (V (Proc.devRef .tc main_v6) : IVec S1650000 32)) := by
  unfold N1a
  after_results_simp
  rfl

set_option maxRecDepth 16384 in
theorem N1a_cst_2 (V : Valuation τ sig (Elt Ideal)) :
    after N1a V (Proc.devRef .tc main_cst_2)
      = (constant (F := Ideal) Cert.GCN.S0 .f32 0x00000000#32) := by
  unfold N1a
  after_results_simp
  all_goals rfl

/-- The buffers `N1a` writes. -/
def N1a_W : List (Ref sig .tc) := [main_cst, main_v7, main_cst_0, main_v8, main_v9, main_v10, main_cst_1, main_v11, main_v12, main_v13, main_cst_2]
theorem N1a_writes : (N1a : List (HloOp τ sig (Elt F))).Forall fun op => op.writes ⊆ (N1a_W.map (Proc.devRef (τ := τ) .tc)).toFinset := by
  simp only [N1a, List.Forall, nullary_writes, unary_writes, binary_writes, ternary_writes, reshape_writes, Finset.singleton_subset_iff, List.mem_toFinset]
  repeat' apply And.intro
  all_goals exact List.mem_map_of_mem (by decide)
/-- A buffer `N1a` does not write keeps its contents. -/
theorem N1a_keeps (V : Valuation τ sig (Elt F)) {r : Ref sig .tc} (hr : r ∉ N1a_W) :
    after N1a V (no_index (Proc.devRef .tc r)) = V (Proc.devRef .tc r) :=
  after_of_writes_sub N1a V N1a_writes hr

/-- the choice between the inverse square root and zero. -/
def N1c : List (HloOp τ sig (Elt F)) :=
  [ TRef.unary (.of main_cst_2) main_call0.v0 id,
    TRef.unary main_call0.v0 main_call0.v1 (broadcastInDim S50000 ![] bcast_S_S50000),
    TRef.ternary (.of main_v12) (.of main_v13) main_call0.v1 main_call0.v2 select ]

set_option maxRecDepth 16384 in
theorem N1c_v14 (V : Valuation τ sig (Elt Ideal)) :
    after N1c V (Proc.devRef .tc main_v14)
      = select (V (Proc.devRef .tc main_v12) : IVec S50000 1) (V (Proc.devRef .tc main_v13) : FVec Ideal S50000 .f32) (broadcastInDim Cert.GCN.SN ![] (by decide) (id (V (Proc.devRef .tc main_cst_2) : FVec Ideal S_ .f32))) := by
  unfold N1c
  simp only [after_cons, after_nil]
  rfl

/-- The buffers `N1c` writes. -/
def N1c_W : List (Ref sig .tc) := [main_call0.v0.ref, main_call0.v1.ref, main_call0.v2.ref]
theorem N1c_writes : (N1c : List (HloOp τ sig (Elt F))).Forall fun op => op.writes ⊆ (N1c_W.map (Proc.devRef (τ := τ) .tc)).toFinset := by
  simp only [N1c, List.Forall, nullary_writes, unary_writes, binary_writes, ternary_writes, reshape_writes, Finset.singleton_subset_iff, List.mem_toFinset]
  repeat' apply And.intro
  all_goals exact List.mem_map_of_mem (by decide)
/-- A buffer `N1c` does not write keeps its contents. -/
theorem N1c_keeps (V : Valuation τ sig (Elt F)) {r : Ref sig .tc} (hr : r ∉ N1c_W) :
    after N1c V (no_index (Proc.devRef .tc r)) = V (Proc.devRef .tc r) :=
  after_of_writes_sub N1c V N1c_writes hr

/-- the edge weights from the node weights. -/
def N1b : List (HloOp τ sig (Elt F)) :=
  [ nullary main_c (constantI S_ 32 0#32),
    unary main_c main_v15 (broadcastInDim S1650000 ![] bcast_S_S1650000 : (⟨S_, .i32⟩ : BufTy).Contents (Elt F) → (⟨S1650000, .i32⟩ : BufTy).Contents (Elt F)),
    binary main_v3 main_v15 main_v16 (cmpi .slt : (⟨S1650000, .i32⟩ : BufTy).Contents (Elt F) → (⟨S1650000, .i32⟩ : BufTy).Contents (Elt F) → (⟨S1650000, .i1⟩ : BufTy).Contents (Elt F)),
    nullary main_c_3 (constantI S_ 32 50000#32),
    unary main_c_3 main_v17 (broadcastInDim S1650000 ![] bcast_S_S1650000 : (⟨S_, .i32⟩ : BufTy).Contents (Elt F) → (⟨S1650000, .i32⟩ : BufTy).Contents (Elt F)),
    binary main_v3 main_v17 main_v18 (addi : (⟨S1650000, .i32⟩ : BufTy).Contents (Elt F) → (⟨S1650000, .i32⟩ : BufTy).Contents (Elt F) → (⟨S1650000, .i32⟩ : BufTy).Contents (Elt F)),
    ternary main_v16 main_v18 main_v3 main_v19 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v19 main_v20 (broadcastInDim S1650000x1 ![0] bcast_S1650000_S1650000x1_0 : (⟨S1650000, .i32⟩ : BufTy).Contents (Elt F) → (⟨S1650000x1, .i32⟩ : BufTy).Contents (Elt F)),
    binary main_v14 main_v20 main_v21 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    nullary main_c_4 (constantI S_ 32 0#32),
    unary main_c_4 main_v22 (broadcastInDim S1650000 ![] bcast_S_S1650000 : (⟨S_, .i32⟩ : BufTy).Contents (Elt F) → (⟨S1650000, .i32⟩ : BufTy).Contents (Elt F)),
    binary main_v6 main_v22 main_v23 (cmpi .slt : (⟨S1650000, .i32⟩ : BufTy).Contents (Elt F) → (⟨S1650000, .i32⟩ : BufTy).Contents (Elt F) → (⟨S1650000, .i1⟩ : BufTy).Contents (Elt F)),
    nullary main_c_5 (constantI S_ 32 50000#32),
    unary main_c_5 main_v24 (broadcastInDim S1650000 ![] bcast_S_S1650000 : (⟨S_, .i32⟩ : BufTy).Contents (Elt F) → (⟨S1650000, .i32⟩ : BufTy).Contents (Elt F)),
    binary main_v6 main_v24 main_v25 (addi : (⟨S1650000, .i32⟩ : BufTy).Contents (Elt F) → (⟨S1650000, .i32⟩ : BufTy).Contents (Elt F) → (⟨S1650000, .i32⟩ : BufTy).Contents (Elt F)),
    ternary main_v23 main_v25 main_v6 main_v26 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v26 main_v27 (broadcastInDim S1650000x1 ![0] bcast_S1650000_S1650000x1_0 : (⟨S1650000, .i32⟩ : BufTy).Contents (Elt F) → (⟨S1650000x1, .i32⟩ : BufTy).Contents (Elt F)),
    binary main_v14 main_v27 main_v28 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    binary main_v21 main_v28 main_v29 (mulf : (⟨S1650000, .f32⟩ : BufTy).Contents (Elt F) → (⟨S1650000, .f32⟩ : BufTy).Contents (Elt F) → (⟨S1650000, .f32⟩ : BufTy).Contents (Elt F)) ]

set_option maxRecDepth 16384 in
theorem N1b_v29 (V : Valuation τ sig (Elt Ideal)) :
    after N1b V (Proc.devRef .tc main_v29)
      = mulf (F := Ideal) (φ := .f32) (Host.gather Cert.GCN.gatherNode (V (Proc.devRef .tc main_v14) : FVec Ideal S50000 .f32) (Cert.GCN.col (Cert.GCN.wrap (V (Proc.devRef .tc main_v3) : IVec S1650000 32))))
          (Host.gather Cert.GCN.gatherNode (V (Proc.devRef .tc main_v14) : FVec Ideal S50000 .f32) (Cert.GCN.col (Cert.GCN.wrap (V (Proc.devRef .tc main_v6) : IVec S1650000 32)))) := by
  unfold N1b
  after_results_simp
  rfl

/-- The buffers `N1b` writes. -/
def N1b_W : List (Ref sig .tc) := [main_c, main_v15, main_v16, main_c_3, main_v17, main_v18, main_v19, main_v20, main_v21, main_c_4, main_v22, main_v23, main_c_5, main_v24, main_v25, main_v26, main_v27, main_v28, main_v29]
theorem N1b_writes : (N1b : List (HloOp τ sig (Elt F))).Forall fun op => op.writes ⊆ (N1b_W.map (Proc.devRef (τ := τ) .tc)).toFinset := by
  simp only [N1b, List.Forall, nullary_writes, unary_writes, binary_writes, ternary_writes, reshape_writes, Finset.singleton_subset_iff, List.mem_toFinset]
  repeat' apply And.intro
  all_goals exact List.mem_map_of_mem (by decide)
/-- A buffer `N1b` does not write keeps its contents. -/
theorem N1b_keeps (V : Valuation τ sig (Elt F)) {r : Ref sig .tc} (hr : r ∉ N1b_W) :
    after N1b V (no_index (Proc.devRef .tc r)) = V (Proc.devRef .tc r) :=
  after_of_writes_sub N1b V N1b_writes hr

end Cert.ReferenceIdeal.RefValue

end
-- ==== Proof.RefWeights2.lean ====
/-
  The edge weights, the second time the program computes them: the same three pieces over the second copy of the
  edge data.
-/
import proofs.«156578_j35175782154949_2_alg».proof.Proof.RefOps
import proofs.«156578_j35175782154949_2_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- the degrees, the test that a degree is positive, its inverse square root, and a zero. -/
def N2a : List (HloOp τ sig (Elt F)) :=
  [ nullary main_cst_9 (constant S_ .f32 0x3F800000#32),
    unary main_cst_9 main_v55 (broadcastInDim S1650000 ![] bcast_S_S1650000 : (⟨S_, .f32⟩ : BufTy).Contents (Elt F) → (⟨S1650000, .f32⟩ : BufTy).Contents (Elt F)),
    nullary main_cst_10 (constant S_ .f32 0x00000000#32),
    unary main_cst_10 main_v56 (broadcastInDim S50000 ![] bcast_S_S50000 : (⟨S_, .f32⟩ : BufTy).Contents (Elt F) → (⟨S50000, .f32⟩ : BufTy).Contents (Elt F)),
    unary main_v54 main_v57 (broadcastInDim S1650000x1 ![0] bcast_S1650000_S1650000x1_0 : (⟨S1650000, .i32⟩ : BufTy).Contents (Elt F) → (⟨S1650000x1, .i32⟩ : BufTy).Contents (Elt F)),
    ternary main_v56 main_v57 main_v55 main_v58 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    nullary main_cst_11 (constant S_ .f32 0x00000000#32),
    unary main_cst_11 main_v59 (broadcastInDim S50000 ![] bcast_S_S50000 : (⟨S_, .f32⟩ : BufTy).Contents (Elt F) → (⟨S50000, .f32⟩ : BufTy).Contents (Elt F)),
    binary main_v58 main_v59 main_v60 (cmpf .ogt : (⟨S50000, .f32⟩ : BufTy).Contents (Elt F) → (⟨S50000, .f32⟩ : BufTy).Contents (Elt F) → (⟨S50000, .i1⟩ : BufTy).Contents (Elt F)),
    unary main_v58 main_v61 (Host.rsqrt : (⟨S50000, .f32⟩ : BufTy).Contents (Elt F) → (⟨S50000, .f32⟩ : BufTy).Contents (Elt F)),
    nullary main_cst_12 (constant S_ .f32 0x00000000#32) ]

set_option maxRecDepth 16384 in
theorem N2a_v60 (V : Valuation τ sig (Elt Ideal)) :
    after N2a V (Proc.devRef .tc main_v60)
      = cmpf .ogt (Cert.GCN.deg (V (Proc.devRef .tc main_v54) : IVec S1650000 32)) (broadcastInDim Cert.GCN.SN ![] (by decide) (constant (F := Ideal) Cert.GCN.S0 .f32 0x00000000#32)) := by
  unfold N2a
  after_results_simp
  rfl

set_option maxRecDepth 16384 in
theorem N2a_v61 (V : Valuation τ sig (Elt Ideal)) :
    after N2a V (Proc.devRef .tc main_v61)
      = Host.rsqrt (Cert.GCN.deg (V (Proc.devRef .tc main_v54) : IVec S1650000 32)) := by
  unfold N2a
  after_results_simp
  rfl

set_option maxRecDepth 16384 in
theorem N2a_cst_12 (V : Valuation τ sig (Elt Ideal)) :
    after N2a V (Proc.devRef .tc main_cst_12)
      = (constant (F := Ideal) Cert.GCN.S0 .f32 0x00000000#32) := by
  unfold N2a
  after_results_simp
  all_goals rfl

/-- The buffers `N2a` writes. -/
def N2a_W : List (Ref sig .tc) := [main_cst_9, main_v55, main_cst_10, main_v56, main_v57, main_v58, main_cst_11, main_v59, main_v60, main_v61, main_cst_12]
theorem N2a_writes : (N2a : List (HloOp τ sig (Elt F))).Forall fun op => op.writes ⊆ (N2a_W.map (Proc.devRef (τ := τ) .tc)).toFinset := by
  simp only [N2a, List.Forall, nullary_writes, unary_writes, binary_writes, ternary_writes, reshape_writes, Finset.singleton_subset_iff, List.mem_toFinset]
  repeat' apply And.intro
  all_goals exact List.mem_map_of_mem (by decide)
/-- A buffer `N2a` does not write keeps its contents. -/
theorem N2a_keeps (V : Valuation τ sig (Elt F)) {r : Ref sig .tc} (hr : r ∉ N2a_W) :
    after N2a V (no_index (Proc.devRef .tc r)) = V (Proc.devRef .tc r) :=
  after_of_writes_sub N2a V N2a_writes hr

/-- the choice between the inverse square root and zero. -/
def N2c : List (HloOp τ sig (Elt F)) :=
  [ TRef.unary (.of main_cst_12) main_call2.v0 id,
    TRef.unary main_call2.v0 main_call2.v1 (broadcastInDim S50000 ![] bcast_S_S50000),
    TRef.ternary (.of main_v60) (.of main_v61) main_call2.v1 main_call2.v2 select ]

set_option maxRecDepth 16384 in
theorem N2c_v62 (V : Valuation τ sig (Elt Ideal)) :
    after N2c V (Proc.devRef .tc main_v62)
      = select (V (Proc.devRef .tc main_v60) : IVec S50000 1) (V (Proc.devRef .tc main_v61) : FVec Ideal S50000 .f32) (broadcastInDim Cert.GCN.SN ![] (by decide) (id (V (Proc.devRef .tc main_cst_12) : FVec Ideal S_ .f32))) := by
  unfold N2c
  simp only [after_cons, after_nil]
  rfl

/-- The buffers `N2c` writes. -/
def N2c_W : List (Ref sig .tc) := [main_call2.v0.ref, main_call2.v1.ref, main_call2.v2.ref]
theorem N2c_writes : (N2c : List (HloOp τ sig (Elt F))).Forall fun op => op.writes ⊆ (N2c_W.map (Proc.devRef (τ := τ) .tc)).toFinset := by
  simp only [N2c, List.Forall, nullary_writes, unary_writes, binary_writes, ternary_writes, reshape_writes, Finset.singleton_subset_iff, List.mem_toFinset]
  repeat' apply And.intro
  all_goals exact List.mem_map_of_mem (by decide)
/-- A buffer `N2c` does not write keeps its contents. -/
theorem N2c_keeps (V : Valuation τ sig (Elt F)) {r : Ref sig .tc} (hr : r ∉ N2c_W) :
    after N2c V (no_index (Proc.devRef .tc r)) = V (Proc.devRef .tc r) :=
  after_of_writes_sub N2c V N2c_writes hr

/-- the edge weights from the node weights. -/
def N2b : List (HloOp τ sig (Elt F)) :=
  [ nullary main_c_13 (constantI S_ 32 0#32),
    unary main_c_13 main_v63 (broadcastInDim S1650000 ![] bcast_S_S1650000 : (⟨S_, .i32⟩ : BufTy).Contents (Elt F) → (⟨S1650000, .i32⟩ : BufTy).Contents (Elt F)),
    binary main_v51 main_v63 main_v64 (cmpi .slt : (⟨S1650000, .i32⟩ : BufTy).Contents (Elt F) → (⟨S1650000, .i32⟩ : BufTy).Contents (Elt F) → (⟨S1650000, .i1⟩ : BufTy).Contents (Elt F)),
    nullary main_c_14 (constantI S_ 32 50000#32),
    unary main_c_14 main_v65 (broadcastInDim S1650000 ![] bcast_S_S1650000 : (⟨S_, .i32⟩ : BufTy).Contents (Elt F) → (⟨S1650000, .i32⟩ : BufTy).Contents (Elt F)),
    binary main_v51 main_v65 main_v66 (addi : (⟨S1650000, .i32⟩ : BufTy).Contents (Elt F) → (⟨S1650000, .i32⟩ : BufTy).Contents (Elt F) → (⟨S1650000, .i32⟩ : BufTy).Contents (Elt F)),
    ternary main_v64 main_v66 main_v51 main_v67 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v67 main_v68 (broadcastInDim S1650000x1 ![0] bcast_S1650000_S1650000x1_0 : (⟨S1650000, .i32⟩ : BufTy).Contents (Elt F) → (⟨S1650000x1, .i32⟩ : BufTy).Contents (Elt F)),
    binary main_v62 main_v68 main_v69 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    nullary main_c_15 (constantI S_ 32 0#32),
    unary main_c_15 main_v70 (broadcastInDim S1650000 ![] bcast_S_S1650000 : (⟨S_, .i32⟩ : BufTy).Contents (Elt F) → (⟨S1650000, .i32⟩ : BufTy).Contents (Elt F)),
    binary main_v54 main_v70 main_v71 (cmpi .slt : (⟨S1650000, .i32⟩ : BufTy).Contents (Elt F) → (⟨S1650000, .i32⟩ : BufTy).Contents (Elt F) → (⟨S1650000, .i1⟩ : BufTy).Contents (Elt F)),
    nullary main_c_16 (constantI S_ 32 50000#32),
    unary main_c_16 main_v72 (broadcastInDim S1650000 ![] bcast_S_S1650000 : (⟨S_, .i32⟩ : BufTy).Contents (Elt F) → (⟨S1650000, .i32⟩ : BufTy).Contents (Elt F)),
    binary main_v54 main_v72 main_v73 (addi : (⟨S1650000, .i32⟩ : BufTy).Contents (Elt F) → (⟨S1650000, .i32⟩ : BufTy).Contents (Elt F) → (⟨S1650000, .i32⟩ : BufTy).Contents (Elt F)),
    ternary main_v71 main_v73 main_v54 main_v74 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v74 main_v75 (broadcastInDim S1650000x1 ![0] bcast_S1650000_S1650000x1_0 : (⟨S1650000, .i32⟩ : BufTy).Contents (Elt F) → (⟨S1650000x1, .i32⟩ : BufTy).Contents (Elt F)),
    binary main_v62 main_v75 main_v76 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    binary main_v69 main_v76 main_v77 (mulf : (⟨S1650000, .f32⟩ : BufTy).Contents (Elt F) → (⟨S1650000, .f32⟩ : BufTy).Contents (Elt F) → (⟨S1650000, .f32⟩ : BufTy).Contents (Elt F)) ]

set_option maxRecDepth 16384 in
theorem N2b_v77 (V : Valuation τ sig (Elt Ideal)) :
    after N2b V (Proc.devRef .tc main_v77)
      = mulf (F := Ideal) (φ := .f32) (Host.gather Cert.GCN.gatherNode (V (Proc.devRef .tc main_v62) : FVec Ideal S50000 .f32) (Cert.GCN.col (Cert.GCN.wrap (V (Proc.devRef .tc main_v51) : IVec S1650000 32))))
          (Host.gather Cert.GCN.gatherNode (V (Proc.devRef .tc main_v62) : FVec Ideal S50000 .f32) (Cert.GCN.col (Cert.GCN.wrap (V (Proc.devRef .tc main_v54) : IVec S1650000 32)))) := by
  unfold N2b
  after_results_simp
  rfl

/-- The buffers `N2b` writes. -/
def N2b_W : List (Ref sig .tc) := [main_c_13, main_v63, main_v64, main_c_14, main_v65, main_v66, main_v67, main_v68, main_v69, main_c_15, main_v70, main_v71, main_c_16, main_v72, main_v73, main_v74, main_v75, main_v76, main_v77]
theorem N2b_writes : (N2b : List (HloOp τ sig (Elt F))).Forall fun op => op.writes ⊆ (N2b_W.map (Proc.devRef (τ := τ) .tc)).toFinset := by
  simp only [N2b, List.Forall, nullary_writes, unary_writes, binary_writes, ternary_writes, reshape_writes, Finset.singleton_subset_iff, List.mem_toFinset]
  repeat' apply And.intro
  all_goals exact List.mem_map_of_mem (by decide)
/-- A buffer `N2b` does not write keeps its contents. -/
theorem N2b_keeps (V : Valuation τ sig (Elt F)) {r : Ref sig .tc} (hr : r ∉ N2b_W) :
    after N2b V (no_index (Proc.devRef .tc r)) = V (Proc.devRef .tc r) :=
  after_of_writes_sub N2b V N2b_writes hr

end Cert.ReferenceIdeal.RefValue

end
-- ==== Proof.RefLayers.lean ====
/-
  The two layers. The first: the product of the features with the first weight matrix, each edge's source row scaled
  by the edge's weight and added into the edge's target row, the bias added to every row; then the rectifier (a called
  function's three operations). The second: the same aggregation of the product with the second weight matrix, its
  bias, the logistic function written as one over one plus the exponential of the negation, and the threshold at one half.
  Each is read from any contents of the buffers, and every buffer a piece does not write keeps its contents.
-/
import proofs.«156578_j35175782154949_2_alg».proof.Proof.RefOps
import proofs.«156578_j35175782154949_2_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- the first layer up to its bias: the product with the first weight matrix, gathered along the edges, scaled, scattered into the targets, and the bias added. -/
def L1a : List (HloOp τ sig (Elt F)) :=
  [ binary main_arg0 main_arg2 main_v30 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    nullary main_c_6 (constantI S_ 32 0#32),
    unary main_c_6 main_v31 (broadcastInDim S1650000 ![] bcast_S_S1650000 : (⟨S_, .i32⟩ : BufTy).Contents (Elt F) → (⟨S1650000, .i32⟩ : BufTy).Contents (Elt F)),
    binary main_v3 main_v31 main_v32 (cmpi .slt : (⟨S1650000, .i32⟩ : BufTy).Contents (Elt F) → (⟨S1650000, .i32⟩ : BufTy).Contents (Elt F) → (⟨S1650000, .i1⟩ : BufTy).Contents (Elt F)),
    nullary main_c_7 (constantI S_ 32 50000#32),
    unary main_c_7 main_v33 (broadcastInDim S1650000 ![] bcast_S_S1650000 : (⟨S_, .i32⟩ : BufTy).Contents (Elt F) → (⟨S1650000, .i32⟩ : BufTy).Contents (Elt F)),
    binary main_v3 main_v33 main_v34 (addi : (⟨S1650000, .i32⟩ : BufTy).Contents (Elt F) → (⟨S1650000, .i32⟩ : BufTy).Contents (Elt F) → (⟨S1650000, .i32⟩ : BufTy).Contents (Elt F)),
    ternary main_v32 main_v34 main_v3 main_v35 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v35 main_v36 (broadcastInDim S1650000x1 ![0] bcast_S1650000_S1650000x1_0 : (⟨S1650000, .i32⟩ : BufTy).Contents (Elt F) → (⟨S1650000x1, .i32⟩ : BufTy).Contents (Elt F)),
    binary main_v30 main_v36 main_v37 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)),
    unary main_v29 main_v38 (broadcastInDim S1650000x1 ![0] bcast_S1650000_S1650000x1_0 : (⟨S1650000, .f32⟩ : BufTy).Contents (Elt F) → (⟨S1650000x1, .f32⟩ : BufTy).Contents (Elt F)),
    unary main_v38 main_v39 (broadcastInDim S1650000x128 ![0, 1] bcast_S1650000x1_S1650000x128_0_1 : (⟨S1650000x1, .f32⟩ : BufTy).Contents (Elt F) → (⟨S1650000x128, .f32⟩ : BufTy).Contents (Elt F)),
    binary main_v37 main_v39 main_v40 (mulf : (⟨S1650000x128, .f32⟩ : BufTy).Contents (Elt F) → (⟨S1650000x128, .f32⟩ : BufTy).Contents (Elt F) → (⟨S1650000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v6 main_v42 (broadcastInDim S1650000x1 ![0] bcast_S1650000_S1650000x1_0 : (⟨S1650000, .i32⟩ : BufTy).Contents (Elt F) → (⟨S1650000x1, .i32⟩ : BufTy).Contents (Elt F)),
    ternary main_v41 main_v42 main_v40 main_v43 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)) ]

set_option maxRecDepth 16384 in
theorem L1a_v46 (V : Valuation τ sig (Elt Ideal)) :
    after L1a V (Proc.devRef .tc main_v46)
      = addf (F := Ideal) (φ := .f32)
          (Cert.GCN.agg128 (Host.dotGeneral (φ₁ := .f32) (φ₂ := .f32) Cert.GCN.dot1 none (V (Proc.devRef .tc main_arg0) : FVec Ideal S50000x256 .f32) (V (Proc.devRef .tc main_arg2) : FVec Ideal S256x128 .f32)) (V (Proc.devRef .tc main_v3) : IVec S1650000 32) (V (Proc.devRef .tc main_v6) : IVec S1650000 32) (V (Proc.devRef .tc main_v29) : FVec Ideal S1650000 .f32))
          (broadcastInDim Cert.GCN.SH ![0, 1] (by decide) (broadcastInDim Cert.GCN.SR1 ![1] (by decide) (V (Proc.devRef .tc main_arg3) : FVec Ideal S128 .f32))) := by
  unfold L1a
  after_results_simp
  rfl

/-- The buffers `L1a` writes. -/
def L1a_W : List (Ref sig .tc) := [main_v30, main_c_6, main_v31, main_v32, main_c_7, main_v33, main_v34, main_v35, main_v36, main_v37, main_v38, main_v39, main_v40, main_cst_8, main_v41, main_v42, main_v43, main_v44, main_v45, main_v46]
theorem L1a_writes : (L1a : List (HloOp τ sig (Elt F))).Forall fun op => op.writes ⊆ (L1a_W.map (Proc.devRef (τ := τ) .tc)).toFinset := by
  simp only [L1a, List.Forall, nullary_writes, unary_writes, binary_writes, ternary_writes, reshape_writes, Finset.singleton_subset_iff, List.mem_toFinset]
  repeat' apply And.intro
  all_goals exact List.mem_map_of_mem (by decide)
/-- A buffer `L1a` does not write keeps its contents. -/
theorem L1a_keeps (V : Valuation τ sig (Elt F)) {r : Ref sig .tc} (hr : r ∉ L1a_W) :
    after L1a V (no_index (Proc.devRef .tc r)) = V (Proc.devRef .tc r) :=
  after_of_writes_sub L1a V L1a_writes hr

/-- the rectifier. -/
def L1c : List (HloOp τ sig (Elt F)) :=
  [ TRef.nullary main_call1.cst (constant S_ .f32 0x00000000#32),
    TRef.unary main_call1.cst main_call1.v0 (broadcastInDim S50000x128 ![] bcast_S_S50000x128),
    TRef.binary (.of main_v46) main_call1.v0 main_call1.v1 maximumf ]

set_option maxRecDepth 16384 in
theorem L1c_v47 (V : Valuation τ sig (Elt Ideal)) :
    after L1c V (Proc.devRef .tc main_v47)
      = maximumf (F := Ideal) (φ := .f32) (V (Proc.devRef .tc main_v46) : FVec Ideal S50000x128 .f32) (broadcastInDim Cert.GCN.SH ![] (by decide) (constant (F := Ideal) Cert.GCN.S0 .f32 0x00000000#32)) := by
  unfold L1c
  simp only [after_cons, after_nil]
  rfl

/-- The buffers `L1c` writes. -/
def L1c_W : List (Ref sig .tc) := [main_call1.cst.ref, main_call1.v0.ref, main_call1.v1.ref]
theorem L1c_writes : (L1c : List (HloOp τ sig (Elt F))).Forall fun op => op.writes ⊆ (L1c_W.map (Proc.devRef (τ := τ) .tc)).toFinset := by
  simp only [L1c, List.Forall, nullary_writes, unary_writes, binary_writes, ternary_writes, reshape_writes, Finset.singleton_subset_iff, List.mem_toFinset]
  repeat' apply And.intro
  all_goals exact List.mem_map_of_mem (by decide)
/-- A buffer `L1c` does not write keeps its contents. -/
theorem L1c_keeps (V : Valuation τ sig (Elt F)) {r : Ref sig .tc} (hr : r ∉ L1c_W) :
    after L1c V (no_index (Proc.devRef .tc r)) = V (Proc.devRef .tc r) :=
  after_of_writes_sub L1c V L1c_writes hr

/-- the second layer, the logistic function and the threshold. -/
def L2 : List (HloOp τ sig (Elt F)) :=
  [ binary main_v47 main_arg4 main_v78 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    nullary main_c_17 (constantI S_ 32 0#32),
    unary main_c_17 main_v79 (broadcastInDim S1650000 ![] bcast_S_S1650000 : (⟨S_, .i32⟩ : BufTy).Contents (Elt F) → (⟨S1650000, .i32⟩ : BufTy).Contents (Elt F)),
    binary main_v51 main_v79 main_v80 (cmpi .slt : (⟨S1650000, .i32⟩ : BufTy).Contents (Elt F) → (⟨S1650000, .i32⟩ : BufTy).Contents (Elt F) → (⟨S1650000, .i1⟩ : BufTy).Contents (Elt F)),
    nullary main_c_18 (constantI S_ 32 50000#32),
    unary main_c_18 main_v81 (broadcastInDim S1650000 ![] bcast_S_S1650000 : (⟨S_, .i32⟩ : BufTy).Contents (Elt F) → (⟨S1650000, .i32⟩ : BufTy).Contents (Elt F)),
    binary main_v51 main_v81 main_v82 (addi : (⟨S1650000, .i32⟩ : BufTy).Contents (Elt F) → (⟨S1650000, .i32⟩ : BufTy).Contents (Elt F) → (⟨S1650000, .i32⟩ : BufTy).Contents (Elt F)),
    ternary main_v80 main_v82 main_v51 main_v83 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v83 main_v84 (broadcastInDim S1650000x1 ![0] bcast_S1650000_S1650000x1_0 : (⟨S1650000, .i32⟩ : BufTy).Contents (Elt F) → (⟨S1650000x1, .i32⟩ : BufTy).Contents (Elt F)),
    binary main_v78 main_v84 main_v85 ((fun x i => Host.gather gather_S50000x64_S1650000x1_S1650000x64_1_0_n_n_0_1_164 x i) : (⟨S50000x64, .f32⟩ : BufTy).Contents (Elt F) → (⟨S1650000x1, .i32⟩ : BufTy).Contents (Elt F) → (⟨S1650000x64, .f32⟩ : BufTy).Contents (Elt F)),
    unary main_v77 main_v86 (broadcastInDim S1650000x1 ![0] bcast_S1650000_S1650000x1_0 : (⟨S1650000, .f32⟩ : BufTy).Contents (Elt F) → (⟨S1650000x1, .f32⟩ : BufTy).Contents (Elt F)),
    unary main_v86 main_v87 (broadcastInDim S1650000x64 ![0, 1] bcast_S1650000x1_S1650000x64_0_1 : (⟨S1650000x1, .f32⟩ : BufTy).Contents (Elt F) → (⟨S1650000x64, .f32⟩ : BufTy).Contents (Elt F)),
    binary main_v85 main_v87 main_v88 (mulf : (⟨S1650000x64, .f32⟩ : BufTy).Contents (Elt F) → (⟨S1650000x64, .f32⟩ : BufTy).Contents (Elt F) → (⟨S1650000x64, .f32⟩ : BufTy).Contents (Elt F)),
    nullary main_cst_19 (constant S_ .f32 0x00000000#32),
    unary main_cst_19 main_v89 (broadcastInDim S50000x64 ![] bcast_S_S50000x64 : (⟨S_, .f32⟩ : BufTy).Contents (Elt F) → (⟨S50000x64, .f32⟩ : BufTy).Contents (Elt F)),
    unary main_v54 main_v90 (broadcastInDim S1650000x1 ![0] bcast_S1650000_S1650000x1_0 : (⟨S1650000, .i32⟩ : BufTy).Contents (Elt F) → (⟨S1650000x1, .i32⟩ : BufTy).Contents (Elt F)),
    ternary main_v89 main_v90 main_v88 main_v91 ((fun x i u => Host.scatterAdd scatter_S50000x64_S1650000x1_S1650000x64_1_0_0_1 x i u) : (⟨S50000x64, .f32⟩ : BufTy).Contents (Elt F) → (⟨S1650000x1, .i32⟩ : BufTy).Contents (Elt F) → (⟨S1650000x64, .f32⟩ : BufTy).Contents (Elt F) → (⟨S50000x64, .f32⟩ : BufTy).Contents (Elt F)),
    unary main_arg5 main_v92 (broadcastInDim S1x64 ![1] bcast_S64_S1x64_1 : (⟨S64, .f32⟩ : BufTy).Contents (Elt F) → (⟨S1x64, .f32⟩ : BufTy).Contents (Elt F)),
    unary main_v92 main_v93 (broadcastInDim S50000x64 ![0, 1] bcast_S1x64_S50000x64_0_1 : (⟨S1x64, .f32⟩ : BufTy).Contents (Elt F) → (⟨S50000x64, .f32⟩ : BufTy).Contents (Elt F)),
    binary main_v91 main_v93 main_v94 (addf : (⟨S50000x64, .f32⟩ : BufTy).Contents (Elt F) → (⟨S50000x64, .f32⟩ : BufTy).Contents (Elt F) → (⟨S50000x64, .f32⟩ : BufTy).Contents (Elt F)),
    unary main_v94 main_v95 (Host.negf : (⟨S50000x64, .f32⟩ : BufTy).Contents (Elt F) → (⟨S50000x64, .f32⟩ : BufTy).Contents (Elt F)),
    unary main_v95 main_v96 (Host.exp : (⟨S50000x64, .f32⟩ : BufTy).Contents (Elt F) → (⟨S50000x64, .f32⟩ : BufTy).Contents (Elt F)),
    nullary main_cst_20 (constant S_ .f32 0x3F800000#32),
    unary main_cst_20 main_v97 (broadcastInDim S50000x64 ![] bcast_S_S50000x64 : (⟨S_, .f32⟩ : BufTy).Contents (Elt F) → (⟨S50000x64, .f32⟩ : BufTy).Contents (Elt F)),
    binary main_v97 main_v96 main_v98 (addf : (⟨S50000x64, .f32⟩ : BufTy).Contents (Elt F) → (⟨S50000x64, .f32⟩ : BufTy).Contents (Elt F) → (⟨S50000x64, .f32⟩ : BufTy).Contents (Elt F)),
    nullary main_cst_21 (constant S_ .f32 0x3F800000#32),
    unary main_cst_21 main_v99 (broadcastInDim S50000x64 ![] bcast_S_S50000x64 : (⟨S_, .f32⟩ : BufTy).Contents (Elt F) → (⟨S50000x64, .f32⟩ : BufTy).Contents (Elt F)),
    binary main_v99 main_v98 main_v100 (Host.divf : (⟨S50000x64, .f32⟩ : BufTy).Contents (Elt F) → (⟨S50000x64, .f32⟩ : BufTy).Contents (Elt F) → (⟨S50000x64, .f32⟩ : BufTy).Contents (Elt F)),
    nullary main_cst_22 (constant S_ .f32 0x3F000000#32),
    unary main_cst_22 main_v101 (broadcastInDim S50000x64 ![] bcast_S_S50000x64 : (⟨S_, .f32⟩ : BufTy).Contents (Elt F) → (⟨S50000x64, .f32⟩ : BufTy).Contents (Elt F)),
    binary main_v100 main_v101 main_v102 (cmpf .ogt : (⟨S50000x64, .f32⟩ : BufTy).Contents (Elt F) → (⟨S50000x64, .f32⟩ : BufTy).Contents (Elt F) → (⟨S50000x64, .i1⟩ : BufTy).Contents (Elt F)),
    unary main_v102 main_v103 (uitofp .f32 : (⟨S50000x64, .i1⟩ : BufTy).Contents (Elt F) → (⟨S50000x64, .f32⟩ : BufTy).Contents (Elt F)) ]

set_option maxRecDepth 16384 in
theorem L2_v100 (V : Valuation τ sig (Elt Ideal)) :
    after L2 V (Proc.devRef .tc main_v100)
      = Cert.GCN.sigm (Cert.GCN.logits (Cert.GCN.agg64 (Host.dotGeneral (φ₁ := .f32) (φ₂ := .f32) Cert.GCN.dot2 none (V (Proc.devRef .tc main_v47) : FVec Ideal S50000x128 .f32) (V (Proc.devRef .tc main_arg4) : FVec Ideal S128x64 .f32)) (V (Proc.devRef .tc main_v51) : IVec S1650000 32) (V (Proc.devRef .tc main_v54) : IVec S1650000 32) (V (Proc.devRef .tc main_v77) : FVec Ideal S1650000 .f32)) (V (Proc.devRef .tc main_arg5) : FVec Ideal S64 .f32)) := by
  unfold L2
  after_results_simp
  rfl

set_option maxRecDepth 16384 in
theorem L2_v103 (V : Valuation τ sig (Elt Ideal)) :
    after L2 V (Proc.devRef .tc main_v103)
      = Cert.GCN.thresh (Cert.GCN.sigm (Cert.GCN.logits (Cert.GCN.agg64 (Host.dotGeneral (φ₁ := .f32) (φ₂ := .f32) Cert.GCN.dot2 none (V (Proc.devRef .tc main_v47) : FVec Ideal S50000x128 .f32) (V (Proc.devRef .tc main_arg4) : FVec Ideal S128x64 .f32)) (V (Proc.devRef .tc main_v51) : IVec S1650000 32) (V (Proc.devRef .tc main_v54) : IVec S1650000 32) (V (Proc.devRef .tc main_v77) : FVec Ideal S1650000 .f32)) (V (Proc.devRef .tc main_arg5) : FVec Ideal S64 .f32))) := by
  unfold L2
  after_results_simp
  rfl

/-- The buffers `L2` writes. -/
def L2_W : List (Ref sig .tc) := [main_v78, main_c_17, main_v79, main_v80, main_c_18, main_v81, main_v82, main_v83, main_v84, main_v85, main_v86, main_v87, main_v88, main_cst_19, main_v89, main_v90, main_v91, main_v92, main_v93, main_v94, main_v95, main_v96, main_cst_20, main_v97, main_v98, main_cst_21, main_v99, main_v100, main_cst_22, main_v101, main_v102, main_v103]
theorem L2_writes : (L2 : List (HloOp τ sig (Elt F))).Forall fun op => op.writes ⊆ (L2_W.map (Proc.devRef (τ := τ) .tc)).toFinset := by
  simp only [L2, List.Forall, nullary_writes, unary_writes, binary_writes, ternary_writes, reshape_writes, Finset.singleton_subset_iff, List.mem_toFinset]
  repeat' apply And.intro
  all_goals exact List.mem_map_of_mem (by decide)
/-- A buffer `L2` does not write keeps its contents. -/
theorem L2_keeps (V : Valuation τ sig (Elt F)) {r : Ref sig .tc} (hr : r ∉ L2_W) :
    after L2 V (no_index (Proc.devRef .tc r)) = V (Proc.devRef .tc r) :=
  after_of_writes_sub L2 V L2_writes hr

end Cert.ReferenceIdeal.RefValue

end
-- ==== Proof.RefFold.lean ====
/-
  The whole line of operations, folded over any contents of the buffers, read at the two results and at the six arguments.

  The line is the eleven pieces in order, so its fold is the pieces' folds composed. Reading a result backwards through
  the pieces: the last piece gives it as the logistic function (and the threshold) of the second layer over the hidden
  activations, the second copy of the edge data and its weights; the pieces before give the weights as the
  specification's `norm` of the sources and targets, those as `src` and `dst` of the edge list, and the hidden activations as
  the rectified first layer over the first copy of the same edge data and weights; a buffer a piece does not write
  passes through it unchanged. What is left is the specification's `prob` and `pred` of the six arguments, by unfolding.
  No piece writes an argument, so each argument passes through all eleven.
-/
import proofs.«156578_j35175782154949_2_alg».proof.Proof.RefEdges
import proofs.«156578_j35175782154949_2_alg».proof.Proof.RefWeights1
import proofs.«156578_j35175782154949_2_alg».proof.Proof.RefWeights2
import proofs.«156578_j35175782154949_2_alg».proof.Proof.RefLayers

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
/-- The line is the eleven pieces in order. -/
theorem ops_split : (ops : List (HloOp τ sig (Elt F))) = E1 ++ (N1a ++ (N1c ++ (N1b ++ (L1a ++ (L1c ++ (E2 ++ (N2a ++ (N2c ++ (N2b ++ (L2)))))))))) := rfl

/-- The fold of the line is the pieces' folds composed. -/
theorem after_ops (V : Valuation τ sig (Elt F)) :
    after ops V = after L2 (after N2b (after N2c (after N2a (after E2 (after L1c (after L1a (after N1b (after N1c (after N1a (after E1 (V))))))))))) := by
  rw [ops_split]
  simp only [Cert.LibAfter.after_append]

set_option maxRecDepth 16384 in
set_option maxHeartbeats 1000000 in
/-- The probabilities: the line's fold at `main_v100` is the specification's `prob` of the six arguments. -/
theorem fold_v100 (V : Valuation τ sig (Elt Ideal)) :
    after ops V (Proc.devRef .tc main_v100)
      = Cert.GCN.prob (V (Proc.devRef .tc main_arg0) : FVec Ideal S50000x256 .f32) (V (Proc.devRef .tc main_arg1) : IVec S2x1600000 32) (V (Proc.devRef .tc main_arg2) : FVec Ideal S256x128 .f32) (V (Proc.devRef .tc main_arg3) : FVec Ideal S128 .f32) (V (Proc.devRef .tc main_arg4) : FVec Ideal S128x64 .f32) (V (Proc.devRef .tc main_arg5) : FVec Ideal S64 .f32) := by
  rw [after_ops]
  rw [
    L2_v100, N2b_keeps _ (r := main_v47) (by decide), N2b_keeps _ (r := main_arg4) (by decide),
    N2b_keeps _ (r := main_v51) (by decide), N2b_keeps _ (r := main_v54) (by decide), N2b_v77,
    N2b_keeps _ (r := main_arg5) (by decide), N2c_keeps _ (r := main_v47) (by decide),
    N2c_keeps _ (r := main_arg4) (by decide), N2c_keeps _ (r := main_v51) (by decide),
    N2c_keeps _ (r := main_v54) (by decide), N2c_v62, N2c_keeps _ (r := main_arg5) (by decide),
    N2a_keeps _ (r := main_v47) (by decide), N2a_keeps _ (r := main_arg4) (by decide),
    N2a_keeps _ (r := main_v51) (by decide), N2a_keeps _ (r := main_v54) (by decide), N2a_v60, N2a_v61, N2a_cst_12,
    N2a_keeps _ (r := main_arg5) (by decide), E2_keeps _ (r := main_v47) (by decide),
    E2_keeps _ (r := main_arg4) (by decide), E2_v51, E2_v54, E2_keeps _ (r := main_arg5) (by decide), L1c_v47,
    L1c_keeps _ (r := main_arg4) (by decide), L1c_keeps _ (r := main_arg1) (by decide),
    L1c_keeps _ (r := main_arg5) (by decide), L1a_v46, L1a_keeps _ (r := main_arg4) (by decide),
    L1a_keeps _ (r := main_arg1) (by decide), L1a_keeps _ (r := main_arg5) (by decide),
    N1b_keeps _ (r := main_arg0) (by decide), N1b_keeps _ (r := main_arg2) (by decide),
    N1b_keeps _ (r := main_v3) (by decide), N1b_keeps _ (r := main_v6) (by decide), N1b_v29,
    N1b_keeps _ (r := main_arg3) (by decide), N1b_keeps _ (r := main_arg4) (by decide),
    N1b_keeps _ (r := main_arg1) (by decide), N1b_keeps _ (r := main_arg5) (by decide),
    N1c_keeps _ (r := main_arg0) (by decide), N1c_keeps _ (r := main_arg2) (by decide),
    N1c_keeps _ (r := main_v3) (by decide), N1c_keeps _ (r := main_v6) (by decide), N1c_v14,
    N1c_keeps _ (r := main_arg3) (by decide), N1c_keeps _ (r := main_arg4) (by decide),
    N1c_keeps _ (r := main_arg1) (by decide), N1c_keeps _ (r := main_arg5) (by decide),
    N1a_keeps _ (r := main_arg0) (by decide), N1a_keeps _ (r := main_arg2) (by decide),
    N1a_keeps _ (r := main_v3) (by decide), N1a_keeps _ (r := main_v6) (by decide), N1a_v12, N1a_v13, N1a_cst_2,
    N1a_keeps _ (r := main_arg3) (by decide), N1a_keeps _ (r := main_arg4) (by decide),
    N1a_keeps _ (r := main_arg1) (by decide), N1a_keeps _ (r := main_arg5) (by decide),
    E1_keeps _ (r := main_arg0) (by decide), E1_keeps _ (r := main_arg2) (by decide), E1_v3, E1_v6,
    E1_keeps _ (r := main_arg3) (by decide), E1_keeps _ (r := main_arg4) (by decide),
    E1_keeps _ (r := main_arg1) (by decide), E1_keeps _ (r := main_arg5) (by decide)]
  rfl

set_option maxRecDepth 16384 in
set_option maxHeartbeats 1000000 in
/-- The predictions: the line's fold at `main_v103` is the specification's `pred` of the six arguments. -/
theorem fold_v103 (V : Valuation τ sig (Elt Ideal)) :
    after ops V (Proc.devRef .tc main_v103)
      = Cert.GCN.pred (V (Proc.devRef .tc main_arg0) : FVec Ideal S50000x256 .f32) (V (Proc.devRef .tc main_arg1) : IVec S2x1600000 32) (V (Proc.devRef .tc main_arg2) : FVec Ideal S256x128 .f32) (V (Proc.devRef .tc main_arg3) : FVec Ideal S128 .f32) (V (Proc.devRef .tc main_arg4) : FVec Ideal S128x64 .f32) (V (Proc.devRef .tc main_arg5) : FVec Ideal S64 .f32) := by
  rw [after_ops]
  rw [
    L2_v103, N2b_keeps _ (r := main_v47) (by decide), N2b_keeps _ (r := main_arg4) (by decide),
    N2b_keeps _ (r := main_v51) (by decide), N2b_keeps _ (r := main_v54) (by decide), N2b_v77,
    N2b_keeps _ (r := main_arg5) (by decide), N2c_keeps _ (r := main_v47) (by decide),
    N2c_keeps _ (r := main_arg4) (by decide), N2c_keeps _ (r := main_v51) (by decide),
    N2c_keeps _ (r := main_v54) (by decide), N2c_v62, N2c_keeps _ (r := main_arg5) (by decide),
    N2a_keeps _ (r := main_v47) (by decide), N2a_keeps _ (r := main_arg4) (by decide),
    N2a_keeps _ (r := main_v51) (by decide), N2a_keeps _ (r := main_v54) (by decide), N2a_v60, N2a_v61, N2a_cst_12,
    N2a_keeps _ (r := main_arg5) (by decide), E2_keeps _ (r := main_v47) (by decide),
    E2_keeps _ (r := main_arg4) (by decide), E2_v51, E2_v54, E2_keeps _ (r := main_arg5) (by decide), L1c_v47,
    L1c_keeps _ (r := main_arg4) (by decide), L1c_keeps _ (r := main_arg1) (by decide),
    L1c_keeps _ (r := main_arg5) (by decide), L1a_v46, L1a_keeps _ (r := main_arg4) (by decide),
    L1a_keeps _ (r := main_arg1) (by decide), L1a_keeps _ (r := main_arg5) (by decide),
    N1b_keeps _ (r := main_arg0) (by decide), N1b_keeps _ (r := main_arg2) (by decide),
    N1b_keeps _ (r := main_v3) (by decide), N1b_keeps _ (r := main_v6) (by decide), N1b_v29,
    N1b_keeps _ (r := main_arg3) (by decide), N1b_keeps _ (r := main_arg4) (by decide),
    N1b_keeps _ (r := main_arg1) (by decide), N1b_keeps _ (r := main_arg5) (by decide),
    N1c_keeps _ (r := main_arg0) (by decide), N1c_keeps _ (r := main_arg2) (by decide),
    N1c_keeps _ (r := main_v3) (by decide), N1c_keeps _ (r := main_v6) (by decide), N1c_v14,
    N1c_keeps _ (r := main_arg3) (by decide), N1c_keeps _ (r := main_arg4) (by decide),
    N1c_keeps _ (r := main_arg1) (by decide), N1c_keeps _ (r := main_arg5) (by decide),
    N1a_keeps _ (r := main_arg0) (by decide), N1a_keeps _ (r := main_arg2) (by decide),
    N1a_keeps _ (r := main_v3) (by decide), N1a_keeps _ (r := main_v6) (by decide), N1a_v12, N1a_v13, N1a_cst_2,
    N1a_keeps _ (r := main_arg3) (by decide), N1a_keeps _ (r := main_arg4) (by decide),
    N1a_keeps _ (r := main_arg1) (by decide), N1a_keeps _ (r := main_arg5) (by decide),
    E1_keeps _ (r := main_arg0) (by decide), E1_keeps _ (r := main_arg2) (by decide), E1_v3, E1_v6,
    E1_keeps _ (r := main_arg3) (by decide), E1_keeps _ (r := main_arg4) (by decide),
    E1_keeps _ (r := main_arg1) (by decide), E1_keeps _ (r := main_arg5) (by decide)]
  rfl

/-- No piece writes `main_arg0`. -/
theorem fold_arg0 (V : Valuation τ sig (Elt F)) :
    after ops V (Proc.devRef .tc main_arg0) = V (Proc.devRef .tc main_arg0) := by
  rw [after_ops]
  rw [
    L2_keeps _ (r := main_arg0) (by decide), N2b_keeps _ (r := main_arg0) (by decide),
    N2c_keeps _ (r := main_arg0) (by decide), N2a_keeps _ (r := main_arg0) (by decide),
    E2_keeps _ (r := main_arg0) (by decide), L1c_keeps _ (r := main_arg0) (by decide),
    L1a_keeps _ (r := main_arg0) (by decide), N1b_keeps _ (r := main_arg0) (by decide),
    N1c_keeps _ (r := main_arg0) (by decide), N1a_keeps _ (r := main_arg0) (by decide),
    E1_keeps _ (r := main_arg0) (by decide)]

/-- No piece writes `main_arg1`. -/
theorem fold_arg1 (V : Valuation τ sig (Elt F)) :
    after ops V (Proc.devRef .tc main_arg1) = V (Proc.devRef .tc main_arg1) := by
  rw [after_ops]
  rw [
    L2_keeps _ (r := main_arg1) (by decide), N2b_keeps _ (r := main_arg1) (by decide),
    N2c_keeps _ (r := main_arg1) (by decide), N2a_keeps _ (r := main_arg1) (by decide),
    E2_keeps _ (r := main_arg1) (by decide), L1c_keeps _ (r := main_arg1) (by decide),
    L1a_keeps _ (r := main_arg1) (by decide), N1b_keeps _ (r := main_arg1) (by decide),
    N1c_keeps _ (r := main_arg1) (by decide), N1a_keeps _ (r := main_arg1) (by decide),
    E1_keeps _ (r := main_arg1) (by decide)]

/-- No piece writes `main_arg2`. -/
theorem fold_arg2 (V : Valuation τ sig (Elt F)) :
    after ops V (Proc.devRef .tc main_arg2) = V (Proc.devRef .tc main_arg2) := by
  rw [after_ops]
  rw [
    L2_keeps _ (r := main_arg2) (by decide), N2b_keeps _ (r := main_arg2) (by decide),
    N2c_keeps _ (r := main_arg2) (by decide), N2a_keeps _ (r := main_arg2) (by decide),
    E2_keeps _ (r := main_arg2) (by decide), L1c_keeps _ (r := main_arg2) (by decide),
    L1a_keeps _ (r := main_arg2) (by decide), N1b_keeps _ (r := main_arg2) (by decide),
    N1c_keeps _ (r := main_arg2) (by decide), N1a_keeps _ (r := main_arg2) (by decide),
    E1_keeps _ (r := main_arg2) (by decide)]

/-- No piece writes `main_arg3`. -/
theorem fold_arg3 (V : Valuation τ sig (Elt F)) :
    after ops V (Proc.devRef .tc main_arg3) = V (Proc.devRef .tc main_arg3) := by
  rw [after_ops]
  rw [
    L2_keeps _ (r := main_arg3) (by decide), N2b_keeps _ (r := main_arg3) (by decide),
    N2c_keeps _ (r := main_arg3) (by decide), N2a_keeps _ (r := main_arg3) (by decide),
    E2_keeps _ (r := main_arg3) (by decide), L1c_keeps _ (r := main_arg3) (by decide),
    L1a_keeps _ (r := main_arg3) (by decide), N1b_keeps _ (r := main_arg3) (by decide),
    N1c_keeps _ (r := main_arg3) (by decide), N1a_keeps _ (r := main_arg3) (by decide),
    E1_keeps _ (r := main_arg3) (by decide)]

/-- No piece writes `main_arg4`. -/
theorem fold_arg4 (V : Valuation τ sig (Elt F)) :
    after ops V (Proc.devRef .tc main_arg4) = V (Proc.devRef .tc main_arg4) := by
  rw [after_ops]
  rw [
    L2_keeps _ (r := main_arg4) (by decide), N2b_keeps _ (r := main_arg4) (by decide),
    N2c_keeps _ (r := main_arg4) (by decide), N2a_keeps _ (r := main_arg4) (by decide),
    E2_keeps _ (r := main_arg4) (by decide), L1c_keeps _ (r := main_arg4) (by decide),
    L1a_keeps _ (r := main_arg4) (by decide), N1b_keeps _ (r := main_arg4) (by decide),
    N1c_keeps _ (r := main_arg4) (by decide), N1a_keeps _ (r := main_arg4) (by decide),
    E1_keeps _ (r := main_arg4) (by decide)]

/-- No piece writes `main_arg5`. -/
theorem fold_arg5 (V : Valuation τ sig (Elt F)) :
    after ops V (Proc.devRef .tc main_arg5) = V (Proc.devRef .tc main_arg5) := by
  rw [after_ops]
  rw [
    L2_keeps _ (r := main_arg5) (by decide), N2b_keeps _ (r := main_arg5) (by decide),
    N2c_keeps _ (r := main_arg5) (by decide), N2a_keeps _ (r := main_arg5) (by decide),
    E2_keeps _ (r := main_arg5) (by decide), L1c_keeps _ (r := main_arg5) (by decide),
    L1a_keeps _ (r := main_arg5) (by decide), N1b_keeps _ (r := main_arg5) (by decide),
    N1c_keeps _ (r := main_arg5) (by decide), N1a_keeps _ (r := main_arg5) (by decide),
    E1_keeps _ (r := main_arg5) (by decide)]

end Cert.ReferenceIdeal.RefValue

end
-- ==== Proof.RefFinal.lean ====
/-
  The reference program's run, read back: from any memory with zero counters every weakly fair execution terminates,
  with the predictions and the probabilities at the specification's `pred` and `prob` of the six arguments as launched,
  and the six arguments unchanged. The run leaves every buffer at the line's fold over the launch contents; the fold at
  the two results and at the arguments is read off piece by piece.
-/
import proofs.«156578_j35175782154949_2_alg».proof.Proof.RefRun
import proofs.«156578_j35175782154949_2_alg».proof.Proof.RefFold

noncomputable section

namespace Cert.ReferenceIdeal.RefValue
open Idealize.ShloMosaic Idealize.SL.Sem
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v103) = Cert.GCN.pred (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_v100) = Cert.GCN.prob (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)) :=
  (θ_run (Cert.ReferenceIdeal.defs (F := Ideal)) _ _).mono
    (fun _ h c =>
      ⟨(h c Cert.ReferenceIdeal.main_v103).trans (fold_v103 (StableHlo.launchContents m c)),
       (h c Cert.ReferenceIdeal.main_v100).trans (fold_v100 (StableHlo.launchContents m c)),
       (h c Cert.ReferenceIdeal.main_arg0).trans (fold_arg0 (StableHlo.launchContents m c)),
       (h c Cert.ReferenceIdeal.main_arg1).trans (fold_arg1 (StableHlo.launchContents m c)),
       (h c Cert.ReferenceIdeal.main_arg2).trans (fold_arg2 (StableHlo.launchContents m c)),
       (h c Cert.ReferenceIdeal.main_arg3).trans (fold_arg3 (StableHlo.launchContents m c)),
       (h c Cert.ReferenceIdeal.main_arg4).trans (fold_arg4 (StableHlo.launchContents m c)),
       (h c Cert.ReferenceIdeal.main_arg5).trans (fold_arg5 (StableHlo.launchContents m c))⟩)
    (run_after (F := Ideal) m ρ)
end Cert.ReferenceIdeal.RefValue

end
-- ==== Proof.lean ====
/-
  The kernel and its reference compute one function: a two-layer graph convolution with a sigmoid and a threshold.

  Both programs build the edge lists with self loops, the symmetric degree weights, and twice the step "multiply the
  node features by a weight matrix, gather the rows at the edges' sources, scale by the edge weights, add into the rows
  of the edges' targets, add the bias"; between the two steps negative values become 0, and at the end the logistic
  function gives the probabilities and the comparison with one half the predictions. The kernel does the two matrix
  products and the final bias–logistic–threshold step in three tiled regions of ten blocks of 5 000 rows each, stores
  the products in a shorter float format, and leaves gathering and scattering to the host; the reference does
  everything on the host and computes the edge weights twice.

  Over the extended reals a change of float format is the identity, a matrix unit's product into a zero accumulator and
  the host's general product are the same sum of products, row r of a product depends only on row r of the left factor
  (so the ten blocks are the restrictions of one product), and the logistic function is one over one plus the
  exponential of the negation. So both programs end with the SAME functions of their six arguments, `Cert.GCN.pred` and
  `Cert.GCN.prob`, with no finiteness hypothesis used: the two sides are the same extended real entry by entry.

  The three frames: the kernel programs' by the frame theorem over their eight stretches, the reference's from its run.
  The idealization rewrote no operation, so there is nothing to preserve.
-/
import proofs.«156578_j35175782154949_2_alg».proof.Defs
import proofs.«156578_j35175782154949_2_alg».proof.Proof.Gen.Kernel
import proofs.«156578_j35175782154949_2_alg».proof.Proof.Gen.Kernel.Frame
import proofs.«156578_j35175782154949_2_alg».proof.Proof.Gen.KernelIdeal
import proofs.«156578_j35175782154949_2_alg».proof.Proof.Gen.KernelIdeal.Frame
import proofs.«156578_j35175782154949_2_alg».proof.Proof.Gen.ReferenceIdeal
import proofs.«156578_j35175782154949_2_alg».proof.Proof.Gen.Pre_finite_inputs
import proofs.«156578_j35175782154949_2_alg».proof.Proof.KFinal
import proofs.«156578_j35175782154949_2_alg».proof.Proof.RefFinal

noncomputable section

namespace Cert.Proof

open Idealize.ShloMosaic Idealize.SL.Sem

/-- The kernel as printed runs and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- The idealized kernel runs and leaves its arguments unchanged. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The idealized reference runs and leaves its arguments unchanged: its run, with the results dropped. -/
theorem frame_referenceIdeal : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2.2)
    (Cert.ReferenceIdeal.RefValue.run m ρ)

/-- Both idealized programs end with the network's predictions and probabilities of the arguments they agree on. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.KValue.run m ρ, ?_⟩
  refine (θ_run (Cert.ReferenceIdeal.defs (F := Ideal)) _ _).mono (fun _ h c => ⟨(h c).1.trans ?_, (h c).2.1.trans ?_, (h c).2.2⟩)
    (Cert.ReferenceIdeal.RefValue.run m' ρ')
  · rw [(hagree c).1, (hagree c).2.1, (hagree c).2.2.1, (hagree c).2.2.2.1, (hagree c).2.2.2.2.1, (hagree c).2.2.2.2.2]
  · rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
